-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x96x320 : Shape := ⟨4, ![8, 256, 96, 320]⟩
abbrev S_ : Shape := ⟨0, ![]⟩

class Facts : Prop where
  bcast_S_S8x256x96x320 : S_.BroadcastsInDim S8x256x96x320 (![] : Fin 0 → Fin S8x256x96x320.rank)
  reducesTo_S8x256x96x320_S_d0_1_2_3 : S8x256x96x320.ReducesTo [0, 1, 2, 3] S_
  h_S_ : 0 < S_.numel

variable [Facts]

def fn {F : FTy → Type} [FloatOps F] (main_arg0 : FVec F S8x256x96x320 .f32) (main_arg1 : FVec F S8x256x96x320 .f32) : IVec S_ 1 :=
  let main_v0 : FVec F S8x256x96x320 .f32 := Host.absf main_arg0
  let main_cst : FVec F S_ .f32 := constant S_ .f32 0x7F800000#32
  let main_v1 : FVec F S8x256x96x320 .f32 := broadcastInDim S8x256x96x320 ![] bcast_S_S8x256x96x320 main_cst
  let main_v2 : IVec S8x256x96x320 1 := cmpf .olt main_v0 main_v1
  let main_c : IVec S_ 1 := constantI S_ 1 1#1
  let main_v3 : IVec S_ 1 := (fun x v => Host.reduce IntOp.andi x v reducesTo_S8x256x96x320_S_d0_1_2_3 h_S_) main_v2 main_c
  let main_v4 : FVec F S8x256x96x320 .f32 := Host.absf main_arg1
  let main_cst_0 : FVec F S_ .f32 := constant S_ .f32 0x7F800000#32
  let main_v5 : FVec F S8x256x96x320 .f32 := broadcastInDim S8x256x96x320 ![] bcast_S_S8x256x96x320 main_cst_0
  let main_v6 : IVec S8x256x96x320 1 := cmpf .olt main_v4 main_v5
  let main_c_1 : IVec S_ 1 := constantI S_ 1 1#1
  let main_v7 : IVec S_ 1 := (fun x v => Host.reduce IntOp.andi x v reducesTo_S8x256x96x320_S_d0_1_2_3 h_S_) main_v6 main_c_1
  let main_v8 : IVec S_ 1 := andi main_v3 main_v7
  main_v8
-- ==== Kernel.lean ====
abbrev S8x256x96x320 : Shape := ⟨4, ![8, 256, 96, 320]⟩
abbrev S8x9x96x320 : Shape := ⟨4, ![8, 9, 96, 320]⟩
abbrev S1x32x96x320 : Shape := ⟨4, ![1, 32, 96, 320]⟩
abbrev S1x9x96x320 : Shape := ⟨4, ![1, 9, 96, 320]⟩
abbrev S9x96x320 : Shape := ⟨3, ![9, 96, 320]⟩
abbrev S32x96x320 : Shape := ⟨3, ![32, 96, 320]⟩
abbrev S96x320 : Shape := ⟨2, ![96, 320]⟩
abbrev S1x96x320 : Shape := ⟨3, ![1, 96, 320]⟩

abbrev nBuf : Space → Nat
  | .hbm => 3
  | .vmem => 7
  | .smem => 0
  | _ => 0

abbrev bufTy : (tb : Table) → Fin (tcTables nBuf tb) → BufTy
  | .hbm, ⟨0, _⟩ => ⟨S8x256x96x320, .f32⟩
  | .hbm, ⟨1, _⟩ => ⟨S8x256x96x320, .f32⟩
  | .hbm, ⟨2, _⟩ => ⟨S8x9x96x320, .f32⟩
  | .local _ .vmem, ⟨0, _⟩ => ⟨S1x32x96x320, .f32⟩
  | .local _ .vmem, ⟨1, _⟩ => ⟨S1x32x96x320, .f32⟩
  | .local _ .vmem, ⟨2, _⟩ => ⟨S1x32x96x320, .f32⟩
  | .local _ .vmem, ⟨3, _⟩ => ⟨S1x32x96x320, .f32⟩
  | .local _ .vmem, ⟨4, _⟩ => ⟨S1x9x96x320, .f32⟩
  | .local _ .vmem, ⟨5, _⟩ => ⟨S1x9x96x320, .f32⟩
  | .local _ .vmem, ⟨6, _⟩ => ⟨S9x96x320, .f32⟩
  | _, _ => ⟨S8x256x96x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v188 : BitVec 1 := Scalar.cmpi .eq arg1 c7_i32
  let v189 : BitVec 32 := Scalar.extui v188
  let c0_i32_103 : BitVec 32 := 0#32
  let v190 : BitVec 1 := Scalar.cmpi .ne v189 c0_i32_103
  v190

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x96x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x96x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x96x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S9x96x320_S9x96x320_0_0_0 : ∀ a, (![0, 0, 0] : Fin 3 → Nat) a + S9x96x320.size a ≤ S9x96x320.size a
  h_S9x96x320 : 0 < S9x96x320.numel
  shapeCasts_S9x96x320_S9x96x320 : S9x96x320.ShapeCasts S9x96x320
  inb_S1x32x96x320_S1x32x96x320_0_0_0_0 : ∀ a, (![0, 0, 0, 0] : Fin 4 → Nat) a + S1x32x96x320.size a ≤ S1x32x96x320.size a
  h_S1x32x96x320 : 0 < S1x32x96x320.numel
  shapeCasts_S1x32x96x320_S32x96x320 : S1x32x96x320.ShapeCasts S32x96x320
  iota_S96x320_d1_w32 : S96x320.Iotas .tc 32 [1]
  rotates_S32x96x320_d2 : S32x96x320.Rotates 2 none
  reduces_S32x96x320_S96x320 : S32x96x320.Reduces [0] S96x320
  inb_S9x96x320_S1x96x320_0_0_0 : ∀ a, (![0, 0, 0] : Fin 3 → Nat) a + S1x96x320.size a ≤ S9x96x320.size a
  h_S1x96x320 : 0 < S1x96x320.numel
  shapeCasts_S1x96x320_S96x320 : S1x96x320.ShapeCasts S96x320
  shapeCasts_S96x320_S1x96x320 : S96x320.ShapeCasts S1x96x320
  inb_S9x96x320_S1x96x320_1_0_0 : ∀ a, (![1, 0, 0] : Fin 3 → Nat) a + S1x96x320.size a ≤ S9x96x320.size a
  inb_S9x96x320_S1x96x320_2_0_0 : ∀ a, (![2, 0, 0] : Fin 3 → Nat) a + S1x96x320.size a ≤ S9x96x320.size a
  inb_S9x96x320_S1x96x320_3_0_0 : ∀ a, (![3, 0, 0] : Fin 3 → Nat) a + S1x96x320.size a ≤ S9x96x320.size a
  inb_S9x96x320_S1x96x320_4_0_0 : ∀ a, (![4, 0, 0] : Fin 3 → Nat) a + S1x96x320.size a ≤ S9x96x320.size a
  inb_S9x96x320_S1x96x320_5_0_0 : ∀ a, (![5, 0, 0] : Fin 3 → Nat) a + S1x96x320.size a ≤ S9x96x320.size a
  inb_S9x96x320_S1x96x320_6_0_0 : ∀ a, (![6, 0, 0] : Fin 3 → Nat) a + S1x96x320.size a ≤ S9x96x320.size a
  inb_S9x96x320_S1x96x320_7_0_0 : ∀ a, (![7, 0, 0] : Fin 3 → Nat) a + S1x96x320.size a ≤ S9x96x320.size a
  inb_S9x96x320_S1x96x320_8_0_0 : ∀ a, (![8, 0, 0] : Fin 3 → Nat) a + S1x96x320.size a ≤ S9x96x320.size a
  inb_S1x9x96x320_S1x9x96x320_0_0_0_0 : ∀ a, (![0, 0, 0, 0] : Fin 4 → Nat) a + S1x9x96x320.size a ≤ S1x9x96x320.size a
  h_S1x9x96x320 : 0 < S1x9x96x320.numel
  shapeCasts_S1x9x96x320_S9x96x320 : S1x9x96x320.ShapeCasts S9x96x320
  shapeCasts_S9x96x320_S1x9x96x320 : S9x96x320.ShapeCasts S1x9x96x320
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x96x320.size a ≤ S8x256x96x320.size a
  hwx0_0 : ∀ i : grid0.Coords, EltTy.bits .f32 = 32 ∨ (Rect.block (s := S8x256x96x320) S1x32x96x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x96x320.size a ≤ S8x256x96x320.size a
  hwx0_1 : ∀ i : grid0.Coords, EltTy.bits .f32 = 32 ∨ (Rect.block (s := S8x256x96x320) S1x32x96x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9x96x320.size a ≤ S8x9x96x320.size a
  hwx0_2 : ∀ i : grid0.Coords, EltTy.bits .f32 = 32 ∨ (Rect.block (s := S8x9x96x320) S1x9x96x320.size (cc0_transform_2 i) (hinb0_2 i)).WholeWords (EltTy.packing .f32)

variable [Facts₀]

abbrev win0_0 : Pipeline.Window sig grid0 :=
  Pipeline.Window.ofSpec (Memref.whole main_arg0) S1x32x96x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x96x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x9x96x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x256x96x320 : Shape := ⟨4, ![8, 256, 96, 320]⟩
abbrev S_ : Shape := ⟨0, ![]⟩
abbrev S8x256x96x328 : Shape := ⟨4, ![8, 256, 96, 328]⟩
abbrev S8x96x320 : Shape := ⟨3, ![8, 96, 320]⟩
abbrev S8x1x96x320 : Shape := ⟨4, ![8, 1, 96, 320]⟩
abbrev S8x9x96x320 : Shape := ⟨4, ![8, 9, 96, 320]⟩

abbrev nBuf : Space → Nat
  | .hbm => 114
  | .vmem => 0
  | .smem => 0
  | _ => 0

abbrev bufTy : (tb : Table) → Fin (tcTables nBuf tb) → BufTy
  | .hbm, ⟨0, _⟩ => ⟨S8x256x96x320, .f32⟩
  | .hbm, ⟨1, _⟩ => ⟨S8x256x96x320, .f32⟩
  | .hbm, ⟨2, _⟩ => ⟨S_, .i32⟩
  | .hbm, ⟨3, _⟩ => ⟨S_, .f32⟩
  | .hbm, ⟨4, _⟩ => ⟨S8x256x96x328, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8x256x96x320, .f32⟩
  | .hbm, ⟨10, _⟩ => ⟨S8x256x96x320, .f32⟩
  | .hbm, ⟨11, _⟩ => ⟨S_, .f32⟩
  | .hbm, ⟨12, _⟩ => ⟨S8x96x320, .f32⟩
  | .hbm, ⟨13, _⟩ => ⟨S_, .f32⟩
  | .hbm, ⟨14, _⟩ => ⟨S8x96x320, .f32⟩
  | .hbm, ⟨15, _⟩ => ⟨S8x96x320, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x256x96x320, .f32⟩
  | .hbm, ⟨21, _⟩ => ⟨S8x256x96x320, .f32⟩
  | .hbm, ⟨22, _⟩ => ⟨S_, .f32⟩
  | .hbm, ⟨23, _⟩ => ⟨S8x96x320, .f32⟩
  | .hbm, ⟨24, _⟩ => ⟨S_, .f32⟩
  | .hbm, ⟨25, _⟩ => ⟨S8x96x320, .f32⟩
  | .hbm, ⟨26, _⟩ => ⟨S8x96x320, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S8x256x96x320, .f32⟩
  | .hbm, ⟨32, _⟩ => ⟨S8x256x96x320, .f32⟩
  | .hbm, ⟨33, _⟩ => ⟨S_, .f32⟩
  | .hbm, ⟨34, _⟩ => ⟨S8x96x320, .f32⟩
  | .hbm, ⟨35, _⟩ => ⟨S_, .f32⟩
  | .hbm, ⟨36, _⟩ => ⟨S8x96x320, .f32⟩
  | .hbm, ⟨37, _⟩ => ⟨S8x96x320, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S8x256x96x320, .f32⟩
  | .hbm, ⟨43, _⟩ => ⟨S8x256x96x320, .f32⟩
  | .hbm, ⟨44, _⟩ => ⟨S_, .f32⟩
  | .hbm, ⟨45, _⟩ => ⟨S8x96x320, .f32⟩
  | .hbm, ⟨46, _⟩ => ⟨S_, .f32⟩
  | .hbm, ⟨47, _⟩ => ⟨S8x96x320, .f32⟩
  | .hbm, ⟨48, _⟩ => ⟨S8x96x320, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S8x256x96x320, .f32⟩
  | .hbm, ⟨54, _⟩ => ⟨S8x256x96x320, .f32⟩
  | .hbm, ⟨55, _⟩ => ⟨S_, .f32⟩
  | .hbm, ⟨56, _⟩ => ⟨S8x96x320, .f32⟩
  | .hbm, ⟨57, _⟩ => ⟨S_, .f32⟩
  | .hbm, ⟨58, _⟩ => ⟨S8x96x320, .f32⟩
  | .hbm, ⟨59, _⟩ => ⟨S8x96x320, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S8x256x96x320, .f32⟩
  | .hbm, ⟨65, _⟩ => ⟨S8x256x96x320, .f32⟩
  | .hbm, ⟨66, _⟩ => ⟨S_, .f32⟩
  | .hbm, ⟨67, _⟩ => ⟨S8x96x320, .f32⟩
  | .hbm, ⟨68, _⟩ => ⟨S_, .f32⟩
  | .hbm, ⟨69, _⟩ => ⟨S8x96x320, .f32⟩
  | .hbm, ⟨70, _⟩ => ⟨S8x96x320, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S8x256x96x320, .f32⟩
  | .hbm, ⟨76, _⟩ => ⟨S8x256x96x320, .f32⟩
  | .hbm, ⟨77, _⟩ => ⟨S_, .f32⟩
  | .hbm, ⟨78, _⟩ => ⟨S8x96x320, .f32⟩
  | .hbm, ⟨79, _⟩ => ⟨S_, .f32⟩
  | .hbm, ⟨80, _⟩ => ⟨S8x96x320, .f32⟩
  | .hbm, ⟨81, _⟩ => ⟨S8x96x320, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S8x256x96x320, .f32⟩
  | .hbm, ⟨87, _⟩ => ⟨S8x256x96x320, .f32⟩
  | .hbm, ⟨88, _⟩ => ⟨S_, .f32⟩
  | .hbm, ⟨89, _⟩ => ⟨S8x96x320, .f32⟩
  | .hbm, ⟨90, _⟩ => ⟨S_, .f32⟩
  | .hbm, ⟨91, _⟩ => ⟨S8x96x320, .f32⟩
  | .hbm, ⟨92, _⟩ => ⟨S8x96x320, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S8x256x96x320, .f32⟩
  | .hbm, ⟨98, _⟩ => ⟨S8x256x96x320, .f32⟩
  | .hbm, ⟨99, _⟩ => ⟨S_, .f32⟩
  | .hbm, ⟨100, _⟩ => ⟨S8x96x320, .f32⟩
  | .hbm, ⟨101, _⟩ => ⟨S_, .f32⟩
  | .hbm, ⟨102, _⟩ => ⟨S8x96x320, .f32⟩
  | .hbm, ⟨103, _⟩ => ⟨S8x96x320, .f32⟩
  | .hbm, ⟨104, _⟩ => ⟨S8x1x96x320, .f32⟩
  | .hbm, ⟨105, _⟩ => ⟨S8x1x96x320, .f32⟩
  | .hbm, ⟨106, _⟩ => ⟨S8x1x96x320, .f32⟩
  | .hbm, ⟨107, _⟩ => ⟨S8x1x96x320, .f32⟩
  | .hbm, ⟨108, _⟩ => ⟨S8x1x96x320, .f32⟩
  | .hbm, ⟨109, _⟩ => ⟨S8x1x96x320, .f32⟩
  | .hbm, ⟨110, _⟩ => ⟨S8x1x96x320, .f32⟩
  | .hbm, ⟨111, _⟩ => ⟨S8x1x96x320, .f32⟩
  | .hbm, ⟨112, _⟩ => ⟨S8x1x96x320, .f32⟩
  | .hbm, ⟨113, _⟩ => ⟨S8x9x96x320, .f32⟩
  | _, _ => ⟨S8x256x96x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_4 : Ref sig .tc := ⟨.hbm, 13, rfl⟩
abbrev main_v4 : Ref sig .tc := ⟨.hbm, 14, rfl⟩
abbrev main_v5 : Ref sig .tc := ⟨.hbm, 15, rfl⟩
abbrev main_c_5 : Ref sig .tc := ⟨.hbm, 16, rfl⟩
abbrev main_c_6 : Ref sig .tc := ⟨.hbm, 17, rfl⟩
abbrev main_c_7 : Ref sig .tc := ⟨.hbm, 18, rfl⟩
abbrev main_c_8 : Ref sig .tc := ⟨.hbm, 19, rfl⟩
abbrev main_v6 : Ref sig .tc := ⟨.hbm, 20, rfl⟩
abbrev main_v7 : Ref sig .tc := ⟨.hbm, 21, rfl⟩
abbrev main_cst_9 : Ref sig .tc := ⟨.hbm, 22, rfl⟩
abbrev main_v8 : Ref sig .tc := ⟨.hbm, 23, rfl⟩
abbrev main_cst_10 : Ref sig .tc := ⟨.hbm, 24, rfl⟩
abbrev main_v9 : Ref sig .tc := ⟨.hbm, 25, rfl⟩
abbrev main_v10 : Ref sig .tc := ⟨.hbm, 26, rfl⟩
abbrev main_c_11 : Ref sig .tc := ⟨.hbm, 27, rfl⟩
abbrev main_c_12 : Ref sig .tc := ⟨.hbm, 28, rfl⟩
abbrev main_c_13 : Ref sig .tc := ⟨.hbm, 29, rfl⟩
abbrev main_c_14 : Ref sig .tc := ⟨.hbm, 30, rfl⟩
abbrev main_v11 : Ref sig .tc := ⟨.hbm, 31, rfl⟩
abbrev main_v12 : Ref sig .tc := ⟨.hbm, 32, rfl⟩
abbrev main_cst_15 : Ref sig .tc := ⟨.hbm, 33, rfl⟩
abbrev main_v13 : Ref sig .tc := ⟨.hbm, 34, rfl⟩
abbrev main_cst_16 : Ref sig .tc := ⟨.hbm, 35, rfl⟩
abbrev main_v14 : Ref sig .tc := ⟨.hbm, 36, rfl⟩
abbrev main_v15 : Ref sig .tc := ⟨.hbm, 37, rfl⟩
abbrev main_c_17 : Ref sig .tc := ⟨.hbm, 38, rfl⟩
abbrev main_c_18 : Ref sig .tc := ⟨.hbm, 39, rfl⟩
abbrev main_c_19 : Ref sig .tc := ⟨.hbm, 40, rfl⟩
abbrev main_c_20 : Ref sig .tc := ⟨.hbm, 41, rfl⟩
abbrev main_v16 : Ref sig .tc := ⟨.hbm, 42, rfl⟩
abbrev main_v17 : Ref sig .tc := ⟨.hbm, 43, rfl⟩
abbrev main_cst_21 : Ref sig .tc := ⟨.hbm, 44, rfl⟩
abbrev main_v18 : Ref sig .tc := ⟨.hbm, 45, rfl⟩
abbrev main_cst_22 : Ref sig .tc := ⟨.hbm, 46, rfl⟩
abbrev main_v19 : Ref sig .tc := ⟨.hbm, 47, rfl⟩
abbrev main_v20 : Ref sig .tc := ⟨.hbm, 48, rfl⟩
abbrev main_c_23 : Ref sig .tc := ⟨.hbm, 49, rfl⟩
abbrev main_c_24 : Ref sig .tc := ⟨.hbm, 50, rfl⟩
abbrev main_c_25 : Ref sig .tc := ⟨.hbm, 51, rfl⟩
abbrev main_c_26 : Ref sig .tc := ⟨.hbm, 52, rfl⟩
abbrev main_v21 : Ref sig .tc := ⟨.hbm, 53, rfl⟩
abbrev main_v22 : Ref sig .tc := ⟨.hbm, 54, rfl⟩
abbrev main_cst_27 : Ref sig .tc := ⟨.hbm, 55, rfl⟩
abbrev main_v23 : Ref sig .tc := ⟨.hbm, 56, rfl⟩
abbrev main_cst_28 : Ref sig .tc := ⟨.hbm, 57, rfl⟩
abbrev main_v24 : Ref sig .tc := ⟨.hbm, 58, rfl⟩
abbrev main_v25 : Ref sig .tc := ⟨.hbm, 59, rfl⟩
abbrev main_c_29 : Ref sig .tc := ⟨.hbm, 60, rfl⟩
abbrev main_c_30 : Ref sig .tc := ⟨.hbm, 61, rfl⟩
abbrev main_c_31 : Ref sig .tc := ⟨.hbm, 62, rfl⟩
abbrev main_c_32 : Ref sig .tc := ⟨.hbm, 63, rfl⟩
abbrev main_v26 : Ref sig .tc := ⟨.hbm, 64, rfl⟩
abbrev main_v27 : Ref sig .tc := ⟨.hbm, 65, rfl⟩
abbrev main_cst_33 : Ref sig .tc := ⟨.hbm, 66, rfl⟩
abbrev main_v28 : Ref sig .tc := ⟨.hbm, 67, rfl⟩
abbrev main_cst_34 : Ref sig .tc := ⟨.hbm, 68, rfl⟩
abbrev main_v29 : Ref sig .tc := ⟨.hbm, 69, rfl⟩
abbrev main_v30 : Ref sig .tc := ⟨.hbm, 70, rfl⟩
abbrev main_c_35 : Ref sig .tc := ⟨.hbm, 71, rfl⟩
abbrev main_c_36 : Ref sig .tc := ⟨.hbm, 72, rfl⟩
abbrev main_c_37 : Ref sig .tc := ⟨.hbm, 73, rfl⟩
abbrev main_c_38 : Ref sig .tc := ⟨.hbm, 74, rfl⟩
abbrev main_v31 : Ref sig .tc := ⟨.hbm, 75, rfl⟩
abbrev main_v32 : Ref sig .tc := ⟨.hbm, 76, rfl⟩
abbrev main_cst_39 : Ref sig .tc := ⟨.hbm, 77, rfl⟩
abbrev main_v33 : Ref sig .tc := ⟨.hbm, 78, rfl⟩
abbrev main_cst_40 : Ref sig .tc := ⟨.hbm, 79, rfl⟩
abbrev main_v34 : Ref sig .tc := ⟨.hbm, 80, rfl⟩
abbrev main_v35 : Ref sig .tc := ⟨.hbm, 81, rfl⟩
abbrev main_c_41 : Ref sig .tc := ⟨.hbm, 82, rfl⟩
abbrev main_c_42 : Ref sig .tc := ⟨.hbm, 83, rfl⟩
abbrev main_c_43 : Ref sig .tc := ⟨.hbm, 84, rfl⟩
abbrev main_c_44 : Ref sig .tc := ⟨.hbm, 85, rfl⟩
abbrev main_v36 : Ref sig .tc := ⟨.hbm, 86, rfl⟩
abbrev main_v37 : Ref sig .tc := ⟨.hbm, 87, rfl⟩
abbrev main_cst_45 : Ref sig .tc := ⟨.hbm, 88, rfl⟩
abbrev main_v38 : Ref sig .tc := ⟨.hbm, 89, rfl⟩
abbrev main_cst_46 : Ref sig .tc := ⟨.hbm, 90, rfl⟩
abbrev main_v39 : Ref sig .tc := ⟨.hbm, 91, rfl⟩
abbrev main_v40 : Ref sig .tc := ⟨.hbm, 92, rfl⟩
abbrev main_c_47 : Ref sig .tc := ⟨.hbm, 93, rfl⟩
abbrev main_c_48 : Ref sig .tc := ⟨.hbm, 94, rfl⟩
abbrev main_c_49 : Ref sig .tc := ⟨.hbm, 95, rfl⟩
abbrev main_c_50 : Ref sig .tc := ⟨.hbm, 96, rfl⟩
abbrev main_v41 : Ref sig .tc := ⟨.hbm, 97, rfl⟩
abbrev main_v42 : Ref sig .tc := ⟨.hbm, 98, rfl⟩
abbrev main_cst_51 : Ref sig .tc := ⟨.hbm, 99, rfl⟩
abbrev main_v43 : Ref sig .tc := ⟨.hbm, 100, rfl⟩
abbrev main_cst_52 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩

abbrev nD : Nat := 1
abbrev τ : Topo := Topo.v7x

variable {F : FTy → Type} [FloatOps F]

class Facts₀ : Prop where
  pads_S8x256x96x320_S8x256x96x328_000_000_000_440 : S8x256x96x320.Pads (![0, 0, 0, 4] : Fin 4 → Nat) ![0, 0, 0, 4] ![0, 0, 0, 0] S8x256x96x328
  h_S_ : 0 < S_.numel
  sliceFits_S8x256x96x328_S8x256x96x320 : S8x256x96x328.Slices (fun _ => 0) S8x256x96x320
  reducesTo_S8x256x96x320_S8x96x320_d1 : S8x256x96x320.ReducesTo [1] S8x96x320
  bcast_S_S8x96x320 : S_.BroadcastsInDim S8x96x320 (![] : Fin 0 → Fin S8x96x320.rank)
  bcast_S8x96x320_S8x1x96x320_0_2_3 : S8x96x320.BroadcastsInDim S8x1x96x320 (![0, 2, 3] : Fin 3 → Fin S8x1x96x320.rank)
  concatenates_S8x1x96x320_S8x1x96x320_S8x1x96x320_S8x1x96x320_S8x1x96x320_S8x1x96x320_S8x1x96x320_S8x1x96x320_S8x1x96x320_S8x9x96x320_d1 : Shape.Concatenates [S8x1x96x320, S8x1x96x320, S8x1x96x320, S8x1x96x320, S8x1x96x320, S8x1x96x320, S8x1x96x320, S8x1x96x320, S8x1x96x320] S8x9x96x320 1

variable [Facts₀]

class Facts : Prop extends Facts₀ where

variable [Facts]
-- ==== Proof.CostShift.lean ====
/-
  One displacement of the cost volume, on one block of 32 channels.

  A block of the first feature map is f1[k, h, w] (32 channels, 96 rows, 320 columns) and the matching block of the second
  is f2[k, h, w].  For a displacement d - 4 (d = 0 … 8) the kernel rotates f2 along the columns so that column w holds
  f2[k, h, (w + d - 4) mod 320], multiplies by f1, sums over the 32 channels, and keeps the sum only at the columns
  w with 0 ≤ w + d - 4 < 320 (elsewhere it keeps 0): there the rotation did not wrap around, so the kept value is
      ∑ₖ f1[k, h, w] · f2[k, h, w + d - 4].
  This file states that reading at an index of the plane, over the extended reals.
-/
import Idealize.ShloMosaic.PureOps.Ideal
import Idealize.ShloMosaic.PureOps.Ideal.Laws
import Idealize.ShloMosaic.Lib.ValueIdx
import Idealize.ShloMosaic.Lib.KernelVsHost
import Idealize.ShloMosaic.Lib.Pipeline.Value

noncomputable section

namespace Cert.CostShift

open Idealize.ShloMosaic Idealize.ShloMosaic.ValueIdx

/-- A block of 32 channels. -/
abbrev Blk : Shape := ⟨3, ![32, 96, 320]⟩
/-- One plane: rows by columns. -/
abbrev Pln : Shape := ⟨2, ![96, 320]⟩

variable {F : FTy → Type} [FloatOps F]

/-- The column test of one displacement: 0 ≤ column + off and column + off < 320, as signed 32-bit comparisons. -/
def colMask (off : BitVec 32) (col : IVec Pln 32) : IVec Pln 1 :=
  andi (cmpi .sge (addi col (broadcast Pln off)) (broadcast Pln 0#32))
    (cmpi .slt (addi col (broadcast Pln off)) (broadcast Pln 320#32))

/-- The channel sum of f1 times the rotated f2. -/
def chanSum (s : BitVec 32) (f1 f2 : FVec F Blk .f32) (hr : Blk.Rotates 2 none) (hred : Blk.Reduces [0] Pln)
    (hacc : (0x00000000#32 : BitVec 32) = 0x00000000#32) : FVec F Pln .f32 :=
  multiReduction .add [0] Pln (mulf f1 (dynamicRotate 2 s none f2 hr)) 0x00000000#32 hred (.inl rfl) hacc

/-- One displacement's contribution to the plane: the channel sum where the column test passes, zero elsewhere. -/
def contrib (s off : BitVec 32) (f1 f2 : FVec F Blk .f32) (col : IVec Pln 32) (hr : Blk.Rotates 2 none)
    (hred : Blk.Reduces [0] Pln) (hacc : (0x00000000#32 : BitVec 32) = 0x00000000#32) : FVec F Pln .f32 :=
  select (colMask off col) (chanSum s f1 f2 hr hred hacc) (broadcast Pln (Scalar.ofBits .f32 0x00000000#32))

/-- The column test at column w for displacement d - 4 (the offset word is d - 4 modulo 2³²): it passes exactly when
    4 ≤ w + d < 324. -/
theorem colMask_bit (d w : ℕ) (hd : d < 9) (hw : w < 320) (off : BitVec 32)
    (hoff : off.toNat = (4294967292 + d) % 4294967296) :
    IntOp.andi (IntOp.cmpi .sge (IntOp.addi (BitVec.ofNat 32 w) off) 0#32)
      (IntOp.cmpi .slt (IntOp.addi (BitVec.ofNat 32 w) off) 320#32)
      = if 4 ≤ w + d ∧ w + d < 324 then 1#1 else 0#1 := by
  unfold IntOp.andi IntOp.cmpi IntOp.addi
  dsimp only
  have hsum : (BitVec.ofNat 32 w + off).toNat = (w + (4294967292 + d)) % 4294967296 := by
    rw [BitVec.toNat_add, BitVec.toNat_ofNat, hoff]; omega
  have hint : (BitVec.ofNat 32 w + off).toInt = (w : Int) + d - 4 := by
    rw [BitVec.toInt_eq_toNat_cond, hsum]; split <;> omega
  have h0 : (0#32 : BitVec 32).toInt = 0 := by decide
  have h320 : (320#32 : BitVec 32).toInt = 320 := by decide
  have e1 : (0#32 : BitVec 32).sle (BitVec.ofNat 32 w + off) = decide (4 ≤ w + d) := by
    simp only [BitVec.sle, hint, h0]; exact decide_eq_decide.mpr (by omega)
  have e2 : (BitVec.ofNat 32 w + off).slt (320#32 : BitVec 32) = decide (w + d < 324) := by
    simp only [BitVec.slt, hint, h320]; exact decide_eq_decide.mpr (by omega)
  rw [e1, e2]
  by_cases h1 : 4 ≤ w + d <;> by_cases h2 : w + d < 324 <;> simp [h1, h2]

/-- The block index over plane index (h, w) with channel k inserted is (k, h, w). -/
theorem lift_eq (hred : Blk.Reduces [0] Pln) (h : Fin 96) (w : Fin 320) (k : Fin (Blk.size 0)) :
    hred.lift (ix2 h w) k = @ix3 32 96 320 k h w := by
  funext c
  apply Fin.ext
  rw [Shape.Reduces.lift_val]
  unfold Shape.Reduces.liftVal
  match c with
  | ⟨0, _⟩ => rfl
  | ⟨1, _⟩ => rfl
  | ⟨2, _⟩ => rfl

/-- The channel sum at (h, w): the rotation by s (s < 320 as a number) moves column (w + 320 - s) mod 320 to column w. -/
theorem chanSum_apply (s : BitVec 32) (f1 f2 : FVec Ideal Blk .f32) (hr : Blk.Rotates 2 none) (hred : Blk.Reduces [0] Pln)
    (hacc : (0x00000000#32 : BitVec 32) = 0x00000000#32) (h : Fin 96) (w w' : Fin 320)
    (hw' : w'.val = (w.val + 320 - s.toNat % 320) % 320) :
    chanSum s f1 f2 hr hred hacc (ix2 h w) = ∑ k : Fin 32, f1 (ix3 k h w) * f2 (ix3 k h w') := by
  unfold chanSum
  refine (Ideal.multiReduction_add_single _ 0x00000000#32 hred (.inl rfl) hacc (ix2 h w)).trans ?_
  refine Finset.sum_congr rfl fun k _ => ?_
  rw [lift_eq hred h w k]
  show f1 (@ix3 32 96 320 k h w) * dynamicRotate 2 s none f2 hr (@ix3 32 96 320 k h w) = _
  congr 1
  refine dynamicRotate_apply 2 s f2 hr (@ix3 32 96 320 k h w) (@ix3 32 96 320 k h w') fun b => ?_
  match b with
  | ⟨0, _⟩ => rfl
  | ⟨1, _⟩ => rfl
  | ⟨2, _⟩ => exact hw'

/-- ONE DISPLACEMENT AT AN INDEX.  With the rotation amount (324 - d) mod 320, the offset word d - 4 (modulo 2³²) and the column
    numbers in `col`, the contribution at (h, w) is the channel sum of f1[k,h,w]·f2[k,h,w+d-4] when 4 ≤ w + d < 324, else zero. -/
theorem contrib_apply (d : ℕ) (hd : d < 9) (s off : BitVec 32) (hs : s.toNat = (324 - d) % 320)
    (hoff : off.toNat = (4294967292 + d) % 4294967296)
    (f1 f2 : FVec Ideal Blk .f32) (col : IVec Pln 32) (hcol : ∀ j : Pln.Idx, col j = BitVec.ofNat 32 (j 1).val)
    (hr : Blk.Rotates 2 none) (hred : Blk.Reduces [0] Pln) (hacc : (0x00000000#32 : BitVec 32) = 0x00000000#32)
    (h : Fin 96) (w : Fin 320) :
    contrib s off f1 f2 col hr hred hacc (ix2 h w)
      = if hm : 4 ≤ w.val + d ∧ w.val + d < 324 then
          ∑ k : Fin 32, f1 (ix3 k h w) * f2 (ix3 k h ⟨w.val + d - 4, by omega⟩)
        else 0 := by
  unfold contrib
  rw [select_apply]
  have hbit : colMask off col (ix2 h w) = if 4 ≤ w.val + d ∧ w.val + d < 324 then 1#1 else 0#1 := by
    show IntOp.andi (IntOp.cmpi .sge (IntOp.addi (col (ix2 h w)) off) 0#32)
      (IntOp.cmpi .slt (IntOp.addi (col (ix2 h w)) off) 320#32) = _
    rw [hcol (ix2 h w)]
    exact colMask_bit d w.val hd w.isLt off hoff
  rw [hbit]
  by_cases hm : 4 ≤ w.val + d ∧ w.val + d < 324
  · rw [if_pos hm, dif_pos hm, select_one]
    refine chanSum_apply s f1 f2 hr hred hacc h w ⟨w.val + d - 4, by omega⟩ ?_
    show w.val + d - 4 = (w.val + 320 - s.toNat % 320) % 320
    rw [hs]
    have := w.isLt
    omega
  · rw [if_neg hm, dif_neg hm, select_zero, broadcast_apply]
    exact Ideal.ofBits_zero_f32

end Cert.CostShift

end
-- ==== Proof.CostBody.lean ====
/-
  What one grid point does to the accumulator, read at an index.

  The accumulator holds nine planes (one per displacement d - 4, d = 0 … 8) of 96 rows by 320 columns.  At one grid point the
  body reads a block x0 of the first feature map and the matching block x1 of the second (32 channels each) and, plane by plane,
  adds to plane d the masked channel sum
      term d h w = ∑ₖ x0[k,h,w] · x1[k,h,w+d-4]   if 4 ≤ w + d < 324,   0 otherwise.
  So the accumulator after the point is  acc + term  at every index (`stepB`); at the first point of a run of channel blocks the
  accumulator is zeroed first, so it is  0 + term (`stepA`); and at the last point the output block is the new accumulator times
  the word 2⁻⁸ (`outC`).
-/
import proofs.«174796_j82008105550452_2_alg».proof.Proof.Gen.KernelIdeal.Frame
import proofs.«174796_j82008105550452_2_alg».proof.Proof.CostShift
import Idealize.ShloMosaic.Lib.ValueLayout
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.ValueIdx Cert.CostShift

/-- One displacement's masked channel sum over a pair of blocks, at row h and column w. -/
def term (x0 x1 : Vec Ideal S1x32x96x320 .f32) (d : ℕ) (h : Fin 96) (w : Fin 320) : EReal :=
  if hm : 4 ≤ w.val + d ∧ w.val + d < 324 then
    ∑ k : Fin 32, x0 (ix4 (0 : Fin 1) k h w) * x1 (ix4 (0 : Fin 1) k h ⟨w.val + d - 4, by omega⟩)
  else 0

/-- One plane's update as the body computes it: the plane plus the displacement's contribution. -/
def rowUpd (s off : BitVec 32) (x0 x1 : Vec Ideal S1x32x96x320 .f32) (row : Vec Ideal S1x96x320 .f32) :
    FVec Ideal S1x96x320 .f32 :=
  shapeCast S1x96x320 (addf (shapeCast S96x320 row Gen.shapeCasts_S1x96x320_S96x320)
    (contrib s off (k0_pay4 x0) (k0_pay5 x1) (iota .tc S96x320 32 [1] Gen.iota_S96x320_d1_w32)
      Gen.rotates_S32x96x320_d2 Gen.reduces_S32x96x320_S96x320 rfl)) Gen.shapeCasts_S96x320_S1x96x320

/-- The plane's update at (h, w): the old entry plus the masked channel sum. -/
theorem rowUpd_apply (d : ℕ) (hd : d < 9) (s off : BitVec 32) (hs : s.toNat = (324 - d) % 320)
    (hoff : off.toNat = (4294967292 + d) % 4294967296) (x0 x1 : Vec Ideal S1x32x96x320 .f32)
    (row : Vec Ideal S1x96x320 .f32) (u : Fin 1) (h : Fin 96) (w : Fin 320) :
    rowUpd s off x0 x1 row (ix3 u h w) = row (ix3 (0 : Fin 1) h w) + term x0 x1 d h w := by
  unfold rowUpd
  rw [shapeCast_ab_1ab_apply, addf_apply, shapeCast_1ab_ab_apply]
  congr 1
  rw [contrib_apply d hd s off hs hoff _ _ _ (fun j => iota_single_apply .tc S96x320 32 1 Gen.iota_S96x320_d1_w32 j)]
  unfold term k0_pay4 k0_pay5
  by_cases hm : 4 ≤ w.val + d ∧ w.val + d < 324
  · rw [dif_pos hm, dif_pos hm]
    refine Finset.sum_congr rfl fun k _ => ?_
    rw [shapeCast_1abc_abc_apply, shapeCast_1abc_abc_apply]
  · rw [dif_neg hm, dif_neg hm]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The accumulator after a point that adds to it: every entry gains its displacement's masked channel sum. -/
def stepB (x0 x1 : Vec Ideal S1x32x96x320 .f32) (acc : Vec Ideal S9x96x320 .f32) : Vec Ideal S9x96x320 .f32 :=
  fun y => acc y + term x0 x1 (y 0).val (y 1) (y 2)

/-- Plane d of the accumulator, entry (h, w) of the plane, is entry (d, h, w) of the accumulator. -/
theorem emb_row (d : ℕ) (hd : d < 9) (inb : ∀ a, (![d, 0, 0] : Fin 3 → Nat) a + S1x96x320.size a ≤ S9x96x320.size a)
    (u : Fin 1) (h : Fin 96) (w : Fin 320) :
    (Rect.unit (s := S9x96x320) ![d, 0, 0] S1x96x320.size inb).emb (@ix3 1 96 320 u h w) = @ix3 9 96 320 ⟨d, hd⟩ h w := by
  funext a
  apply Fin.ext
  have hu : u.val = 0 := by omega
  match a with
  | ⟨0, _⟩ => show d + 1 * u.val = d; omega
  | ⟨1, _⟩ => show 0 + 1 * h.val = h.val; omega
  | ⟨2, _⟩ => show 0 + 1 * w.val = w.val; omega

/-- The store into plane d writes, at each of its entries, the new accumulator's entry. -/
theorem piece_ok (d : ℕ) (hd : d < 9) (inb : ∀ a, (![d, 0, 0] : Fin 3 → Nat) a + S1x96x320.size a ≤ S9x96x320.size a)
    (s off : BitVec 32) (hs : s.toNat = (324 - d) % 320) (hoff : off.toNat = (4294967292 + d) % 4294967296)
    (x0 x1 : Vec Ideal S1x32x96x320 .f32) (acc : Vec Ideal S9x96x320 .f32) (x : (⟨3, ![1, 96, 320]⟩ : Shape).Idx) :
    rowUpd s off x0 x1 (View.ld acc (Rect.unit (s := S9x96x320) ![d, 0, 0] S1x96x320.size inb)) x
      = stepB x0 x1 acc ((Rect.unit (s := S9x96x320) ![d, 0, 0] S1x96x320.size inb).emb x) := by
  obtain ⟨u, h, w, rfl⟩ : ∃ (u : Fin 1) (h : Fin 96) (w : Fin 320), x = ix3 u h w := ⟨x 0, x 1, x 2, eq_ix3 x⟩
  rw [rowUpd_apply d hd s off hs hoff]
  show acc ((Rect.unit (s := S9x96x320) ![d, 0, 0] S1x96x320.size inb).emb (@ix3 1 96 320 0 h w)) + _ = _
  rw [emb_row d hd inb 0 h w, emb_row d hd inb u h w]
  rfl

/-- CASE B (a middle point of a run): the accumulator found holding `acc` is left holding `stepB x0 x1 acc`. -/
theorem sout_B (c : Dev nD) (i : grid0.Coords) (a2 : Memref sig .tc .vmem S1x32x96x320 .f32) (h2 : a2.IsWhole)
    (a3 : Memref sig .tc .vmem S1x32x96x320 .f32) (h3 : a3.IsWhole) (a4 : Memref sig .tc .vmem S1x9x96x320 .f32) (h4 : a4.IsWhole)
    (a5 : Memref sig .tc .vmem S9x96x320 .f32) (h5 : a5.IsWhole) (hc0 : ¬cond0_0 i) (hc1 : ¬cond0_1 i)
    (x0 x1 : Vec Ideal S1x32x96x320 .f32) (acc : Vec Ideal S9x96x320 .f32) :
    sout0_B_0 (F := Ideal) c i a2 h2 a3 h3 a4 h4 a5 h5 hc0 hc1 x0 x1 acc = stepB x0 x1 acc := by
  unfold sout0_B_0
  rw [View.read_writes_eq_canon _ _ _ (scover0_B_0 c i a2 h2 a3 h3 a4 h4 a5 h5 hc0 hc1 x0 x1 acc)]
  funext y
  refine View.canon_apply_of_pieces (stepB x0 x1 acc) _ ?_ y (scover0_B_0 c i a2 h2 a3 h3 a4 h4 a5 h5 hc0 hc1 x0 x1 acc y)
  unfold kernelRun0_B
  dsimp only
  sl_unfold_words
  simp only [View.readAt_eq_ld, h2.read_unread, h3.read_unread, h5.read_unread, View.ld_unit_zero (S := S1x32x96x320) hz4]
  intro p hp
  simp only [List.mem_cons, List.not_mem_nil, or_false] at hp
  rcases hp with rfl | rfl | rfl | rfl | rfl | rfl | rfl | rfl | rfl
  · exact fun x => piece_ok 8 (by decide) _ 316#32 4#32 (by decide) (by decide) x0 x1 acc x
  · exact fun x => piece_ok 7 (by decide) _ 317#32 3#32 (by decide) (by decide) x0 x1 acc x
  · exact fun x => piece_ok 6 (by decide) _ 318#32 2#32 (by decide) (by decide) x0 x1 acc x
  · exact fun x => piece_ok 5 (by decide) _ 319#32 1#32 (by decide) (by decide) x0 x1 acc x
  · exact fun x => piece_ok 4 (by decide) _ 0#32 0#32 (by decide) (by decide) x0 x1 acc x
  · exact fun x => piece_ok 3 (by decide) _ 1#32 4294967295#32 (by decide) (by decide) x0 x1 acc x
  · exact fun x => piece_ok 2 (by decide) _ 2#32 4294967294#32 (by decide) (by decide) x0 x1 acc x
  · exact fun x => piece_ok 1 (by decide) _ 3#32 4294967293#32 (by decide) (by decide) x0 x1 acc x
  · exact fun x => piece_ok 0 (by decide) _ 4#32 4294967292#32 (by decide) (by decide) x0 x1 acc x

/-- Plane d of the accumulator, as a rectangle of it. -/
abbrev plane (d : ℕ) (inb : ∀ a, (![d, 0, 0] : Fin 3 → Nat) a + S1x96x320.size a ≤ S9x96x320.size a) : Rect S9x96x320 :=
  Rect.unit (s := S9x96x320) ![d, 0, 0] S1x96x320.size inb

/-- Storing plane d after the planes below it.  If the stores so far (`L`) have left planes 0 … d-1 at their new values and every
    other plane still at `zero`, then after the store of plane d — whose payload reads plane d back from those stores — planes
    0 … d hold their new values and the rest still `zero`. -/
theorem rows_step {sg : RefSig} (a5 : Memref sg .tc .vmem S9x96x320 .f32) (d : ℕ) (hd : d < 9)
    (inb : ∀ a, (![d, 0, 0] : Fin 3 → Nat) a + S1x96x320.size a ≤ S9x96x320.size a)
    (s off : BitVec 32) (hs : s.toNat = (324 - d) % 320) (hoff : off.toNat = (4294967292 + d) % 4294967296)
    (X0 X1 : Vec Ideal S1x32x96x320 .f32) (zero : Vec Ideal S9x96x320 .f32)
    (L : List (View.Piece (Elt Ideal) S9x96x320 .f32))
    (hL : ∀ y : S9x96x320.Idx, View.canon L y = if (y 0).val < d then stepB X0 X1 zero y else zero y)
    (y : S9x96x320.Idx) :
    View.canon ((⟨plane d inb, rowUpd s off X0 X1 (a5.view.readCov L (plane d inb).toLoadRect)⟩ :
        View.Piece (Elt Ideal) S9x96x320 .f32) :: L) y
      = if (y 0).val < d + 1 then stepB X0 X1 zero y else zero y := by
  have hload : a5.view.readCov L (plane d inb).toLoadRect = View.ld zero (plane d inb) := by
    rw [View.readCov_eq_canon']
    funext j
    have hj : ¬((plane d inb).toLoadRect.idx j 0).val < d := by
      show ¬(d + 1 * (j 0).val < d)
      omega
    rw [hL, if_neg hj]
  rw [hload]
  generalize hw : rowUpd s off X0 X1 (View.ld zero (plane d inb)) = w
  by_cases hy : y ∈ (plane d inb).set
  · obtain ⟨x, rfl⟩ := (plane d inb).exists_idx_of_mem hy
    have hx : ((plane d inb).idx x 0).val < d + 1 := by
      show d + 1 * (x 0).val < d + 1
      have : (x 0).val < 1 := (x 0).isLt
      omega
    rw [if_pos hx]
    refine (View.canon_cons_emb (plane d inb) w L x).trans ?_
    rw [← hw]
    exact piece_ok d hd inb s off hs hoff X0 X1 zero x
  · refine (View.canon_cons_of_not_mem (⟨plane d inb, w⟩ : View.Piece (Elt Ideal) S9x96x320 .f32) L hy).trans ?_
    rw [hL]
    have hne : (y 0).val ≠ d := fun he => hy (Rect.mem_set_unit.mpr fun a => by
      match a with
      | ⟨0, _⟩ => show d ≤ (y 0).val ∧ (y 0).val < d + 1; omega
      | ⟨1, _⟩ => show 0 ≤ (y 1).val ∧ (y 1).val < 0 + 96; have h1 : (y 1).val < 96 := (y 1).isLt; omega
      | ⟨2, _⟩ => show 0 ≤ (y 2).val ∧ (y 2).val < 0 + 320; have h2 : (y 2).val < 320 := (y 2).isLt; omega)
    by_cases hlt : (y 0).val < d
    · rw [if_pos hlt, if_pos (by omega)]
    · rw [if_neg hlt, if_neg (by omega)]

end Cert.KernelIdeal.Body

end
-- ==== Proof.CostCases.lean ====
/-
  The first and the last point of a run of channel blocks.

  At the first point the body zeroes the whole accumulator and then updates its nine planes one after the other, each update reading
  its plane back from what the stores before it left: plane d is still zero when it is read, so the accumulator ends at
  `stepB x0 x1 0`.  At the last point the accumulator is updated as at any other point and the output block is then written as
  the updated accumulator times 2⁻⁸.
-/
import proofs.«174796_j82008105550452_2_alg».proof.Proof.CostBody

set_option maxRecDepth 16384

noncomputable section

namespace Cert.KernelIdeal.Body

open Cert.KernelIdeal Cert.KernelIdeal.Gen Idealize.ShloMosaic Idealize.ShloMosaic.ValueIdx Cert.CostShift

/-- A block loaded whole from its staging buffer is the block. -/
theorem load_whole {sg : RefSig} (a : Memref sg .tc .vmem S1x32x96x320 .f32) (h : a.IsWhole) (x : Vec Ideal S1x32x96x320 .f32)
    (inb : ∀ b, (![0, 0, 0, 0] : Fin 4 → Nat) b + S1x32x96x320.size b ≤ S1x32x96x320.size b) :
    View.readAt (Elt Ideal) a.view (Rect.unit (s := S1x32x96x320) ![0, 0, 0, 0] S1x32x96x320.size inb).toLoadRect (h.unread x) = x := by
  rw [View.readAt_eq_ld, h.read_unread, View.ld_unit_zero (S := S1x32x96x320) hz4]

set_option maxHeartbeats 1000000 in
/-- CASE A (the first point of a run): the accumulator is left at zero plus each displacement's masked channel sum. -/
theorem sout_A (c : Dev nD) (i : grid0.Coords) (a2 : Memref sig .tc .vmem S1x32x96x320 .f32) (h2 : a2.IsWhole)
    (a3 : Memref sig .tc .vmem S1x32x96x320 .f32) (h3 : a3.IsWhole) (a4 : Memref sig .tc .vmem S1x9x96x320 .f32) (h4 : a4.IsWhole)
    (a5 : Memref sig .tc .vmem S9x96x320 .f32) (h5 : a5.IsWhole) (hc0 : cond0_0 i) (hc1 : ¬cond0_1 i)
    (x0 x1 : Vec Ideal S1x32x96x320 .f32) :
    sout0_A_0 (F := Ideal) c i a2 h2 a3 h3 a4 h4 a5 h5 hc0 hc1 x0 x1 = stepB x0 x1 (k0_pay3 (F := Ideal)) := by
  unfold sout0_A_0
  rw [View.read_writes_eq_canon _ _ _ (scover0_A_0 c i a2 h2 a3 h3 a4 h4 a5 h5 hc0 hc1 x0 x1)]
  unfold kernelRun0_A
  dsimp only
  have I1 : ∀ y : S9x96x320.Idx, View.canon (kernelRun0_A.sl.HS0_1 (F := Ideal)) y
      = if (y 0).val < 0 then stepB (View.readAt (Elt Ideal) a2.view (Rect.unit (s := S1x32x96x320) ![0, 0, 0, 0] S1x32x96x320.size Gen.inb_S1x32x96x320_S1x32x96x320_0_0_0_0).toLoadRect (h2.unread x0)) (View.readAt (Elt Ideal) a3.view (Rect.unit (s := S1x32x96x320) ![0, 0, 0, 0] S1x32x96x320.size Gen.inb_S1x32x96x320_S1x32x96x320_0_0_0_0).toLoadRect (h3.unread x1)) (k0_pay3 (F := Ideal)) y else (k0_pay3 (F := Ideal)) y := fun y => by
    rw [if_neg (Nat.not_lt_zero _)]
    unfold kernelRun0_A.sl.HS0_1
    rw [View.canon_unit_zero hz3]
  have I2 : ∀ y : S9x96x320.Idx, View.canon (kernelRun0_A.sl.HS0_2 (F := Ideal) c a2 h2 a3 h3 a5 x0 x1) y
      = if (y 0).val < 0 + 1 then stepB (View.readAt (Elt Ideal) a2.view (Rect.unit (s := S1x32x96x320) ![0, 0, 0, 0] S1x32x96x320.size Gen.inb_S1x32x96x320_S1x32x96x320_0_0_0_0).toLoadRect (h2.unread x0)) (View.readAt (Elt Ideal) a3.view (Rect.unit (s := S1x32x96x320) ![0, 0, 0, 0] S1x32x96x320.size Gen.inb_S1x32x96x320_S1x32x96x320_0_0_0_0).toLoadRect (h3.unread x1)) (k0_pay3 (F := Ideal)) y else (k0_pay3 (F := Ideal)) y :=
    rows_step a5 0 (by decide) _ 4#32 4294967292#32 (by decide) (by decide) _ _ (k0_pay3 (F := Ideal)) _ I1
  have I3 : ∀ y : S9x96x320.Idx, View.canon (kernelRun0_A.sl.HS0_3 (F := Ideal) c a2 h2 a3 h3 a5 x0 x1) y
      = if (y 0).val < 1 + 1 then stepB (View.readAt (Elt Ideal) a2.view (Rect.unit (s := S1x32x96x320) ![0, 0, 0, 0] S1x32x96x320.size Gen.inb_S1x32x96x320_S1x32x96x320_0_0_0_0).toLoadRect (h2.unread x0)) (View.readAt (Elt Ideal) a3.view (Rect.unit (s := S1x32x96x320) ![0, 0, 0, 0] S1x32x96x320.size Gen.inb_S1x32x96x320_S1x32x96x320_0_0_0_0).toLoadRect (h3.unread x1)) (k0_pay3 (F := Ideal)) y else (k0_pay3 (F := Ideal)) y :=
    rows_step a5 1 (by decide) _ 3#32 4294967293#32 (by decide) (by decide) _ _ (k0_pay3 (F := Ideal)) _ I2
  have I4 : ∀ y : S9x96x320.Idx, View.canon (kernelRun0_A.sl.HS0_4 (F := Ideal) c a2 h2 a3 h3 a5 x0 x1) y
      = if (y 0).val < 2 + 1 then stepB (View.readAt (Elt Ideal) a2.view (Rect.unit (s := S1x32x96x320) ![0, 0, 0, 0] S1x32x96x320.size Gen.inb_S1x32x96x320_S1x32x96x320_0_0_0_0).toLoadRect (h2.unread x0)) (View.readAt (Elt Ideal) a3.view (Rect.unit (s := S1x32x96x320) ![0, 0, 0, 0] S1x32x96x320.size Gen.inb_S1x32x96x320_S1x32x96x320_0_0_0_0).toLoadRect (h3.unread x1)) (k0_pay3 (F := Ideal)) y else (k0_pay3 (F := Ideal)) y :=
    rows_step a5 2 (by decide) _ 2#32 4294967294#32 (by decide) (by decide) _ _ (k0_pay3 (F := Ideal)) _ I3
  have I5 : ∀ y : S9x96x320.Idx, View.canon (kernelRun0_A.sl.HS0_5 (F := Ideal) c a2 h2 a3 h3 a5 x0 x1) y
      = if (y 0).val < 3 + 1 then stepB (View.readAt (Elt Ideal) a2.view (Rect.unit (s := S1x32x96x320) ![0, 0, 0, 0] S1x32x96x320.size Gen.inb_S1x32x96x320_S1x32x96x320_0_0_0_0).toLoadRect (h2.unread x0)) (View.readAt (Elt Ideal) a3.view (Rect.unit (s := S1x32x96x320) ![0, 0, 0, 0] S1x32x96x320.size Gen.inb_S1x32x96x320_S1x32x96x320_0_0_0_0).toLoadRect (h3.unread x1)) (k0_pay3 (F := Ideal)) y else (k0_pay3 (F := Ideal)) y :=
    rows_step a5 3 (by decide) _ 1#32 4294967295#32 (by decide) (by decide) _ _ (k0_pay3 (F := Ideal)) _ I4
  have I6 : ∀ y : S9x96x320.Idx, View.canon (kernelRun0_A.sl.HS0_6 (F := Ideal) c a2 h2 a3 h3 a5 x0 x1) y
      = if (y 0).val < 4 + 1 then stepB (View.readAt (Elt Ideal) a2.view (Rect.unit (s := S1x32x96x320) ![0, 0, 0, 0] S1x32x96x320.size Gen.inb_S1x32x96x320_S1x32x96x320_0_0_0_0).toLoadRect (h2.unread x0)) (View.readAt (Elt Ideal) a3.view (Rect.unit (s := S1x32x96x320) ![0, 0, 0, 0] S1x32x96x320.size Gen.inb_S1x32x96x320_S1x32x96x320_0_0_0_0).toLoadRect (h3.unread x1)) (k0_pay3 (F := Ideal)) y else (k0_pay3 (F := Ideal)) y :=
    rows_step a5 4 (by decide) _ 0#32 0#32 (by decide) (by decide) _ _ (k0_pay3 (F := Ideal)) _ I5
  have I7 : ∀ y : S9x96x320.Idx, View.canon (kernelRun0_A.sl.HS0_7 (F := Ideal) c a2 h2 a3 h3 a5 x0 x1) y
      = if (y 0).val < 5 + 1 then stepB (View.readAt (Elt Ideal) a2.view (Rect.unit (s := S1x32x96x320) ![0, 0, 0, 0] S1x32x96x320.size Gen.inb_S1x32x96x320_S1x32x96x320_0_0_0_0).toLoadRect (h2.unread x0)) (View.readAt (Elt Ideal) a3.view (Rect.unit (s := S1x32x96x320) ![0, 0, 0, 0] S1x32x96x320.size Gen.inb_S1x32x96x320_S1x32x96x320_0_0_0_0).toLoadRect (h3.unread x1)) (k0_pay3 (F := Ideal)) y else (k0_pay3 (F := Ideal)) y :=
    rows_step a5 5 (by decide) _ 319#32 1#32 (by decide) (by decide) _ _ (k0_pay3 (F := Ideal)) _ I6
  have I8 : ∀ y : S9x96x320.Idx, View.canon (kernelRun0_A.sl.HS0_8 (F := Ideal) c a2 h2 a3 h3 a5 x0 x1) y
      = if (y 0).val < 6 + 1 then stepB (View.readAt (Elt Ideal) a2.view (Rect.unit (s := S1x32x96x320) ![0, 0, 0, 0] S1x32x96x320.size Gen.inb_S1x32x96x320_S1x32x96x320_0_0_0_0).toLoadRect (h2.unread x0)) (View.readAt (Elt Ideal) a3.view (Rect.unit (s := S1x32x96x320) ![0, 0, 0, 0] S1x32x96x320.size Gen.inb_S1x32x96x320_S1x32x96x320_0_0_0_0).toLoadRect (h3.unread x1)) (k0_pay3 (F := Ideal)) y else (k0_pay3 (F := Ideal)) y :=
    rows_step a5 6 (by decide) _ 318#32 2#32 (by decide) (by decide) _ _ (k0_pay3 (F := Ideal)) _ I7
  have I9 : ∀ y : S9x96x320.Idx, View.canon (kernelRun0_A.sl.HS0_9 (F := Ideal) c a2 h2 a3 h3 a5 x0 x1) y
      = if (y 0).val < 7 + 1 then stepB (View.readAt (Elt Ideal) a2.view (Rect.unit (s := S1x32x96x320) ![0, 0, 0, 0] S1x32x96x320.size Gen.inb_S1x32x96x320_S1x32x96x320_0_0_0_0).toLoadRect (h2.unread x0)) (View.readAt (Elt Ideal) a3.view (Rect.unit (s := S1x32x96x320) ![0, 0, 0, 0] S1x32x96x320.size Gen.inb_S1x32x96x320_S1x32x96x320_0_0_0_0).toLoadRect (h3.unread x1)) (k0_pay3 (F := Ideal)) y else (k0_pay3 (F := Ideal)) y :=
    rows_step a5 7 (by decide) _ 317#32 3#32 (by decide) (by decide) _ _ (k0_pay3 (F := Ideal)) _ I8
  funext y
  refine (rows_step a5 8 (by decide) _ 316#32 4#32 (by decide) (by decide) _ _ (k0_pay3 (F := Ideal)) _ I9 y).trans ?_
  rw [if_pos (show (y 0).val < 8 + 1 from (y 0).isLt), load_whole a2 h2 x0, load_whole a3 h3 x1]

/-- CASE C (the last point of a run): the accumulator found holding `acc` is left holding `stepB x0 x1 acc`. -/
theorem sout_C (c : Dev nD) (i : grid0.Coords) (a2 : Memref sig .tc .vmem S1x32x96x320 .f32) (h2 : a2.IsWhole)
    (a3 : Memref sig .tc .vmem S1x32x96x320 .f32) (h3 : a3.IsWhole) (a4 : Memref sig .tc .vmem S1x9x96x320 .f32) (h4 : a4.IsWhole)
    (a5 : Memref sig .tc .vmem S9x96x320 .f32) (h5 : a5.IsWhole) (hc0 : ¬cond0_0 i) (hc1 : cond0_1 i)
    (x0 x1 : Vec Ideal S1x32x96x320 .f32) (acc : Vec Ideal S9x96x320 .f32) :
    sout0_C_0 (F := Ideal) c i a2 h2 a3 h3 a4 h4 a5 h5 hc0 hc1 x0 x1 acc = stepB x0 x1 acc := by
  unfold sout0_C_0
  rw [View.read_writes_eq_canon _ _ _ (scover0_C_0 c i a2 h2 a3 h3 a4 h4 a5 h5 hc0 hc1 x0 x1 acc)]
  funext y
  refine View.canon_apply_of_pieces (stepB x0 x1 acc) _ ?_ y (scover0_C_0 c i a2 h2 a3 h3 a4 h4 a5 h5 hc0 hc1 x0 x1 acc y)
  unfold kernelRun0_C
  dsimp only
  sl_unfold_words
  simp only [View.readAt_eq_ld, h2.read_unread, h3.read_unread, h5.read_unread, View.ld_unit_zero (S := S1x32x96x320) hz4]
  intro p hp
  simp only [List.mem_cons, List.not_mem_nil, or_false] at hp
  rcases hp with rfl | rfl | rfl | rfl | rfl | rfl | rfl | rfl | rfl
  · exact fun x => piece_ok 8 (by decide) _ 316#32 4#32 (by decide) (by decide) x0 x1 acc x
  · exact fun x => piece_ok 7 (by decide) _ 317#32 3#32 (by decide) (by decide) x0 x1 acc x
  · exact fun x => piece_ok 6 (by decide) _ 318#32 2#32 (by decide) (by decide) x0 x1 acc x
  · exact fun x => piece_ok 5 (by decide) _ 319#32 1#32 (by decide) (by decide) x0 x1 acc x
  · exact fun x => piece_ok 4 (by decide) _ 0#32 0#32 (by decide) (by decide) x0 x1 acc x
  · exact fun x => piece_ok 3 (by decide) _ 1#32 4294967295#32 (by decide) (by decide) x0 x1 acc x
  · exact fun x => piece_ok 2 (by decide) _ 2#32 4294967294#32 (by decide) (by decide) x0 x1 acc x
  · exact fun x => piece_ok 1 (by decide) _ 3#32 4294967293#32 (by decide) (by decide) x0 x1 acc x
  · exact fun x => piece_ok 0 (by decide) _ 4#32 4294967292#32 (by decide) (by decide) x0 x1 acc x

/-- The whole accumulator read through the whole-shape rectangle is the accumulator. -/
theorem idx_whole (inb : ∀ a, (![0, 0, 0] : Fin 3 → Nat) a + S9x96x320.size a ≤ S9x96x320.size a)
    (j : (⟨3, ![9, 96, 320]⟩ : Shape).Idx) :
    (Rect.unit (s := S9x96x320) ![0, 0, 0] S9x96x320.size inb).toLoadRect.idx j = j := by
  funext a
  apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- CASE C's output block: the updated accumulator times the word 2⁻⁸ (the body's last store, which reads the accumulator back
    after its nine planes were stored). -/
theorem out_C (c : Dev nD) (i : grid0.Coords) (a2 : Memref sig .tc .vmem S1x32x96x320 .f32) (h2 : a2.IsWhole)
    (a3 : Memref sig .tc .vmem S1x32x96x320 .f32) (h3 : a3.IsWhole) (a4 : Memref sig .tc .vmem S1x9x96x320 .f32) (h4 : a4.IsWhole)
    (a5 : Memref sig .tc .vmem S9x96x320 .f32) (h5 : a5.IsWhole) (hc0 : ¬cond0_0 i) (hc1 : cond0_1 i)
    (x0 x1 : Vec Ideal S1x32x96x320 .f32) (acc : Vec Ideal S9x96x320 .f32) :
    out0_C_2 (F := Ideal) c i a2 h2 a3 h3 a4 h4 a5 h5 hc0 hc1 x0 x1 acc = k0_pay2 (stepB x0 x1 acc) := by
  unfold out0_C_2
  rw [View.read_writes_eq_canon _ _ _ (cover0_C_2 c i a2 h2 a3 h3 a4 h4 a5 h5 hc0 hc1 x0 x1 acc)]
  unfold kernelRun0_C
  dsimp only
  rw [View.canon_unit_zero hz4]
  congr 1
  unfold kernelRun0_C.sl.v191
  rw [View.readCov_eq_canon']
  funext j
  rw [idx_whole]
  refine View.canon_apply_of_pieces (stepB x0 x1 acc) _ ?_ j (scover0_C_0 c i a2 h2 a3 h3 a4 h4 a5 h5 hc0 hc1 x0 x1 acc j)
  sl_unfold_words
  simp only [View.readAt_eq_ld, h2.read_unread, h3.read_unread, h5.read_unread, View.ld_unit_zero (S := S1x32x96x320) hz4]
  intro p hp
  simp only [List.mem_cons, List.not_mem_nil, or_false] at hp
  rcases hp with rfl | rfl | rfl | rfl | rfl | rfl | rfl | rfl | rfl
  · exact fun x => piece_ok 8 (by decide) _ 316#32 4#32 (by decide) (by decide) x0 x1 acc x
  · exact fun x => piece_ok 7 (by decide) _ 317#32 3#32 (by decide) (by decide) x0 x1 acc x
  · exact fun x => piece_ok 6 (by decide) _ 318#32 2#32 (by decide) (by decide) x0 x1 acc x
  · exact fun x => piece_ok 5 (by decide) _ 319#32 1#32 (by decide) (by decide) x0 x1 acc x
  · exact fun x => piece_ok 4 (by decide) _ 0#32 0#32 (by decide) (by decide) x0 x1 acc x
  · exact fun x => piece_ok 3 (by decide) _ 1#32 4294967295#32 (by decide) (by decide) x0 x1 acc x
  · exact fun x => piece_ok 2 (by decide) _ 2#32 4294967294#32 (by decide) (by decide) x0 x1 acc x
  · exact fun x => piece_ok 1 (by decide) _ 3#32 4294967293#32 (by decide) (by decide) x0 x1 acc x
  · exact fun x => piece_ok 0 (by decide) _ 4#32 4294967292#32 (by decide) (by decide) x0 x1 acc x

end Cert.KernelIdeal.Body

end
-- ==== Proof.CostFold.lean ====
/-
  The accumulator over a run of channel blocks.

  The grid visits, for each batch b, the eight channel blocks one after the other (point n = 8·b + s).  The accumulator is
  zeroed at the first point of the run and gains, at every point, that point's masked channel sums (`addend`).  So after the
  point at offset j of its run it holds, at every index,  0 + ∑_{s ≤ j} addend (8·b + s) — the fold of the run written out as a
  sum, by induction along the run and never by enumerating the grid.
-/
import proofs.«174796_j82008105550452_2_alg».proof.Proof.Gen.KernelIdeal.Value
import proofs.«174796_j82008105550452_2_alg».proof.Proof.CostCases

set_option maxRecDepth 16384

noncomputable section

namespace Cert.KernelIdeal.Fold

open Cert.KernelIdeal Cert.KernelIdeal.Gen Cert.KernelIdeal.Body Idealize.ShloMosaic Idealize.ShloMosaic.ValueIdx
open Idealize.ShloMosaic.Pipeline (Dat)

variable (m : (ℓ : Loc nD τ sig) → Buf (Elt Ideal) ℓ)

/-- What point n adds to the accumulator at index y = (d, h, w): the masked channel sum of the point's two input blocks. -/
def addend (c : Dev nD) (n : ℕ) (y : S9x96x320.Idx) : EReal :=
  if h : n < cfg0.N then term (iblk m c 0 ⟨n, h⟩) (iblk m c 1 ⟨n, h⟩) (y 0).val (y 1) (y 2) else 0

/-- At the first point of a run the accumulator is left at zero plus the point's addend. -/
theorem scAt_first (c : Dev nD) (n : ℕ) (hb : n < cfg0.N) (h0 : n % 8 = 0) (acc : Vec Ideal S9x96x320 .f32)
    (y : S9x96x320.Idx) :
    Value.scAt0_0 m c n hb acc y = k0_pay3 (F := Ideal) y + addend m c n y := by
  have h1 : ¬n % 8 = 7 := by omega
  unfold Value.scAt0_0
  rw [dif_pos h0, dif_neg h1]
  refine (congrFun (sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))) y).trans ?_
  unfold stepB addend
  rw [dif_pos hb]

/-- At every later point of a run the accumulator gains the point's addend. -/
theorem scAt_next (c : Dev nD) (n : ℕ) (hb : n < cfg0.N) (h0 : ¬n % 8 = 0) (acc : Vec Ideal S9x96x320 .f32)
    (y : S9x96x320.Idx) :
    Value.scAt0_0 m c n hb acc y = acc y + addend m c n y := by
  unfold Value.scAt0_0
  rw [dif_neg h0]
  by_cases h1 : n % 8 = 7
  · rw [dif_pos h1]
    refine (congrFun (sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc) y).trans ?_
    unfold stepB addend
    rw [dif_pos hb]
  · rw [dif_neg h1]
    refine (congrFun (sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc) y).trans ?_
    unfold stepB addend
    rw [dif_pos hb]

/-- THE ACCUMULATOR AFTER POINT t: zero plus the addends of the points of its run up to t. -/
theorem scratch_at (c : Dev nD) (t : Fin cfg0.N) (y : S9x96x320.Idx) :
    (outsAt0 m c t.val t.isLt).2 y
      = k0_pay3 (F := Ideal) y + ∑ s ∈ Finset.range (t.val % 8 + 1), addend m c (8 * (t.val / 8) + s) y := by
  rw [Value.soutsAt0_0_eq m c t]
  exact Pipeline.accAt_add_apply (fun n h => Value.scAt0_0 m c n h (VS0_0.read (Elt Ideal) VS0_0.junk)) (Value.scAt0_0 m c)
    (k0_pay3 (F := Ideal)) (addend m c) (8 * (t.val / 8)) 7
    (fun h i => scAt_first m c _ h (by omega) _ i)
    (fun n h acc i hlt hle => scAt_next m c n h (by omega) acc i)
    (t.val % 8) (by omega) _ y

end Cert.KernelIdeal.Fold

end
-- ==== Proof.LibBlockSum.lean ====
/-
  General facts for a sum that is taken block by block, and for the 0/1 value of a one-bit word.

  Nothing here mentions a program. Three things:
   * a sum over B·Q terms is the sum over the B blocks of the Q terms of each block (position b·Q + q), in any commutative
     monoid — in particular on the extended reals, where no finiteness is needed for it;
   * a quantity that starts at  0 + P 0  and gains  P (n+1)  at each step is, after step n, the sum of P over 0 … n;
   * the one-bit result of a comparison, widened to 32 bits by padding with zeros and then read as a SIGNED integer, is the
     same number (0 or 1) as the bit read as an UNSIGNED integer: the widened word is 0 or 1, never negative.
-/
import Mathlib.Algebra.BigOperators.Fin
import Mathlib.Algebra.BigOperators.Group.Finset.Basic
import Mathlib.Logic.Equiv.Fin.Basic
import Mathlib.Data.Real.Basic

namespace BlockSum

open Finset

/-- A sum over `B * Q` consecutive positions, taken block by block: block `b` holds positions `b * Q + q`, `q < Q`. -/
theorem sum_blocks {M : Type*} [AddCommMonoid M] (B Q : ℕ) (f : ℕ → M) :
    ∑ b : Fin B, ∑ q : Fin Q, f (b.val * Q + q.val) = ∑ p : Fin (B * Q), f p.val := by
  calc ∑ b : Fin B, ∑ q : Fin Q, f (b.val * Q + q.val)
      = ∑ x : Fin B × Fin Q, f (x.1.val * Q + x.2.val) :=
        (Fintype.sum_prod_type' (fun (b : Fin B) (q : Fin Q) => f (b.val * Q + q.val))).symm
    _ = ∑ x : Fin B × Fin Q, f (finProdFinEquiv x).val := by
        refine Finset.sum_congr rfl fun x _ => ?_
        rw [finProdFinEquiv_apply_val]
        congr 1
        rw [Nat.mul_comm, Nat.add_comm]
    _ = ∑ p : Fin (B * Q), f p.val := Equiv.sum_comp finProdFinEquiv (fun p => f p.val)

/-- A running total that starts at `0 + P 0` and adds `P (n + 1)` at step `n + 1` is the sum of `P` over `0 … n`. -/
theorem running_total {M : Type*} [AddCommMonoid M] (P : ℕ → M) (a : ℕ → M) (N : ℕ)
    (h0 : a 0 = 0 + P 0) (hs : ∀ n, n + 1 < N → a (n + 1) = a n + P (n + 1)) :
    ∀ n, n < N → a n = ∑ b ∈ Finset.range (n + 1), P b
  | 0, _ => by rw [h0, zero_add, Finset.sum_range_one]
  | n + 1, h => by
    rw [hs n h, running_total P a N h0 hs n (Nat.lt_of_succ_lt h), Finset.sum_range_succ _ (n + 1)]

/-- A one-bit word is 0 or 1. -/
theorem bit_cases (b : BitVec 1) : b = 0#1 ∨ b = 1#1 := by
  rcases b with ⟨⟨v, hv⟩⟩
  have : v = 0 ∨ v = 1 := by omega
  rcases this with rfl | rfl
  · exact Or.inl rfl
  · exact Or.inr rfl

/-- Padding a one-bit word with zeros to 32 bits and reading it as a signed integer gives the bit itself: 0 or 1. -/
theorem toInt_setWidth_bit (b : BitVec 1) : ((b.setWidth 32).toInt : ℝ) = (b.toNat : ℝ) := by
  rcases bit_cases b with rfl | rfl
  · norm_num
  · norm_num

end BlockSum
-- ==== Proof.CostSpec.lean ====
/-
  The cost volume as one function of the two feature maps, and the two facts of arithmetic that join the kernel's way of
  computing it to the reference's.

  For batch b, displacement d - 4 (d = 0 … 8), row h and column w the correlation is
      corr b d h w = ∑_{c < 256} A0[b,c,h,w] · A1[b,c,h,w+d-4]   when 0 ≤ w + d - 4 < 320,   and 0 otherwise,
  and the result is (0 + corr) / 256.

  The kernel sums the 256 channels in 8 blocks of 32 (a sum taken block by block is the whole sum, in any commutative monoid:
  no finiteness is needed on the extended reals), and instead of dividing by 256 it multiplies by the word 2⁻⁸, which is the
  inverse of 256 exactly: on the extended reals x · 256⁻¹ is the quotient x / 256 for every x, infinite or not.
-/
import Idealize.ShloMosaic.PureOps.Ideal
import Idealize.ShloMosaic.Lib.ValueIdx
import proofs.«174796_j82008105550452_2_alg».proof.Proof.LibBlockSum

noncomputable section

namespace Cert.CostSpec

open Idealize.ShloMosaic Idealize.ShloMosaic.ValueIdx

/-- A feature map: batch, channel, row, column. -/
abbrev Arr : Shape := ⟨4, ![8, 256, 96, 320]⟩
/-- The cost volume: batch, displacement, row, column. -/
abbrev Out : Shape := ⟨4, ![8, 9, 96, 320]⟩

/-- The correlation over all 256 channels at one displacement, masked to the columns where the displaced column exists. -/
def corr (A0 A1 : Arr.Idx → EReal) (b : Fin 8) (d : ℕ) (h : Fin 96) (w : Fin 320) : EReal :=
  if hm : 4 ≤ w.val + d ∧ w.val + d < 324 then
    ∑ c : Fin 256, A0 (ix4 b c h w) * A1 (ix4 b c h ⟨w.val + d - 4, by omega⟩)
  else 0

/-- The cost volume: the mean over the channels, written as the reference computes it (zero plus the sum, divided by 256). -/
def G (A0 A1 : Arr.Idx → EReal) : Out.Idx → EReal := fun y =>
  Ideal.div (Ideal.ofBits .f32 0x00000000#32 + corr A0 A1 (y 0) (y 1).val (y 2) (y 3)) (Ideal.ofBits .f32 0x43800000#32)

/-- A sum over 256 channels taken in 8 blocks of 32. -/
theorem sum_by_blocks (f : Fin 256 → EReal) :
    ∑ s : Fin 8, ∑ k : Fin 32, f ⟨s.val * 32 + k.val, by have := s.isLt; have := k.isLt; omega⟩ = ∑ c : Fin 256, f c := by
  have h := BlockSum.sum_blocks (M := EReal) 8 32 (fun p => if hp : p < 256 then f ⟨p, hp⟩ else 0)
  have hl : ∀ (s : Fin 8) (k : Fin 32), (if hp : s.val * 32 + k.val < 256 then f ⟨s.val * 32 + k.val, hp⟩ else 0)
      = f ⟨s.val * 32 + k.val, by have := s.isLt; have := k.isLt; omega⟩ := fun s k =>
    dif_pos (by have := s.isLt; have := k.isLt; omega)
  simp only [hl] at h
  rw [h]
  show ∑ p : Fin 256, (if hp : p.val < 256 then f ⟨p.val, hp⟩ else 0) = _
  exact Finset.sum_congr rfl fun p _ => dif_pos p.isLt

/-- Multiplying by the word 2⁻⁸ is dividing by the word 256, for every extended real. -/
theorem mul_inv256 (x : EReal) :
    x * Ideal.ofBits .f32 0x3B800000#32 = Ideal.div x (Ideal.ofBits .f32 0x43800000#32) := by
  have h256 : Ideal.ofBits .f32 0x43800000#32 = ((256 : ℝ) : EReal) := by
    simp [Ideal.ofBits, Ideal.ieee]
    exact_mod_cast (by norm_num : (8388608 : ℝ) * (2 ^ 15)⁻¹ = 256)
  have hinv : Ideal.ofBits .f32 0x3B800000#32 = (((256 : ℝ)⁻¹ : ℝ) : EReal) := by
    simp [Ideal.ofBits, Ideal.ieee]
    exact_mod_cast (by norm_num : (8388608 : ℝ) * (2 ^ 31)⁻¹ = 256⁻¹)
  have hne : ((256 : ℝ) : EReal) ≠ 0 := by
    intro h
    have := EReal.coe_eq_zero.mp h
    norm_num at this
  unfold Ideal.div
  rw [hinv, h256, if_neg hne, EReal.coe_inv]

/-- THE KERNEL'S FORM OF THE RESULT.  Zero plus the eight block sums (block s holding the channels 32·s … 32·s + 31, each block
    sum masked like the whole), times the word 2⁻⁸, is the cost volume's entry. -/
theorem kernel_form (A0 A1 : Arr.Idx → EReal) (b : Fin 8) (d : ℕ) (h : Fin 96) (w : Fin 320) (M : ℕ → EReal)
    (hM : ∀ s : Fin 8, M s.val = if hm : 4 ≤ w.val + d ∧ w.val + d < 324 then
        ∑ k : Fin 32, A0 (ix4 b ⟨s.val * 32 + k.val, by have := s.isLt; have := k.isLt; omega⟩ h w)
          * A1 (ix4 b ⟨s.val * 32 + k.val, by have := s.isLt; have := k.isLt; omega⟩ h ⟨w.val + d - 4, by omega⟩)
      else 0) :
    (Ideal.ofBits .f32 0x00000000#32 + ∑ s ∈ Finset.range 8, M s) * Ideal.ofBits .f32 0x3B800000#32
      = Ideal.div (Ideal.ofBits .f32 0x00000000#32 + corr A0 A1 b d h w) (Ideal.ofBits .f32 0x43800000#32) := by
  rw [mul_inv256, Finset.sum_range]
  congr 2
  unfold corr
  by_cases hm : 4 ≤ w.val + d ∧ w.val + d < 324
  · rw [dif_pos hm]
    have hM' : ∀ s : Fin 8, M s.val = ∑ k : Fin 32, A0 (ix4 b ⟨s.val * 32 + k.val, by have := s.isLt; have := k.isLt; omega⟩ h w)
          * A1 (ix4 b ⟨s.val * 32 + k.val, by have := s.isLt; have := k.isLt; omega⟩ h ⟨w.val + d - 4, by omega⟩) :=
      fun s => (hM s).trans (dif_pos hm)
    rw [Finset.sum_congr rfl fun s _ => hM' s]
    exact sum_by_blocks fun c => A0 (ix4 b c h w) * A1 (ix4 b c h ⟨w.val + d - 4, by omega⟩)
  · rw [dif_neg hm]
    have hM' : ∀ s : Fin 8, M s.val = 0 := fun s => (hM s).trans (dif_neg hm)
    rw [Finset.sum_congr rfl fun s _ => hM' s]
    exact Finset.sum_const_zero

end Cert.CostSpec

end
-- ==== Proof.CostKernel.lean ====
/-
  From the grid to the whole result array.

  Point t = 8·b + s of the grid reads channel block s of batch b of both feature maps; the point with s = 7 is the one that writes
  the output block of batch b back.  What it writes is the accumulator after it (zero plus the eight block sums) times 2⁻⁸, which
  is the cost volume's entry; and the eight write-backs cover the result array, batch by batch.
-/
import proofs.«174796_j82008105550452_2_alg».proof.Proof.Gen.KernelIdeal.Value
import proofs.«174796_j82008105550452_2_alg».proof.Proof.CostFold
import proofs.«174796_j82008105550452_2_alg».proof.Proof.CostSpec

set_option maxRecDepth 16384

noncomputable section

namespace Cert.KernelIdeal.Final

open Cert.KernelIdeal Cert.KernelIdeal.Gen Cert.KernelIdeal.Body Cert.KernelIdeal.Fold Idealize.ShloMosaic
  Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The printed index maps over the grid: point t is batch t / 8, channel block t % 8; the output block is batch t / 8. -/
theorem idx_facts : ∀ t : Fin cfg0.N,
    win0_0.index t (0 : Fin 4) = t.val / 8 ∧ win0_0.index t (1 : Fin 4) = t.val % 8
    ∧ win0_0.index t (2 : Fin 4) = 0 ∧ win0_0.index t (3 : Fin 4) = 0
    ∧ win0_1.index t (0 : Fin 4) = t.val / 8 ∧ win0_1.index t (1 : Fin 4) = t.val % 8
    ∧ win0_1.index t (2 : Fin 4) = 0 ∧ win0_1.index t (3 : Fin 4) = 0
    ∧ win0_2.index t (0 : Fin 4) = t.val / 8 ∧ win0_2.index t (1 : Fin 4) = 0
    ∧ win0_2.index t (2 : Fin 4) = 0 ∧ win0_2.index t (3 : Fin 4) = 0 :=
  (by decide +kernel : ∀ t : Fin grid0.N, _)

/-- The first feature map's block at point t, at (k, h, w), is the map at batch t / 8, channel 32·(t % 8) + k. -/
theorem iblk0_apply (c : Dev nD) (t : Fin cfg0.N) (u : Fin 1) (k : Fin 32) (h : Fin 96) (w : Fin 320)
    (b : Fin 8) (cc : Fin 256) (hb : b.val = t.val / 8) (hc : cc.val = t.val % 8 * 32 + k.val) :
    iblk m c 0 t (@ix4 1 32 96 320 u k h w) = V m c main_arg0 (@ix4 8 256 96 320 b cc h w) := by
  obtain ⟨e0, e1, e2, e3, -⟩ := idx_facts t
  show V m c main_arg0 (((cfg0.win 0).blk t).view.emb (@ix4 1 32 96 320 u k h w)) = _
  congr 1
  funext a
  apply Fin.ext
  have hu : u.val = 0 := by omega
  match a with
  | ⟨0, _⟩ => show win0_0.index t (0 : Fin 4) * 1 + 1 * u.val = b.val; omega
  | ⟨1, _⟩ => show win0_0.index t (1 : Fin 4) * 32 + 1 * k.val = cc.val; omega
  | ⟨2, _⟩ => show win0_0.index t (2 : Fin 4) * 96 + 1 * h.val = h.val; omega
  | ⟨3, _⟩ => show win0_0.index t (3 : Fin 4) * 320 + 1 * w.val = w.val; omega

/-- The second feature map's block at point t, likewise. -/
theorem iblk1_apply (c : Dev nD) (t : Fin cfg0.N) (u : Fin 1) (k : Fin 32) (h : Fin 96) (w : Fin 320)
    (b : Fin 8) (cc : Fin 256) (hb : b.val = t.val / 8) (hc : cc.val = t.val % 8 * 32 + k.val) :
    iblk m c 1 t (@ix4 1 32 96 320 u k h w) = V m c main_arg1 (@ix4 8 256 96 320 b cc h w) := by
  obtain ⟨-, -, -, -, e0, e1, e2, e3, -⟩ := idx_facts t
  show V m c main_arg1 (((cfg0.win 1).blk t).view.emb (@ix4 1 32 96 320 u k h w)) = _
  congr 1
  funext a
  apply Fin.ext
  have hu : u.val = 0 := by omega
  match a with
  | ⟨0, _⟩ => show win0_1.index t (0 : Fin 4) * 1 + 1 * u.val = b.val; omega
  | ⟨1, _⟩ => show win0_1.index t (1 : Fin 4) * 32 + 1 * k.val = cc.val; omega
  | ⟨2, _⟩ => show win0_1.index t (2 : Fin 4) * 96 + 1 * h.val = h.val; omega
  | ⟨3, _⟩ => show win0_1.index t (3 : Fin 4) * 320 + 1 * w.val = w.val; omega

/-- The accumulator after the last point of a run is the accumulator before it, updated. -/
theorem acc_last (c : Dev nD) (t : Fin cfg0.N) (h0 : ¬t.val % 8 = 0) (h1 : t.val % 8 = 7) :
    (outsAt0 m c t.val t.isLt).2 = stepB (iblk m c 0 t) (iblk m c 1 t) (outsAt0 m c (t.val - 1) (Nat.lt_of_le_of_lt (Nat.sub_le _ _) t.isLt)).2 := by
  rw [outsAt0_C m c t h0 h1]
  dsimp only
  exact sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- At the last point of a run, what is written back is the accumulator after that point, times 2⁻⁸. -/
theorem flushed_last (c : Dev nD) (t : Fin cfg0.N) (h1 : t.val % 8 = 7) :
    (dats m 0 c).flushed 2 t
      = (cfg0.win 2).cut (grid0.coords t) (k0_pay2 ((outsAt0 m c t.val t.isLt).2)) := by
  have h0 : ¬t.val % 8 = 0 := by omega
  refine (Value.flushed2_C m c t h0 h1).trans ?_
  refine congrArg ((cfg0.win 2).cut (grid0.coords t)) ?_
  exact (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (congrArg k0_pay2 (acc_last m c t h0 h1).symm)

/-- The output block's entry (d, h, w) is the accumulator's entry times the word 2⁻⁸. -/
theorem k0_pay2_apply (S : Vec Ideal S9x96x320 .f32) (u : Fin 1) (d : Fin 9) (h : Fin 96) (w : Fin 320) :
    k0_pay2 S (@ix4 1 9 96 320 u d h w) = S (@ix3 9 96 320 d h w) * Ideal.ofBits .f32 0x3B800000#32 := by
  unfold k0_pay2
  rw [shapeCast_abc_1abc_apply, mulf_apply, broadcast_apply]
  rfl

/-- The zeroed accumulator holds the word 0 everywhere. -/
theorem k0_pay3_apply (y : S9x96x320.Idx) : k0_pay3 (F := Ideal) y = Ideal.ofBits .f32 0x00000000#32 := by
  unfold k0_pay3
  rw [shapeCast_self]
  rfl

/-- WHAT A WRITING POINT WRITES BACK is its block of the cost volume of the two argument arrays. -/
theorem flushed_eq (c : Dev nD) (t : Fin cfg0.N) (hf : (cfg0.win 2).flush t = true) :
    (dats m 0 c).flushed 2 t
      = ((cfg0.win 2).blk t).view.read (Elt Ideal) (CostSpec.G (V m c main_arg0) (V m c main_arg1)) := by
  have h1 : t.val % 8 = 7 := (flush0_2 t).mp hf
  have hN : t.val < 64 := lt_of_lt_of_eq t.isLt (show cfg0.N = 64 from N_0)
  rw [flushed_last m c t h1]
  obtain ⟨-, -, -, -, -, -, -, -, e0, e1, e2, e3⟩ := idx_facts t
  funext j
  obtain ⟨u, d, h, w, rfl⟩ : ∃ (u : Fin 1) (d : Fin 9) (h : Fin 96) (w : Fin 320), j = ix4 u d h w :=
    ⟨j 0, j 1, j 2, j 3, eq_ix4 j⟩
  show k0_pay2 ((outsAt0 m c t.val t.isLt).2) (@ix4 1 9 96 320 u d h w)
    = CostSpec.G (V m c main_arg0) (V m c main_arg1) (((cfg0.win 2).blk t).view.emb (@ix4 1 9 96 320 u d h w))
  have hemb : ((cfg0.win 2).blk t).view.emb (@ix4 1 9 96 320 u d h w) = @ix4 8 9 96 320 ⟨t.val / 8, by omega⟩ d h w := by
    funext a
    apply Fin.ext
    have hu : u.val = 0 := by omega
    match a with
    | ⟨0, _⟩ => show win0_2.index t (0 : Fin 4) * 1 + 1 * u.val = t.val / 8; omega
    | ⟨1, _⟩ => show win0_2.index t (1 : Fin 4) * 9 + 1 * d.val = d.val; omega
    | ⟨2, _⟩ => show win0_2.index t (2 : Fin 4) * 96 + 1 * h.val = h.val; omega
    | ⟨3, _⟩ => show win0_2.index t (3 : Fin 4) * 320 + 1 * w.val = w.val; omega
  rw [hemb, k0_pay2_apply, scratch_at m c t, k0_pay3_apply, h1]
  refine CostSpec.kernel_form (V m c main_arg0) (V m c main_arg1) ⟨t.val / 8, by omega⟩ d.val h w
    (fun s => addend m c (8 * (t.val / 8) + s) (@ix3 9 96 320 d h w)) (fun s => ?_)
  have hs : s.val < 8 := s.isLt
  have hn : 8 * (t.val / 8) + s.val < cfg0.N := lt_of_lt_of_eq (by omega) (show (64 : ℕ) = cfg0.N from N_0.symm)
  unfold addend
  rw [dif_pos hn]
  unfold term
  by_cases hm : 4 ≤ w.val + d.val ∧ w.val + d.val < 324
  · rw [dif_pos hm, dif_pos hm]
    refine Finset.sum_congr rfl fun k _ => ?_
    have hk : k.val < 32 := k.isLt
    rw [iblk0_apply m c ⟨8 * (t.val / 8) + s.val, hn⟩ 0 k h w ⟨t.val / 8, by omega⟩ ⟨s.val * 32 + k.val, by omega⟩
        (by show t.val / 8 = (8 * (t.val / 8) + s.val) / 8; omega)
        (by show s.val * 32 + k.val = (8 * (t.val / 8) + s.val) % 8 * 32 + k.val; omega),
      iblk1_apply m c ⟨8 * (t.val / 8) + s.val, hn⟩ 0 k h ⟨w.val + d.val - 4, by omega⟩ ⟨t.val / 8, by omega⟩ ⟨s.val * 32 + k.val, by omega⟩
        (by show t.val / 8 = (8 * (t.val / 8) + s.val) / 8; omega)
        (by show s.val * 32 + k.val = (8 * (t.val / 8) + s.val) % 8 * 32 + k.val; omega)]
  · rw [dif_neg hm, dif_neg hm]

/-- An index of the result array is in point t's block iff each coordinate is in the block's range on its axis. -/
theorem mem_blk (t : Fin cfg0.N) (i : S8x9x96x320.Idx) :
    i ∈ ((cfg0.win 2).blk t).view.set ↔ ∀ a : Fin 4, win0_2.index t a * S1x9x96x320.size a ≤ (i a).val
      ∧ (i a).val < win0_2.index t a * S1x9x96x320.size a + S1x9x96x320.size a := by
  show i ∈ ((View.whole main_v0).slice (win0_2.rect t)).set ↔ _
  rw [View.set_slice_whole, Rect.mem_set_unit]
  exact Iff.rfl

/-- Every entry of the result array is written back by the last point of its batch's run. -/
theorem cover (i : S8x9x96x320.Idx) :
    ∃ t : Fin cfg0.N, (cfg0.win 2).flush t = true ∧ i ∈ ((cfg0.win 2).blk t).view.set := by
  have hb : (i 0).val < 8 := (i 0).isLt
  have hd : (i 1).val < 9 := (i 1).isLt
  have hh : (i 2).val < 96 := (i 2).isLt
  have hw : (i 3).val < 320 := (i 3).isLt
  have hlt : 8 * (i 0).val + 7 < cfg0.N := lt_of_lt_of_eq (by omega) (show (64 : ℕ) = cfg0.N from N_0.symm)
  refine ⟨⟨8 * (i 0).val + 7, hlt⟩, (flush0_2 _).mpr (by show (8 * (i 0).val + 7) % 8 = 7; omega), ?_⟩
  obtain ⟨-, -, -, -, -, -, -, -, e0, e1, e2, e3⟩ := idx_facts ⟨8 * (i 0).val + 7, hlt⟩
  have e0' : win0_2.index ⟨8 * (i 0).val + 7, hlt⟩ (0 : Fin 4) = (i 0).val := by rw [e0]; show (8 * (i 0).val + 7) / 8 = _; omega
  rw [mem_blk]
  intro a
  match a with
  | ⟨0, _⟩ => show win0_2.index _ (0 : Fin 4) * 1 ≤ (i 0).val ∧ (i 0).val < win0_2.index _ (0 : Fin 4) * 1 + 1; omega
  | ⟨1, _⟩ => show win0_2.index _ (1 : Fin 4) * 9 ≤ (i 1).val ∧ (i 1).val < win0_2.index _ (1 : Fin 4) * 9 + 9; omega
  | ⟨2, _⟩ => show win0_2.index _ (2 : Fin 4) * 96 ≤ (i 2).val ∧ (i 2).val < win0_2.index _ (2 : Fin 4) * 96 + 96; omega
  | ⟨3, _⟩ => show win0_2.index _ (3 : Fin 4) * 320 ≤ (i 3).val ∧ (i 3).val < win0_2.index _ (3 : Fin 4) * 320 + 320; omega

/-- THE RESULT ARRAY after the run is the cost volume of the argument arrays. -/
theorem final (c : Dev nD) :
    (dats m 0 c).arrAt 2 cfg0.N = CostSpec.G (m ((c : Thread nD τ).loc main_arg0)) (m ((c : Thread nD τ).loc main_arg1)) :=
  (dats m 0 c).arrAt_eq_of_cover 2 (CostSpec.G (V m c main_arg0) (V m c main_arg1)) (fun t hf => flushed_eq m c t hf) cover

/-- The kernel's run, read: the result array at the cost volume of the arguments, the arguments unchanged. -/
theorem run : θ_run defs (onTc (τ := τ) (main (F := Ideal))) ⟨m, fun _ => 0, ρ⟩ fun r => ∀ c : Dev nD,
      r.2.mem ((c : Thread nD τ).loc main_v0)
        = CostSpec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefRun.lean ====
/-
  The reference's run, window by window.

  The reference's @main is a straight line of 112 host operations: three that build the zero-padded second feature map, then
  for each of the nine displacements a group of eleven (the four start indices, the slice of the padded map, the product with
  the first map, the zero, the sum over the channels, the constant 256, its broadcast, the quotient), then nine that give each
  quotient a unit axis and one that joins them.  Each window is read by itself from whatever the buffers held before it; a
  window leaves alone every buffer it does not write; and the windows laid end to end are the program.
-/
import proofs.«174796_j82008105550452_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 112 operations, in order. -/
abbrev ops : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x256x96x320, .f32⟩) main_arg1) (TRef.of (T := ⟨S_, .f32⟩) main_call0_v0) (TRef.of (T := ⟨S8x256x96x328, .f32⟩) main_v0) (fun x v => pad S8x256x96x328 ![0, 0, 0, 4] ![0, 0, 0, 4] ![0, 0, 0, 0] x v pads_S8x256x96x320_S8x256x96x328_000_000_000_440 h_S_),
    nullary main_c_0 (constantI S_ 32 0#32),
    nullary main_c_1 (constantI S_ 32 0#32),
    nullary main_c_2 (constantI S_ 32 0#32),
    nullary main_c_3 (constantI S_ 32 0#32),
    unaryIndexed main_v0 ![main_c_0, main_c_1, main_c_2, main_c_3] ⟨S_, .i32⟩ main_v1 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v1 main_v2 (mulf : (⟨S8x256x96x320, .f32⟩ : BufTy).Contents (Elt F) → (⟨S8x256x96x320, .f32⟩ : BufTy).Contents (Elt F) → (⟨S8x256x96x320, .f32⟩ : BufTy).Contents (Elt F)),
    nullary main_cst (constant S_ .f32 0x00000000#32),
    binary main_v2 main_cst main_v3 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_4 (constant S_ .f32 0x43800000#32),
    unary main_cst_4 main_v4 (broadcastInDim S8x96x320 ![] bcast_S_S8x96x320 : (⟨S_, .f32⟩ : BufTy).Contents (Elt F) → (⟨S8x96x320, .f32⟩ : BufTy).Contents (Elt F)),
    binary main_v3 main_v4 main_v5 (Host.divf : (⟨S8x96x320, .f32⟩ : BufTy).Contents (Elt F) → (⟨S8x96x320, .f32⟩ : BufTy).Contents (Elt F) → (⟨S8x96x320, .f32⟩ : BufTy).Contents (Elt F)),
    nullary main_c_5 (constantI S_ 32 0#32),
    nullary main_c_6 (constantI S_ 32 0#32),
    nullary main_c_7 (constantI S_ 32 0#32),
    nullary main_c_8 (constantI S_ 32 1#32),
    unaryIndexed main_v0 ![main_c_5, main_c_6, main_c_7, main_c_8] ⟨S_, .i32⟩ main_v6 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v6 main_v7 (mulf : (⟨S8x256x96x320, .f32⟩ : BufTy).Contents (Elt F) → (⟨S8x256x96x320, .f32⟩ : BufTy).Contents (Elt F) → (⟨S8x256x96x320, .f32⟩ : BufTy).Contents (Elt F)),
    nullary main_cst_9 (constant S_ .f32 0x00000000#32),
    binary main_v7 main_cst_9 main_v8 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_10 (constant S_ .f32 0x43800000#32),
    unary main_cst_10 main_v9 (broadcastInDim S8x96x320 ![] bcast_S_S8x96x320 : (⟨S_, .f32⟩ : BufTy).Contents (Elt F) → (⟨S8x96x320, .f32⟩ : BufTy).Contents (Elt F)),
    binary main_v8 main_v9 main_v10 (Host.divf : (⟨S8x96x320, .f32⟩ : BufTy).Contents (Elt F) → (⟨S8x96x320, .f32⟩ : BufTy).Contents (Elt F) → (⟨S8x96x320, .f32⟩ : BufTy).Contents (Elt F)),
    nullary main_c_11 (constantI S_ 32 0#32),
    nullary main_c_12 (constantI S_ 32 0#32),
    nullary main_c_13 (constantI S_ 32 0#32),
    nullary main_c_14 (constantI S_ 32 2#32),
    unaryIndexed main_v0 ![main_c_11, main_c_12, main_c_13, main_c_14] ⟨S_, .i32⟩ main_v11 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v11 main_v12 (mulf : (⟨S8x256x96x320, .f32⟩ : BufTy).Contents (Elt F) → (⟨S8x256x96x320, .f32⟩ : BufTy).Contents (Elt F) → (⟨S8x256x96x320, .f32⟩ : BufTy).Contents (Elt F)),
    nullary main_cst_15 (constant S_ .f32 0x00000000#32),
    binary main_v12 main_cst_15 main_v13 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_16 (constant S_ .f32 0x43800000#32),
    unary main_cst_16 main_v14 (broadcastInDim S8x96x320 ![] bcast_S_S8x96x320 : (⟨S_, .f32⟩ : BufTy).Contents (Elt F) → (⟨S8x96x320, .f32⟩ : BufTy).Contents (Elt F)),
    binary main_v13 main_v14 main_v15 (Host.divf : (⟨S8x96x320, .f32⟩ : BufTy).Contents (Elt F) → (⟨S8x96x320, .f32⟩ : BufTy).Contents (Elt F) → (⟨S8x96x320, .f32⟩ : BufTy).Contents (Elt F)),
    nullary main_c_17 (constantI S_ 32 0#32),
    nullary main_c_18 (constantI S_ 32 0#32),
    nullary main_c_19 (constantI S_ 32 0#32),
    nullary main_c_20 (constantI S_ 32 3#32),
    unaryIndexed main_v0 ![main_c_17, main_c_18, main_c_19, main_c_20] ⟨S_, .i32⟩ main_v16 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v16 main_v17 (mulf : (⟨S8x256x96x320, .f32⟩ : BufTy).Contents (Elt F) → (⟨S8x256x96x320, .f32⟩ : BufTy).Contents (Elt F) → (⟨S8x256x96x320, .f32⟩ : BufTy).Contents (Elt F)),
    nullary main_cst_21 (constant S_ .f32 0x00000000#32),
    binary main_v17 main_cst_21 main_v18 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_22 (constant S_ .f32 0x43800000#32),
    unary main_cst_22 main_v19 (broadcastInDim S8x96x320 ![] bcast_S_S8x96x320 : (⟨S_, .f32⟩ : BufTy).Contents (Elt F) → (⟨S8x96x320, .f32⟩ : BufTy).Contents (Elt F)),
    binary main_v18 main_v19 main_v20 (Host.divf : (⟨S8x96x320, .f32⟩ : BufTy).Contents (Elt F) → (⟨S8x96x320, .f32⟩ : BufTy).Contents (Elt F) → (⟨S8x96x320, .f32⟩ : BufTy).Contents (Elt F)),
    nullary main_c_23 (constantI S_ 32 0#32),
    nullary main_c_24 (constantI S_ 32 0#32),
    nullary main_c_25 (constantI S_ 32 0#32),
    nullary main_c_26 (constantI S_ 32 4#32),
    unaryIndexed main_v0 ![main_c_23, main_c_24, main_c_25, main_c_26] ⟨S_, .i32⟩ main_v21 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v21 main_v22 (mulf : (⟨S8x256x96x320, .f32⟩ : BufTy).Contents (Elt F) → (⟨S8x256x96x320, .f32⟩ : BufTy).Contents (Elt F) → (⟨S8x256x96x320, .f32⟩ : BufTy).Contents (Elt F)),
    nullary main_cst_27 (constant S_ .f32 0x00000000#32),
    binary main_v22 main_cst_27 main_v23 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_28 (constant S_ .f32 0x43800000#32),
    unary main_cst_28 main_v24 (broadcastInDim S8x96x320 ![] bcast_S_S8x96x320 : (⟨S_, .f32⟩ : BufTy).Contents (Elt F) → (⟨S8x96x320, .f32⟩ : BufTy).Contents (Elt F)),
    binary main_v23 main_v24 main_v25 (Host.divf : (⟨S8x96x320, .f32⟩ : BufTy).Contents (Elt F) → (⟨S8x96x320, .f32⟩ : BufTy).Contents (Elt F) → (⟨S8x96x320, .f32⟩ : BufTy).Contents (Elt F)),
    nullary main_c_29 (constantI S_ 32 0#32),
    nullary main_c_30 (constantI S_ 32 0#32),
    nullary main_c_31 (constantI S_ 32 0#32),
    nullary main_c_32 (constantI S_ 32 5#32),
    unaryIndexed main_v0 ![main_c_29, main_c_30, main_c_31, main_c_32] ⟨S_, .i32⟩ main_v26 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v26 main_v27 (mulf : (⟨S8x256x96x320, .f32⟩ : BufTy).Contents (Elt F) → (⟨S8x256x96x320, .f32⟩ : BufTy).Contents (Elt F) → (⟨S8x256x96x320, .f32⟩ : BufTy).Contents (Elt F)),
    nullary main_cst_33 (constant S_ .f32 0x00000000#32),
    binary main_v27 main_cst_33 main_v28 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_34 (constant S_ .f32 0x43800000#32),
    unary main_cst_34 main_v29 (broadcastInDim S8x96x320 ![] bcast_S_S8x96x320 : (⟨S_, .f32⟩ : BufTy).Contents (Elt F) → (⟨S8x96x320, .f32⟩ : BufTy).Contents (Elt F)),
    binary main_v28 main_v29 main_v30 (Host.divf : (⟨S8x96x320, .f32⟩ : BufTy).Contents (Elt F) → (⟨S8x96x320, .f32⟩ : BufTy).Contents (Elt F) → (⟨S8x96x320, .f32⟩ : BufTy).Contents (Elt F)),
    nullary main_c_35 (constantI S_ 32 0#32),
    nullary main_c_36 (constantI S_ 32 0#32),
    nullary main_c_37 (constantI S_ 32 0#32),
    nullary main_c_38 (constantI S_ 32 6#32),
    unaryIndexed main_v0 ![main_c_35, main_c_36, main_c_37, main_c_38] ⟨S_, .i32⟩ main_v31 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v31 main_v32 (mulf : (⟨S8x256x96x320, .f32⟩ : BufTy).Contents (Elt F) → (⟨S8x256x96x320, .f32⟩ : BufTy).Contents (Elt F) → (⟨S8x256x96x320, .f32⟩ : BufTy).Contents (Elt F)),
    nullary main_cst_39 (constant S_ .f32 0x00000000#32),
    binary main_v32 main_cst_39 main_v33 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_40 (constant S_ .f32 0x43800000#32),
    unary main_cst_40 main_v34 (broadcastInDim S8x96x320 ![] bcast_S_S8x96x320 : (⟨S_, .f32⟩ : BufTy).Contents (Elt F) → (⟨S8x96x320, .f32⟩ : BufTy).Contents (Elt F)),
    binary main_v33 main_v34 main_v35 (Host.divf : (⟨S8x96x320, .f32⟩ : BufTy).Contents (Elt F) → (⟨S8x96x320, .f32⟩ : BufTy).Contents (Elt F) → (⟨S8x96x320, .f32⟩ : BufTy).Contents (Elt F)),
    nullary main_c_41 (constantI S_ 32 0#32),
    nullary main_c_42 (constantI S_ 32 0#32),
    nullary main_c_43 (constantI S_ 32 0#32),
    nullary main_c_44 (constantI S_ 32 7#32),
    unaryIndexed main_v0 ![main_c_41, main_c_42, main_c_43, main_c_44] ⟨S_, .i32⟩ main_v36 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v36 main_v37 (mulf : (⟨S8x256x96x320, .f32⟩ : BufTy).Contents (Elt F) → (⟨S8x256x96x320, .f32⟩ : BufTy).Contents (Elt F) → (⟨S8x256x96x320, .f32⟩ : BufTy).Contents (Elt F)),
    nullary main_cst_45 (constant S_ .f32 0x00000000#32),
    binary main_v37 main_cst_45 main_v38 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_46 (constant S_ .f32 0x43800000#32),
    unary main_cst_46 main_v39 (broadcastInDim S8x96x320 ![] bcast_S_S8x96x320 : (⟨S_, .f32⟩ : BufTy).Contents (Elt F) → (⟨S8x96x320, .f32⟩ : BufTy).Contents (Elt F)),
    binary main_v38 main_v39 main_v40 (Host.divf : (⟨S8x96x320, .f32⟩ : BufTy).Contents (Elt F) → (⟨S8x96x320, .f32⟩ : BufTy).Contents (Elt F) → (⟨S8x96x320, .f32⟩ : BufTy).Contents (Elt F)),
    nullary main_c_47 (constantI S_ 32 0#32),
    nullary main_c_48 (constantI S_ 32 0#32),
    nullary main_c_49 (constantI S_ 32 0#32),
    nullary main_c_50 (constantI S_ 32 8#32),
    unaryIndexed main_v0 ![main_c_47, main_c_48, main_c_49, main_c_50] ⟨S_, .i32⟩ main_v41 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v41 main_v42 (mulf : (⟨S8x256x96x320, .f32⟩ : BufTy).Contents (Elt F) → (⟨S8x256x96x320, .f32⟩ : BufTy).Contents (Elt F) → (⟨S8x256x96x320, .f32⟩ : BufTy).Contents (Elt F)),
    nullary main_cst_51 (constant S_ .f32 0x00000000#32),
    binary main_v42 main_cst_51 main_v43 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_52 (constant S_ .f32 0x43800000#32),
    unary main_cst_52 main_v44 (broadcastInDim S8x96x320 ![] bcast_S_S8x96x320 : (⟨S_, .f32⟩ : BufTy).Contents (Elt F) → (⟨S8x96x320, .f32⟩ : BufTy).Contents (Elt F)),
    binary main_v43 main_v44 main_v45 (Host.divf : (⟨S8x96x320, .f32⟩ : BufTy).Contents (Elt F) → (⟨S8x96x320, .f32⟩ : BufTy).Contents (Elt F) → (⟨S8x96x320, .f32⟩ : BufTy).Contents (Elt F)),
    unary main_v5 main_v46 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v10 main_v47 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v15 main_v48 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v20 main_v49 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v25 main_v50 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v30 main_v51 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v35 main_v52 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v40 main_v53 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v45 main_v54 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    nary ![main_v46, main_v47, main_v48, main_v49, main_v50, main_v51, main_v52, main_v53, main_v54] main_v55 (fun u => concatenate S8x9x96x320 1 [⟨S8x1x96x320, u 0⟩, ⟨S8x1x96x320, u 1⟩, ⟨S8x1x96x320, u 2⟩, ⟨S8x1x96x320, u 3⟩, ⟨S8x1x96x320, u 4⟩, ⟨S8x1x96x320, u 5⟩, ⟨S8x1x96x320, u 6⟩, ⟨S8x1x96x320, u 7⟩, ⟨S8x1x96x320, u 8⟩] concatenates_S8x1x96x320_S8x1x96x320_S8x1x96x320_S8x1x96x320_S8x1x96x320_S8x1x96x320_S8x1x96x320_S8x1x96x320_S8x1x96x320_S8x9x96x320_d1) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., nullary_bufs_sub .., nullary_bufs_sub .., nullary_bufs_sub .., unaryIndexed_bufs_sub .., binary_bufs_sub .., nullary_bufs_sub .., binary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., binary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., binary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., binary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., binary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., binary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., binary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., binary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩

/-- Two lines of operations run one after the other: the second from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Window `pre` of @main's operations. -/
abbrev pre : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x256x96x320, .f32⟩) main_arg1) (TRef.of (T := ⟨S_, .f32⟩) main_call0_v0) (TRef.of (T := ⟨S8x256x96x328, .f32⟩) main_v0) (fun x v => pad S8x256x96x328 ![0, 0, 0, 4] ![0, 0, 0, 4] ![0, 0, 0, 0] x v pads_S8x256x96x320_S8x256x96x328_000_000_000_440 h_S_) ]
/-- The buffers window `pre` writes. -/
abbrev pre_W : List (Ref sig .tc) := [main_c, main_call0_v0, main_v0]
theorem pre_writes : (pre : List (HloOp τ sig (Elt F))).Forall fun op => op.writes ⊆ (pre_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer window `pre` does not write keeps its contents through it. -/
theorem pre_keep (V : Valuation τ sig (Elt F)) (r : Ref sig .tc) (h : r ∉ pre_W) :
    after pre V (Proc.devRef .tc r) = V (Proc.devRef .tc r) :=
  after_of_writes_sub pre V pre_writes h

/-- Window `ch0` of @main's operations. -/
abbrev ch0 : List (HloOp τ sig (Elt F)) :=
  [ nullary main_c_0 (constantI S_ 32 0#32),
    nullary main_c_1 (constantI S_ 32 0#32),
    nullary main_c_2 (constantI S_ 32 0#32),
    nullary main_c_3 (constantI S_ 32 0#32),
    unaryIndexed main_v0 ![main_c_0, main_c_1, main_c_2, main_c_3] ⟨S_, .i32⟩ main_v1 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v1 main_v2 (mulf : (⟨S8x256x96x320, .f32⟩ : BufTy).Contents (Elt F) → (⟨S8x256x96x320, .f32⟩ : BufTy).Contents (Elt F) → (⟨S8x256x96x320, .f32⟩ : BufTy).Contents (Elt F)),
    nullary main_cst (constant S_ .f32 0x00000000#32),
    binary main_v2 main_cst main_v3 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_4 (constant S_ .f32 0x43800000#32),
    unary main_cst_4 main_v4 (broadcastInDim S8x96x320 ![] bcast_S_S8x96x320 : (⟨S_, .f32⟩ : BufTy).Contents (Elt F) → (⟨S8x96x320, .f32⟩ : BufTy).Contents (Elt F)),
    binary main_v3 main_v4 main_v5 (Host.divf : (⟨S8x96x320, .f32⟩ : BufTy).Contents (Elt F) → (⟨S8x96x320, .f32⟩ : BufTy).Contents (Elt F) → (⟨S8x96x320, .f32⟩ : BufTy).Contents (Elt F)) ]
/-- The buffers window `ch0` writes. -/
abbrev ch0_W : List (Ref sig .tc) := [main_c_0, main_c_1, main_c_2, main_c_3, main_v1, main_v2, main_cst, main_v3, main_cst_4, main_v4, main_v5]
theorem ch0_writes : (ch0 : List (HloOp τ sig (Elt F))).Forall fun op => op.writes ⊆ (ch0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer window `ch0` does not write keeps its contents through it. -/
theorem ch0_keep (V : Valuation τ sig (Elt F)) (r : Ref sig .tc) (h : r ∉ ch0_W) :
    after ch0 V (Proc.devRef .tc r) = V (Proc.devRef .tc r) :=
  after_of_writes_sub ch0 V ch0_writes h

/-- Window `ch1` of @main's operations. -/
abbrev ch1 : List (HloOp τ sig (Elt F)) :=
  [ nullary main_c_5 (constantI S_ 32 0#32),
    nullary main_c_6 (constantI S_ 32 0#32),
    nullary main_c_7 (constantI S_ 32 0#32),
    nullary main_c_8 (constantI S_ 32 1#32),
    unaryIndexed main_v0 ![main_c_5, main_c_6, main_c_7, main_c_8] ⟨S_, .i32⟩ main_v6 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v6 main_v7 (mulf : (⟨S8x256x96x320, .f32⟩ : BufTy).Contents (Elt F) → (⟨S8x256x96x320, .f32⟩ : BufTy).Contents (Elt F) → (⟨S8x256x96x320, .f32⟩ : BufTy).Contents (Elt F)),
    nullary main_cst_9 (constant S_ .f32 0x00000000#32),
    binary main_v7 main_cst_9 main_v8 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_10 (constant S_ .f32 0x43800000#32),
    unary main_cst_10 main_v9 (broadcastInDim S8x96x320 ![] bcast_S_S8x96x320 : (⟨S_, .f32⟩ : BufTy).Contents (Elt F) → (⟨S8x96x320, .f32⟩ : BufTy).Contents (Elt F)),
    binary main_v8 main_v9 main_v10 (Host.divf : (⟨S8x96x320, .f32⟩ : BufTy).Contents (Elt F) → (⟨S8x96x320, .f32⟩ : BufTy).Contents (Elt F) → (⟨S8x96x320, .f32⟩ : BufTy).Contents (Elt F)) ]
/-- The buffers window `ch1` writes. -/
abbrev ch1_W : List (Ref sig .tc) := [main_c_5, main_c_6, main_c_7, main_c_8, main_v6, main_v7, main_cst_9, main_v8, main_cst_10, main_v9, main_v10]
theorem ch1_writes : (ch1 : List (HloOp τ sig (Elt F))).Forall fun op => op.writes ⊆ (ch1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer window `ch1` does not write keeps its contents through it. -/
theorem ch1_keep (V : Valuation τ sig (Elt F)) (r : Ref sig .tc) (h : r ∉ ch1_W) :
    after ch1 V (Proc.devRef .tc r) = V (Proc.devRef .tc r) :=
  after_of_writes_sub ch1 V ch1_writes h

/-- Window `ch2` of @main's operations. -/
abbrev ch2 : List (HloOp τ sig (Elt F)) :=
  [ nullary main_c_11 (constantI S_ 32 0#32),
    nullary main_c_12 (constantI S_ 32 0#32),
    nullary main_c_13 (constantI S_ 32 0#32),
    nullary main_c_14 (constantI S_ 32 2#32),
    unaryIndexed main_v0 ![main_c_11, main_c_12, main_c_13, main_c_14] ⟨S_, .i32⟩ main_v11 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v11 main_v12 (mulf : (⟨S8x256x96x320, .f32⟩ : BufTy).Contents (Elt F) → (⟨S8x256x96x320, .f32⟩ : BufTy).Contents (Elt F) → (⟨S8x256x96x320, .f32⟩ : BufTy).Contents (Elt F)),
    nullary main_cst_15 (constant S_ .f32 0x00000000#32),
    binary main_v12 main_cst_15 main_v13 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_16 (constant S_ .f32 0x43800000#32),
    unary main_cst_16 main_v14 (broadcastInDim S8x96x320 ![] bcast_S_S8x96x320 : (⟨S_, .f32⟩ : BufTy).Contents (Elt F) → (⟨S8x96x320, .f32⟩ : BufTy).Contents (Elt F)),
    binary main_v13 main_v14 main_v15 (Host.divf : (⟨S8x96x320, .f32⟩ : BufTy).Contents (Elt F) → (⟨S8x96x320, .f32⟩ : BufTy).Contents (Elt F) → (⟨S8x96x320, .f32⟩ : BufTy).Contents (Elt F)) ]
/-- The buffers window `ch2` writes. -/
abbrev ch2_W : List (Ref sig .tc) := [main_c_11, main_c_12, main_c_13, main_c_14, main_v11, main_v12, main_cst_15, main_v13, main_cst_16, main_v14, main_v15]
theorem ch2_writes : (ch2 : List (HloOp τ sig (Elt F))).Forall fun op => op.writes ⊆ (ch2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer window `ch2` does not write keeps its contents through it. -/
theorem ch2_keep (V : Valuation τ sig (Elt F)) (r : Ref sig .tc) (h : r ∉ ch2_W) :
    after ch2 V (Proc.devRef .tc r) = V (Proc.devRef .tc r) :=
  after_of_writes_sub ch2 V ch2_writes h

/-- Window `ch3` of @main's operations. -/
abbrev ch3 : List (HloOp τ sig (Elt F)) :=
  [ nullary main_c_17 (constantI S_ 32 0#32),
    nullary main_c_18 (constantI S_ 32 0#32),
    nullary main_c_19 (constantI S_ 32 0#32),
    nullary main_c_20 (constantI S_ 32 3#32),
    unaryIndexed main_v0 ![main_c_17, main_c_18, main_c_19, main_c_20] ⟨S_, .i32⟩ main_v16 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v16 main_v17 (mulf : (⟨S8x256x96x320, .f32⟩ : BufTy).Contents (Elt F) → (⟨S8x256x96x320, .f32⟩ : BufTy).Contents (Elt F) → (⟨S8x256x96x320, .f32⟩ : BufTy).Contents (Elt F)),
    nullary main_cst_21 (constant S_ .f32 0x00000000#32),
    binary main_v17 main_cst_21 main_v18 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_22 (constant S_ .f32 0x43800000#32),
    unary main_cst_22 main_v19 (broadcastInDim S8x96x320 ![] bcast_S_S8x96x320 : (⟨S_, .f32⟩ : BufTy).Contents (Elt F) → (⟨S8x96x320, .f32⟩ : BufTy).Contents (Elt F)),
    binary main_v18 main_v19 main_v20 (Host.divf : (⟨S8x96x320, .f32⟩ : BufTy).Contents (Elt F) → (⟨S8x96x320, .f32⟩ : BufTy).Contents (Elt F) → (⟨S8x96x320, .f32⟩ : BufTy).Contents (Elt F)) ]
/-- The buffers window `ch3` writes. -/
abbrev ch3_W : List (Ref sig .tc) := [main_c_17, main_c_18, main_c_19, main_c_20, main_v16, main_v17, main_cst_21, main_v18, main_cst_22, main_v19, main_v20]
theorem ch3_writes : (ch3 : List (HloOp τ sig (Elt F))).Forall fun op => op.writes ⊆ (ch3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer window `ch3` does not write keeps its contents through it. -/
theorem ch3_keep (V : Valuation τ sig (Elt F)) (r : Ref sig .tc) (h : r ∉ ch3_W) :
    after ch3 V (Proc.devRef .tc r) = V (Proc.devRef .tc r) :=
  after_of_writes_sub ch3 V ch3_writes h

/-- Window `ch4` of @main's operations. -/
abbrev ch4 : List (HloOp τ sig (Elt F)) :=
  [ nullary main_c_23 (constantI S_ 32 0#32),
    nullary main_c_24 (constantI S_ 32 0#32),
    nullary main_c_25 (constantI S_ 32 0#32),
    nullary main_c_26 (constantI S_ 32 4#32),
    unaryIndexed main_v0 ![main_c_23, main_c_24, main_c_25, main_c_26] ⟨S_, .i32⟩ main_v21 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v21 main_v22 (mulf : (⟨S8x256x96x320, .f32⟩ : BufTy).Contents (Elt F) → (⟨S8x256x96x320, .f32⟩ : BufTy).Contents (Elt F) → (⟨S8x256x96x320, .f32⟩ : BufTy).Contents (Elt F)),
    nullary main_cst_27 (constant S_ .f32 0x00000000#32),
    binary main_v22 main_cst_27 main_v23 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_28 (constant S_ .f32 0x43800000#32),
    unary main_cst_28 main_v24 (broadcastInDim S8x96x320 ![] bcast_S_S8x96x320 : (⟨S_, .f32⟩ : BufTy).Contents (Elt F) → (⟨S8x96x320, .f32⟩ : BufTy).Contents (Elt F)),
    binary main_v23 main_v24 main_v25 (Host.divf : (⟨S8x96x320, .f32⟩ : BufTy).Contents (Elt F) → (⟨S8x96x320, .f32⟩ : BufTy).Contents (Elt F) → (⟨S8x96x320, .f32⟩ : BufTy).Contents (Elt F)) ]
/-- The buffers window `ch4` writes. -/
abbrev ch4_W : List (Ref sig .tc) := [main_c_23, main_c_24, main_c_25, main_c_26, main_v21, main_v22, main_cst_27, main_v23, main_cst_28, main_v24, main_v25]
theorem ch4_writes : (ch4 : List (HloOp τ sig (Elt F))).Forall fun op => op.writes ⊆ (ch4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer window `ch4` does not write keeps its contents through it. -/
theorem ch4_keep (V : Valuation τ sig (Elt F)) (r : Ref sig .tc) (h : r ∉ ch4_W) :
    after ch4 V (Proc.devRef .tc r) = V (Proc.devRef .tc r) :=
  after_of_writes_sub ch4 V ch4_writes h

/-- Window `ch5` of @main's operations. -/
abbrev ch5 : List (HloOp τ sig (Elt F)) :=
  [ nullary main_c_29 (constantI S_ 32 0#32),
    nullary main_c_30 (constantI S_ 32 0#32),
    nullary main_c_31 (constantI S_ 32 0#32),
    nullary main_c_32 (constantI S_ 32 5#32),
    unaryIndexed main_v0 ![main_c_29, main_c_30, main_c_31, main_c_32] ⟨S_, .i32⟩ main_v26 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v26 main_v27 (mulf : (⟨S8x256x96x320, .f32⟩ : BufTy).Contents (Elt F) → (⟨S8x256x96x320, .f32⟩ : BufTy).Contents (Elt F) → (⟨S8x256x96x320, .f32⟩ : BufTy).Contents (Elt F)),
    nullary main_cst_33 (constant S_ .f32 0x00000000#32),
    binary main_v27 main_cst_33 main_v28 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_34 (constant S_ .f32 0x43800000#32),
    unary main_cst_34 main_v29 (broadcastInDim S8x96x320 ![] bcast_S_S8x96x320 : (⟨S_, .f32⟩ : BufTy).Contents (Elt F) → (⟨S8x96x320, .f32⟩ : BufTy).Contents (Elt F)),
    binary main_v28 main_v29 main_v30 (Host.divf : (⟨S8x96x320, .f32⟩ : BufTy).Contents (Elt F) → (⟨S8x96x320, .f32⟩ : BufTy).Contents (Elt F) → (⟨S8x96x320, .f32⟩ : BufTy).Contents (Elt F)) ]
/-- The buffers window `ch5` writes. -/
abbrev ch5_W : List (Ref sig .tc) := [main_c_29, main_c_30, main_c_31, main_c_32, main_v26, main_v27, main_cst_33, main_v28, main_cst_34, main_v29, main_v30]
theorem ch5_writes : (ch5 : List (HloOp τ sig (Elt F))).Forall fun op => op.writes ⊆ (ch5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer window `ch5` does not write keeps its contents through it. -/
theorem ch5_keep (V : Valuation τ sig (Elt F)) (r : Ref sig .tc) (h : r ∉ ch5_W) :
    after ch5 V (Proc.devRef .tc r) = V (Proc.devRef .tc r) :=
  after_of_writes_sub ch5 V ch5_writes h

/-- Window `ch6` of @main's operations. -/
abbrev ch6 : List (HloOp τ sig (Elt F)) :=
  [ nullary main_c_35 (constantI S_ 32 0#32),
    nullary main_c_36 (constantI S_ 32 0#32),
    nullary main_c_37 (constantI S_ 32 0#32),
    nullary main_c_38 (constantI S_ 32 6#32),
    unaryIndexed main_v0 ![main_c_35, main_c_36, main_c_37, main_c_38] ⟨S_, .i32⟩ main_v31 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v31 main_v32 (mulf : (⟨S8x256x96x320, .f32⟩ : BufTy).Contents (Elt F) → (⟨S8x256x96x320, .f32⟩ : BufTy).Contents (Elt F) → (⟨S8x256x96x320, .f32⟩ : BufTy).Contents (Elt F)),
    nullary main_cst_39 (constant S_ .f32 0x00000000#32),
    binary main_v32 main_cst_39 main_v33 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_40 (constant S_ .f32 0x43800000#32),
    unary main_cst_40 main_v34 (broadcastInDim S8x96x320 ![] bcast_S_S8x96x320 : (⟨S_, .f32⟩ : BufTy).Contents (Elt F) → (⟨S8x96x320, .f32⟩ : BufTy).Contents (Elt F)),
    binary main_v33 main_v34 main_v35 (Host.divf : (⟨S8x96x320, .f32⟩ : BufTy).Contents (Elt F) → (⟨S8x96x320, .f32⟩ : BufTy).Contents (Elt F) → (⟨S8x96x320, .f32⟩ : BufTy).Contents (Elt F)) ]
/-- The buffers window `ch6` writes. -/
abbrev ch6_W : List (Ref sig .tc) := [main_c_35, main_c_36, main_c_37, main_c_38, main_v31, main_v32, main_cst_39, main_v33, main_cst_40, main_v34, main_v35]
theorem ch6_writes : (ch6 : List (HloOp τ sig (Elt F))).Forall fun op => op.writes ⊆ (ch6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer window `ch6` does not write keeps its contents through it. -/
theorem ch6_keep (V : Valuation τ sig (Elt F)) (r : Ref sig .tc) (h : r ∉ ch6_W) :
    after ch6 V (Proc.devRef .tc r) = V (Proc.devRef .tc r) :=
  after_of_writes_sub ch6 V ch6_writes h

/-- Window `ch7` of @main's operations. -/
abbrev ch7 : List (HloOp τ sig (Elt F)) :=
  [ nullary main_c_41 (constantI S_ 32 0#32),
    nullary main_c_42 (constantI S_ 32 0#32),
    nullary main_c_43 (constantI S_ 32 0#32),
    nullary main_c_44 (constantI S_ 32 7#32),
    unaryIndexed main_v0 ![main_c_41, main_c_42, main_c_43, main_c_44] ⟨S_, .i32⟩ main_v36 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v36 main_v37 (mulf : (⟨S8x256x96x320, .f32⟩ : BufTy).Contents (Elt F) → (⟨S8x256x96x320, .f32⟩ : BufTy).Contents (Elt F) → (⟨S8x256x96x320, .f32⟩ : BufTy).Contents (Elt F)),
    nullary main_cst_45 (constant S_ .f32 0x00000000#32),
    binary main_v37 main_cst_45 main_v38 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_46 (constant S_ .f32 0x43800000#32),
    unary main_cst_46 main_v39 (broadcastInDim S8x96x320 ![] bcast_S_S8x96x320 : (⟨S_, .f32⟩ : BufTy).Contents (Elt F) → (⟨S8x96x320, .f32⟩ : BufTy).Contents (Elt F)),
    binary main_v38 main_v39 main_v40 (Host.divf : (⟨S8x96x320, .f32⟩ : BufTy).Contents (Elt F) → (⟨S8x96x320, .f32⟩ : BufTy).Contents (Elt F) → (⟨S8x96x320, .f32⟩ : BufTy).Contents (Elt F)) ]
/-- The buffers window `ch7` writes. -/
abbrev ch7_W : List (Ref sig .tc) := [main_c_41, main_c_42, main_c_43, main_c_44, main_v36, main_v37, main_cst_45, main_v38, main_cst_46, main_v39, main_v40]
theorem ch7_writes : (ch7 : List (HloOp τ sig (Elt F))).Forall fun op => op.writes ⊆ (ch7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer window `ch7` does not write keeps its contents through it. -/
theorem ch7_keep (V : Valuation τ sig (Elt F)) (r : Ref sig .tc) (h : r ∉ ch7_W) :
    after ch7 V (Proc.devRef .tc r) = V (Proc.devRef .tc r) :=
  after_of_writes_sub ch7 V ch7_writes h

/-- Window `ch8` of @main's operations. -/
abbrev ch8 : List (HloOp τ sig (Elt F)) :=
  [ nullary main_c_47 (constantI S_ 32 0#32),
    nullary main_c_48 (constantI S_ 32 0#32),
    nullary main_c_49 (constantI S_ 32 0#32),
    nullary main_c_50 (constantI S_ 32 8#32),
    unaryIndexed main_v0 ![main_c_47, main_c_48, main_c_49, main_c_50] ⟨S_, .i32⟩ main_v41 ((fun x i => Host.dynamicSlice S8x256x96x320 x (fun k => (i k (Shape.Idx.first h_S_)).toInt) sliceFits_S8x256x96x328_S8x256x96x320) : (⟨S8x256x96x328, .f32⟩ : BufTy).Contents (Elt F) → (Fin 4 → (⟨S_, .i32⟩ : BufTy).Contents (Elt F)) → (⟨S8x256x96x320, .f32⟩ : BufTy).Contents (Elt F)),
    binary main_arg0 main_v41 main_v42 (mulf : (⟨S8x256x96x320, .f32⟩ : BufTy).Contents (Elt F) → (⟨S8x256x96x320, .f32⟩ : BufTy).Contents (Elt F) → (⟨S8x256x96x320, .f32⟩ : BufTy).Contents (Elt F)),
    nullary main_cst_51 (constant S_ .f32 0x00000000#32),
    binary main_v42 main_cst_51 main_v43 ((fun x v => Host.reduceAdd x v reducesTo_S8x256x96x320_S8x96x320_d1 h_S_) : (⟨S8x256x96x320, .f32⟩ : BufTy).Contents (Elt F) → (⟨S_, .f32⟩ : BufTy).Contents (Elt F) → (⟨S8x96x320, .f32⟩ : BufTy).Contents (Elt F)),
    nullary main_cst_52 (constant S_ .f32 0x43800000#32),
    unary main_cst_52 main_v44 (broadcastInDim S8x96x320 ![] bcast_S_S8x96x320 : (⟨S_, .f32⟩ : BufTy).Contents (Elt F) → (⟨S8x96x320, .f32⟩ : BufTy).Contents (Elt F)),
    binary main_v43 main_v44 main_v45 (Host.divf : (⟨S8x96x320, .f32⟩ : BufTy).Contents (Elt F) → (⟨S8x96x320, .f32⟩ : BufTy).Contents (Elt F) → (⟨S8x96x320, .f32⟩ : BufTy).Contents (Elt F)) ]
/-- The buffers window `ch8` writes. -/
abbrev ch8_W : List (Ref sig .tc) := [main_c_47, main_c_48, main_c_49, main_c_50, main_v41, main_v42, main_cst_51, main_v43, main_cst_52, main_v44, main_v45]
theorem ch8_writes : (ch8 : List (HloOp τ sig (Elt F))).Forall fun op => op.writes ⊆ (ch8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer window `ch8` does not write keeps its contents through it. -/
theorem ch8_keep (V : Valuation τ sig (Elt F)) (r : Ref sig .tc) (h : r ∉ ch8_W) :
    after ch8 V (Proc.devRef .tc r) = V (Proc.devRef .tc r) :=
  after_of_writes_sub ch8 V ch8_writes h

/-- Window `tail` of @main's operations. -/
abbrev tail : List (HloOp τ sig (Elt F)) :=
  [ unary main_v5 main_v46 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v10 main_v47 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v15 main_v48 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v20 main_v49 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v25 main_v50 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v30 main_v51 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v35 main_v52 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v40 main_v53 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v45 main_v54 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    nary ![main_v46, main_v47, main_v48, main_v49, main_v50, main_v51, main_v52, main_v53, main_v54] main_v55 (fun u => concatenate S8x9x96x320 1 [⟨S8x1x96x320, u 0⟩, ⟨S8x1x96x320, u 1⟩, ⟨S8x1x96x320, u 2⟩, ⟨S8x1x96x320, u 3⟩, ⟨S8x1x96x320, u 4⟩, ⟨S8x1x96x320, u 5⟩, ⟨S8x1x96x320, u 6⟩, ⟨S8x1x96x320, u 7⟩, ⟨S8x1x96x320, u 8⟩] concatenates_S8x1x96x320_S8x1x96x320_S8x1x96x320_S8x1x96x320_S8x1x96x320_S8x1x96x320_S8x1x96x320_S8x1x96x320_S8x1x96x320_S8x9x96x320_d1) ]
/-- The buffers window `tail` writes. -/
abbrev tail_W : List (Ref sig .tc) := [main_v46, main_v47, main_v48, main_v49, main_v50, main_v51, main_v52, main_v53, main_v54, main_v55]
theorem tail_writes : (tail : List (HloOp τ sig (Elt F))).Forall fun op => op.writes ⊆ (tail_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer window `tail` does not write keeps its contents through it. -/
theorem tail_keep (V : Valuation τ sig (Elt F)) (r : Ref sig .tc) (h : r ∉ tail_W) :
    after tail V (Proc.devRef .tc r) = V (Proc.devRef .tc r) :=
  after_of_writes_sub tail V tail_writes h

/-- The windows laid end to end are the program. -/
theorem ops_split : (ops : List (HloOp τ sig (Elt F))) = pre ++ (ch0 ++ (ch1 ++ (ch2 ++ (ch3 ++ (ch4 ++ (ch5 ++ (ch6 ++ (ch7 ++ (ch8 ++ tail))))))))) := rfl

/-- The zero-padded second feature map: 4 columns of the padding value (the integer 0 converted) on each side. -/
def padOf (x1 : (⟨S8x256x96x320, .f32⟩ : BufTy).Contents (Elt F)) : (⟨S8x256x96x328, .f32⟩ : BufTy).Contents (Elt F) :=
  pad S8x256x96x328 ![0, 0, 0, 4] ![0, 0, 0, 4] ![0, 0, 0, 0] x1 (sitofp .f32 (constantI S_ 32 0#32))
    pads_S8x256x96x320_S8x256x96x328_000_000_000_440 h_S_

/-- One displacement's channel mean: the window of the padded map at the given start indices, times the first map, summed over
    the channels from the word 0, divided by the word 256. -/
def meanOf (start : Fin 4 → Int) (x0 : (⟨S8x256x96x320, .f32⟩ : BufTy).Contents (Elt F))
    (p : (⟨S8x256x96x328, .f32⟩ : BufTy).Contents (Elt F)) : (⟨S8x96x320, .f32⟩ : BufTy).Contents (Elt F) :=
  Host.divf
    (Host.reduceAdd (mulf x0 (Host.dynamicSlice S8x256x96x320 p start sliceFits_S8x256x96x328_S8x256x96x320))
      (constant S_ .f32 0x00000000#32) reducesTo_S8x256x96x320_S8x96x320_d1 h_S_)
    (broadcastInDim S8x96x320 ![] bcast_S_S8x96x320 (constant S_ .f32 0x43800000#32))

/-- The nine means, each given a unit axis, joined along it. -/
def joinOf (y : Fin 9 → (⟨S8x96x320, .f32⟩ : BufTy).Contents (Elt F)) : (⟨S8x9x96x320, .f32⟩ : BufTy).Contents (Elt F) :=
  concatenate S8x9x96x320 1 [⟨S8x1x96x320, broadcastInDim S8x1x96x320 ![0, 2, 3] bcast_S8x96x320_S8x1x96x320_0_2_3 (y 0)⟩, ⟨S8x1x96x320, broadcastInDim S8x1x96x320 ![0, 2, 3] bcast_S8x96x320_S8x1x96x320_0_2_3 (y 1)⟩, ⟨S8x1x96x320, broadcastInDim S8x1x96x320 ![0, 2, 3] bcast_S8x96x320_S8x1x96x320_0_2_3 (y 2)⟩, ⟨S8x1x96x320, broadcastInDim S8x1x96x320 ![0, 2, 3] bcast_S8x96x320_S8x1x96x320_0_2_3 (y 3)⟩, ⟨S8x1x96x320, broadcastInDim S8x1x96x320 ![0, 2, 3] bcast_S8x96x320_S8x1x96x320_0_2_3 (y 4)⟩, ⟨S8x1x96x320, broadcastInDim S8x1x96x320 ![0, 2, 3] bcast_S8x96x320_S8x1x96x320_0_2_3 (y 5)⟩, ⟨S8x1x96x320, broadcastInDim S8x1x96x320 ![0, 2, 3] bcast_S8x96x320_S8x1x96x320_0_2_3 (y 6)⟩, ⟨S8x1x96x320, broadcastInDim S8x1x96x320 ![0, 2, 3] bcast_S8x96x320_S8x1x96x320_0_2_3 (y 7)⟩, ⟨S8x1x96x320, broadcastInDim S8x1x96x320 ![0, 2, 3] bcast_S8x96x320_S8x1x96x320_0_2_3 (y 8)⟩]
    concatenates_S8x1x96x320_S8x1x96x320_S8x1x96x320_S8x1x96x320_S8x1x96x320_S8x1x96x320_S8x1x96x320_S8x1x96x320_S8x1x96x320_S8x9x96x320_d1

/-- The first window leaves the padded second map in `main_v0`. -/
theorem pre_val (V : Valuation τ sig (Elt F)) :
    after pre V (Proc.devRef .tc main_v0) = padOf (V (Proc.devRef .tc main_arg1)) := by
  unfold padOf
  after_results_simp
  rfl

/-- Window `ch0` leaves displacement 0's mean, of the first map and the padded second map as it finds them. -/
theorem ch0_val (V : Valuation τ sig (Elt F)) :
    after ch0 V (Proc.devRef .tc main_v5) = meanOf (fun a => (((![0, 0, 0, 0] : Fin 4 → ℕ) a : ℕ) : Int)) (V (Proc.devRef .tc main_arg0)) (V (Proc.devRef .tc main_v0)) := by
  unfold meanOf
  after_results_simp
  congr 4
  funext k
  fin_cases k <;> (try simp only [Matrix.cons_val_zero', Matrix.cons_val_succ', Fin.zero_eta, Fin.mk_one, Matrix.cons_val_zero, Matrix.cons_val_one, Matrix.head_cons]) <;> (try after_results_simp) <;> rfl

/-- Window `ch1` leaves displacement 1's mean, of the first map and the padded second map as it finds them. -/
theorem ch1_val (V : Valuation τ sig (Elt F)) :
    after ch1 V (Proc.devRef .tc main_v10) = meanOf (fun a => (((![0, 0, 0, 1] : Fin 4 → ℕ) a : ℕ) : Int)) (V (Proc.devRef .tc main_arg0)) (V (Proc.devRef .tc main_v0)) := by
  unfold meanOf
  after_results_simp
  congr 4
  funext k
  fin_cases k <;> (try simp only [Matrix.cons_val_zero', Matrix.cons_val_succ', Fin.zero_eta, Fin.mk_one, Matrix.cons_val_zero, Matrix.cons_val_one, Matrix.head_cons]) <;> (try after_results_simp) <;> rfl

/-- Window `ch2` leaves displacement 2's mean, of the first map and the padded second map as it finds them. -/
theorem ch2_val (V : Valuation τ sig (Elt F)) :
    after ch2 V (Proc.devRef .tc main_v15) = meanOf (fun a => (((![0, 0, 0, 2] : Fin 4 → ℕ) a : ℕ) : Int)) (V (Proc.devRef .tc main_arg0)) (V (Proc.devRef .tc main_v0)) := by
  unfold meanOf
  after_results_simp
  congr 4
  funext k
  fin_cases k <;> (try simp only [Matrix.cons_val_zero', Matrix.cons_val_succ', Fin.zero_eta, Fin.mk_one, Matrix.cons_val_zero, Matrix.cons_val_one, Matrix.head_cons]) <;> (try after_results_simp) <;> rfl

/-- Window `ch3` leaves displacement 3's mean, of the first map and the padded second map as it finds them. -/
theorem ch3_val (V : Valuation τ sig (Elt F)) :
    after ch3 V (Proc.devRef .tc main_v20) = meanOf (fun a => (((![0, 0, 0, 3] : Fin 4 → ℕ) a : ℕ) : Int)) (V (Proc.devRef .tc main_arg0)) (V (Proc.devRef .tc main_v0)) := by
  unfold meanOf
  after_results_simp
  congr 4
  funext k
  fin_cases k <;> (try simp only [Matrix.cons_val_zero', Matrix.cons_val_succ', Fin.zero_eta, Fin.mk_one, Matrix.cons_val_zero, Matrix.cons_val_one, Matrix.head_cons]) <;> (try after_results_simp) <;> rfl

/-- Window `ch4` leaves displacement 4's mean, of the first map and the padded second map as it finds them. -/
theorem ch4_val (V : Valuation τ sig (Elt F)) :
    after ch4 V (Proc.devRef .tc main_v25) = meanOf (fun a => (((![0, 0, 0, 4] : Fin 4 → ℕ) a : ℕ) : Int)) (V (Proc.devRef .tc main_arg0)) (V (Proc.devRef .tc main_v0)) := by
  unfold meanOf
  after_results_simp
  congr 4
  funext k
  fin_cases k <;> (try simp only [Matrix.cons_val_zero', Matrix.cons_val_succ', Fin.zero_eta, Fin.mk_one, Matrix.cons_val_zero, Matrix.cons_val_one, Matrix.head_cons]) <;> (try after_results_simp) <;> rfl

/-- Window `ch5` leaves displacement 5's mean, of the first map and the padded second map as it finds them. -/
theorem ch5_val (V : Valuation τ sig (Elt F)) :
    after ch5 V (Proc.devRef .tc main_v30) = meanOf (fun a => (((![0, 0, 0, 5] : Fin 4 → ℕ) a : ℕ) : Int)) (V (Proc.devRef .tc main_arg0)) (V (Proc.devRef .tc main_v0)) := by
  unfold meanOf
  after_results_simp
  congr 4
  funext k
  fin_cases k <;> (try simp only [Matrix.cons_val_zero', Matrix.cons_val_succ', Fin.zero_eta, Fin.mk_one, Matrix.cons_val_zero, Matrix.cons_val_one, Matrix.head_cons]) <;> (try after_results_simp) <;> rfl

/-- Window `ch6` leaves displacement 6's mean, of the first map and the padded second map as it finds them. -/
theorem ch6_val (V : Valuation τ sig (Elt F)) :
    after ch6 V (Proc.devRef .tc main_v35) = meanOf (fun a => (((![0, 0, 0, 6] : Fin 4 → ℕ) a : ℕ) : Int)) (V (Proc.devRef .tc main_arg0)) (V (Proc.devRef .tc main_v0)) := by
  unfold meanOf
  after_results_simp
  congr 4
  funext k
  fin_cases k <;> (try simp only [Matrix.cons_val_zero', Matrix.cons_val_succ', Fin.zero_eta, Fin.mk_one, Matrix.cons_val_zero, Matrix.cons_val_one, Matrix.head_cons]) <;> (try after_results_simp) <;> rfl

/-- Window `ch7` leaves displacement 7's mean, of the first map and the padded second map as it finds them. -/
theorem ch7_val (V : Valuation τ sig (Elt F)) :
    after ch7 V (Proc.devRef .tc main_v40) = meanOf (fun a => (((![0, 0, 0, 7] : Fin 4 → ℕ) a : ℕ) : Int)) (V (Proc.devRef .tc main_arg0)) (V (Proc.devRef .tc main_v0)) := by
  unfold meanOf
  after_results_simp
  congr 4
  funext k
  fin_cases k <;> (try simp only [Matrix.cons_val_zero', Matrix.cons_val_succ', Fin.zero_eta, Fin.mk_one, Matrix.cons_val_zero, Matrix.cons_val_one, Matrix.head_cons]) <;> (try after_results_simp) <;> rfl

/-- Window `ch8` leaves displacement 8's mean, of the first map and the padded second map as it finds them. -/
theorem ch8_val (V : Valuation τ sig (Elt F)) :
    after ch8 V (Proc.devRef .tc main_v45) = meanOf (fun a => (((![0, 0, 0, 8] : Fin 4 → ℕ) a : ℕ) : Int)) (V (Proc.devRef .tc main_arg0)) (V (Proc.devRef .tc main_v0)) := by
  unfold meanOf
  after_results_simp
  congr 4
  funext k
  fin_cases k <;> (try simp only [Matrix.cons_val_zero', Matrix.cons_val_succ', Fin.zero_eta, Fin.mk_one, Matrix.cons_val_zero, Matrix.cons_val_one, Matrix.head_cons]) <;> (try after_results_simp) <;> rfl

/-- The last window joins the nine means. -/
theorem tail_val (V : Valuation τ sig (Elt F)) :
    after tail V (Proc.devRef .tc main_v55) = joinOf ![V (Proc.devRef .tc main_v5), V (Proc.devRef .tc main_v10), V (Proc.devRef .tc main_v15), V (Proc.devRef .tc main_v20), V (Proc.devRef .tc main_v25), V (Proc.devRef .tc main_v30), V (Proc.devRef .tc main_v35), V (Proc.devRef .tc main_v40), V (Proc.devRef .tc main_v45)] := by
  unfold joinOf
  after_results_simp
  try simp only [Matrix.cons_val_zero', Matrix.cons_val_succ', Fin.zero_eta, Fin.mk_one, Matrix.cons_val_zero, Matrix.cons_val_one, Matrix.head_cons]
  try after_results_simp
  rfl

/-! ## The windows one after the other -/

/-- The buffers after the first window. -/
def W0 (V : Valuation τ sig (Elt F)) : Valuation τ sig (Elt F) := after pre V
/-- The buffers after displacement 0's window. -/
def W1 (V : Valuation τ sig (Elt F)) : Valuation τ sig (Elt F) := after ch0 (W0 V)
/-- The buffers after displacement 1's window. -/
def W2 (V : Valuation τ sig (Elt F)) : Valuation τ sig (Elt F) := after ch1 (W1 V)
/-- The buffers after displacement 2's window. -/
def W3 (V : Valuation τ sig (Elt F)) : Valuation τ sig (Elt F) := after ch2 (W2 V)
/-- The buffers after displacement 3's window. -/
def W4 (V : Valuation τ sig (Elt F)) : Valuation τ sig (Elt F) := after ch3 (W3 V)
/-- The buffers after displacement 4's window. -/
def W5 (V : Valuation τ sig (Elt F)) : Valuation τ sig (Elt F) := after ch4 (W4 V)
/-- The buffers after displacement 5's window. -/
def W6 (V : Valuation τ sig (Elt F)) : Valuation τ sig (Elt F) := after ch5 (W5 V)
/-- The buffers after displacement 6's window. -/
def W7 (V : Valuation τ sig (Elt F)) : Valuation τ sig (Elt F) := after ch6 (W6 V)
/-- The buffers after displacement 7's window. -/
def W8 (V : Valuation τ sig (Elt F)) : Valuation τ sig (Elt F) := after ch7 (W7 V)
/-- The buffers after displacement 8's window. -/
def W9 (V : Valuation τ sig (Elt F)) : Valuation τ sig (Elt F) := after ch8 (W8 V)

/-- The program is the windows run one after the other. -/
theorem after_ops_eq (V : Valuation τ sig (Elt F)) : after ops V = after tail (W9 V) := by
  rw [ops_split]
  simp only [after_append]
  rfl

theorem W0_main_arg0 (V : Valuation τ sig (Elt F)) : W0 V (Proc.devRef .tc main_arg0) = V (Proc.devRef .tc main_arg0) := pre_keep V main_arg0 (by decide)
theorem W1_main_arg0 (V : Valuation τ sig (Elt F)) : W1 V (Proc.devRef .tc main_arg0) = V (Proc.devRef .tc main_arg0) :=
  (ch0_keep (W0 V) main_arg0 (by decide)).trans (W0_main_arg0 V)
theorem W2_main_arg0 (V : Valuation τ sig (Elt F)) : W2 V (Proc.devRef .tc main_arg0) = V (Proc.devRef .tc main_arg0) :=
  (ch1_keep (W1 V) main_arg0 (by decide)).trans (W1_main_arg0 V)
theorem W3_main_arg0 (V : Valuation τ sig (Elt F)) : W3 V (Proc.devRef .tc main_arg0) = V (Proc.devRef .tc main_arg0) :=
  (ch2_keep (W2 V) main_arg0 (by decide)).trans (W2_main_arg0 V)
theorem W4_main_arg0 (V : Valuation τ sig (Elt F)) : W4 V (Proc.devRef .tc main_arg0) = V (Proc.devRef .tc main_arg0) :=
  (ch3_keep (W3 V) main_arg0 (by decide)).trans (W3_main_arg0 V)
theorem W5_main_arg0 (V : Valuation τ sig (Elt F)) : W5 V (Proc.devRef .tc main_arg0) = V (Proc.devRef .tc main_arg0) :=
  (ch4_keep (W4 V) main_arg0 (by decide)).trans (W4_main_arg0 V)
theorem W6_main_arg0 (V : Valuation τ sig (Elt F)) : W6 V (Proc.devRef .tc main_arg0) = V (Proc.devRef .tc main_arg0) :=
  (ch5_keep (W5 V) main_arg0 (by decide)).trans (W5_main_arg0 V)
theorem W7_main_arg0 (V : Valuation τ sig (Elt F)) : W7 V (Proc.devRef .tc main_arg0) = V (Proc.devRef .tc main_arg0) :=
  (ch6_keep (W6 V) main_arg0 (by decide)).trans (W6_main_arg0 V)
theorem W8_main_arg0 (V : Valuation τ sig (Elt F)) : W8 V (Proc.devRef .tc main_arg0) = V (Proc.devRef .tc main_arg0) :=
  (ch7_keep (W7 V) main_arg0 (by decide)).trans (W7_main_arg0 V)
theorem W9_main_arg0 (V : Valuation τ sig (Elt F)) : W9 V (Proc.devRef .tc main_arg0) = V (Proc.devRef .tc main_arg0) :=
  (ch8_keep (W8 V) main_arg0 (by decide)).trans (W8_main_arg0 V)

theorem W0_main_arg1 (V : Valuation τ sig (Elt F)) : W0 V (Proc.devRef .tc main_arg1) = V (Proc.devRef .tc main_arg1) := pre_keep V main_arg1 (by decide)
theorem W1_main_arg1 (V : Valuation τ sig (Elt F)) : W1 V (Proc.devRef .tc main_arg1) = V (Proc.devRef .tc main_arg1) :=
  (ch0_keep (W0 V) main_arg1 (by decide)).trans (W0_main_arg1 V)
theorem W2_main_arg1 (V : Valuation τ sig (Elt F)) : W2 V (Proc.devRef .tc main_arg1) = V (Proc.devRef .tc main_arg1) :=
  (ch1_keep (W1 V) main_arg1 (by decide)).trans (W1_main_arg1 V)
theorem W3_main_arg1 (V : Valuation τ sig (Elt F)) : W3 V (Proc.devRef .tc main_arg1) = V (Proc.devRef .tc main_arg1) :=
  (ch2_keep (W2 V) main_arg1 (by decide)).trans (W2_main_arg1 V)
theorem W4_main_arg1 (V : Valuation τ sig (Elt F)) : W4 V (Proc.devRef .tc main_arg1) = V (Proc.devRef .tc main_arg1) :=
  (ch3_keep (W3 V) main_arg1 (by decide)).trans (W3_main_arg1 V)
theorem W5_main_arg1 (V : Valuation τ sig (Elt F)) : W5 V (Proc.devRef .tc main_arg1) = V (Proc.devRef .tc main_arg1) :=
  (ch4_keep (W4 V) main_arg1 (by decide)).trans (W4_main_arg1 V)
theorem W6_main_arg1 (V : Valuation τ sig (Elt F)) : W6 V (Proc.devRef .tc main_arg1) = V (Proc.devRef .tc main_arg1) :=
  (ch5_keep (W5 V) main_arg1 (by decide)).trans (W5_main_arg1 V)
theorem W7_main_arg1 (V : Valuation τ sig (Elt F)) : W7 V (Proc.devRef .tc main_arg1) = V (Proc.devRef .tc main_arg1) :=
  (ch6_keep (W6 V) main_arg1 (by decide)).trans (W6_main_arg1 V)
theorem W8_main_arg1 (V : Valuation τ sig (Elt F)) : W8 V (Proc.devRef .tc main_arg1) = V (Proc.devRef .tc main_arg1) :=
  (ch7_keep (W7 V) main_arg1 (by decide)).trans (W7_main_arg1 V)
theorem W9_main_arg1 (V : Valuation τ sig (Elt F)) : W9 V (Proc.devRef .tc main_arg1) = V (Proc.devRef .tc main_arg1) :=
  (ch8_keep (W8 V) main_arg1 (by decide)).trans (W8_main_arg1 V)

theorem W0_main_v0 (V : Valuation τ sig (Elt F)) : W0 V (Proc.devRef .tc main_v0) = padOf (V (Proc.devRef .tc main_arg1)) := pre_val V
theorem W1_main_v0 (V : Valuation τ sig (Elt F)) : W1 V (Proc.devRef .tc main_v0) = padOf (V (Proc.devRef .tc main_arg1)) :=
  (ch0_keep (W0 V) main_v0 (by decide)).trans (W0_main_v0 V)
theorem W2_main_v0 (V : Valuation τ sig (Elt F)) : W2 V (Proc.devRef .tc main_v0) = padOf (V (Proc.devRef .tc main_arg1)) :=
  (ch1_keep (W1 V) main_v0 (by decide)).trans (W1_main_v0 V)
theorem W3_main_v0 (V : Valuation τ sig (Elt F)) : W3 V (Proc.devRef .tc main_v0) = padOf (V (Proc.devRef .tc main_arg1)) :=
  (ch2_keep (W2 V) main_v0 (by decide)).trans (W2_main_v0 V)
theorem W4_main_v0 (V : Valuation τ sig (Elt F)) : W4 V (Proc.devRef .tc main_v0) = padOf (V (Proc.devRef .tc main_arg1)) :=
  (ch3_keep (W3 V) main_v0 (by decide)).trans (W3_main_v0 V)
theorem W5_main_v0 (V : Valuation τ sig (Elt F)) : W5 V (Proc.devRef .tc main_v0) = padOf (V (Proc.devRef .tc main_arg1)) :=
  (ch4_keep (W4 V) main_v0 (by decide)).trans (W4_main_v0 V)
theorem W6_main_v0 (V : Valuation τ sig (Elt F)) : W6 V (Proc.devRef .tc main_v0) = padOf (V (Proc.devRef .tc main_arg1)) :=
  (ch5_keep (W5 V) main_v0 (by decide)).trans (W5_main_v0 V)
theorem W7_main_v0 (V : Valuation τ sig (Elt F)) : W7 V (Proc.devRef .tc main_v0) = padOf (V (Proc.devRef .tc main_arg1)) :=
  (ch6_keep (W6 V) main_v0 (by decide)).trans (W6_main_v0 V)
theorem W8_main_v0 (V : Valuation τ sig (Elt F)) : W8 V (Proc.devRef .tc main_v0) = padOf (V (Proc.devRef .tc main_arg1)) :=
  (ch7_keep (W7 V) main_v0 (by decide)).trans (W7_main_v0 V)
theorem W9_main_v0 (V : Valuation τ sig (Elt F)) : W9 V (Proc.devRef .tc main_v0) = padOf (V (Proc.devRef .tc main_arg1)) :=
  (ch8_keep (W8 V) main_v0 (by decide)).trans (W8_main_v0 V)

theorem W1_main_v5 (V : Valuation τ sig (Elt F)) : W1 V (Proc.devRef .tc main_v5) = meanOf (fun a => (((![0, 0, 0, 0] : Fin 4 → ℕ) a : ℕ) : Int)) (V (Proc.devRef .tc main_arg0)) (padOf (V (Proc.devRef .tc main_arg1))) :=
  (ch0_val (W0 V)).trans (by rw [W0_main_arg0, W0_main_v0])
theorem W2_main_v5 (V : Valuation τ sig (Elt F)) : W2 V (Proc.devRef .tc main_v5) = meanOf (fun a => (((![0, 0, 0, 0] : Fin 4 → ℕ) a : ℕ) : Int)) (V (Proc.devRef .tc main_arg0)) (padOf (V (Proc.devRef .tc main_arg1))) :=
  (ch1_keep (W1 V) main_v5 (by decide)).trans (W1_main_v5 V)
theorem W3_main_v5 (V : Valuation τ sig (Elt F)) : W3 V (Proc.devRef .tc main_v5) = meanOf (fun a => (((![0, 0, 0, 0] : Fin 4 → ℕ) a : ℕ) : Int)) (V (Proc.devRef .tc main_arg0)) (padOf (V (Proc.devRef .tc main_arg1))) :=
  (ch2_keep (W2 V) main_v5 (by decide)).trans (W2_main_v5 V)
theorem W4_main_v5 (V : Valuation τ sig (Elt F)) : W4 V (Proc.devRef .tc main_v5) = meanOf (fun a => (((![0, 0, 0, 0] : Fin 4 → ℕ) a : ℕ) : Int)) (V (Proc.devRef .tc main_arg0)) (padOf (V (Proc.devRef .tc main_arg1))) :=
  (ch3_keep (W3 V) main_v5 (by decide)).trans (W3_main_v5 V)
theorem W5_main_v5 (V : Valuation τ sig (Elt F)) : W5 V (Proc.devRef .tc main_v5) = meanOf (fun a => (((![0, 0, 0, 0] : Fin 4 → ℕ) a : ℕ) : Int)) (V (Proc.devRef .tc main_arg0)) (padOf (V (Proc.devRef .tc main_arg1))) :=
  (ch4_keep (W4 V) main_v5 (by decide)).trans (W4_main_v5 V)
theorem W6_main_v5 (V : Valuation τ sig (Elt F)) : W6 V (Proc.devRef .tc main_v5) = meanOf (fun a => (((![0, 0, 0, 0] : Fin 4 → ℕ) a : ℕ) : Int)) (V (Proc.devRef .tc main_arg0)) (padOf (V (Proc.devRef .tc main_arg1))) :=
  (ch5_keep (W5 V) main_v5 (by decide)).trans (W5_main_v5 V)
theorem W7_main_v5 (V : Valuation τ sig (Elt F)) : W7 V (Proc.devRef .tc main_v5) = meanOf (fun a => (((![0, 0, 0, 0] : Fin 4 → ℕ) a : ℕ) : Int)) (V (Proc.devRef .tc main_arg0)) (padOf (V (Proc.devRef .tc main_arg1))) :=
  (ch6_keep (W6 V) main_v5 (by decide)).trans (W6_main_v5 V)
theorem W8_main_v5 (V : Valuation τ sig (Elt F)) : W8 V (Proc.devRef .tc main_v5) = meanOf (fun a => (((![0, 0, 0, 0] : Fin 4 → ℕ) a : ℕ) : Int)) (V (Proc.devRef .tc main_arg0)) (padOf (V (Proc.devRef .tc main_arg1))) :=
  (ch7_keep (W7 V) main_v5 (by decide)).trans (W7_main_v5 V)
theorem W9_main_v5 (V : Valuation τ sig (Elt F)) : W9 V (Proc.devRef .tc main_v5) = meanOf (fun a => (((![0, 0, 0, 0] : Fin 4 → ℕ) a : ℕ) : Int)) (V (Proc.devRef .tc main_arg0)) (padOf (V (Proc.devRef .tc main_arg1))) :=
  (ch8_keep (W8 V) main_v5 (by decide)).trans (W8_main_v5 V)

theorem W2_main_v10 (V : Valuation τ sig (Elt F)) : W2 V (Proc.devRef .tc main_v10) = meanOf (fun a => (((![0, 0, 0, 1] : Fin 4 → ℕ) a : ℕ) : Int)) (V (Proc.devRef .tc main_arg0)) (padOf (V (Proc.devRef .tc main_arg1))) :=
  (ch1_val (W1 V)).trans (by rw [W1_main_arg0, W1_main_v0])
theorem W3_main_v10 (V : Valuation τ sig (Elt F)) : W3 V (Proc.devRef .tc main_v10) = meanOf (fun a => (((![0, 0, 0, 1] : Fin 4 → ℕ) a : ℕ) : Int)) (V (Proc.devRef .tc main_arg0)) (padOf (V (Proc.devRef .tc main_arg1))) :=
  (ch2_keep (W2 V) main_v10 (by decide)).trans (W2_main_v10 V)
theorem W4_main_v10 (V : Valuation τ sig (Elt F)) : W4 V (Proc.devRef .tc main_v10) = meanOf (fun a => (((![0, 0, 0, 1] : Fin 4 → ℕ) a : ℕ) : Int)) (V (Proc.devRef .tc main_arg0)) (padOf (V (Proc.devRef .tc main_arg1))) :=
  (ch3_keep (W3 V) main_v10 (by decide)).trans (W3_main_v10 V)
theorem W5_main_v10 (V : Valuation τ sig (Elt F)) : W5 V (Proc.devRef .tc main_v10) = meanOf (fun a => (((![0, 0, 0, 1] : Fin 4 → ℕ) a : ℕ) : Int)) (V (Proc.devRef .tc main_arg0)) (padOf (V (Proc.devRef .tc main_arg1))) :=
  (ch4_keep (W4 V) main_v10 (by decide)).trans (W4_main_v10 V)
theorem W6_main_v10 (V : Valuation τ sig (Elt F)) : W6 V (Proc.devRef .tc main_v10) = meanOf (fun a => (((![0, 0, 0, 1] : Fin 4 → ℕ) a : ℕ) : Int)) (V (Proc.devRef .tc main_arg0)) (padOf (V (Proc.devRef .tc main_arg1))) :=
  (ch5_keep (W5 V) main_v10 (by decide)).trans (W5_main_v10 V)
theorem W7_main_v10 (V : Valuation τ sig (Elt F)) : W7 V (Proc.devRef .tc main_v10) = meanOf (fun a => (((![0, 0, 0, 1] : Fin 4 → ℕ) a : ℕ) : Int)) (V (Proc.devRef .tc main_arg0)) (padOf (V (Proc.devRef .tc main_arg1))) :=
  (ch6_keep (W6 V) main_v10 (by decide)).trans (W6_main_v10 V)
theorem W8_main_v10 (V : Valuation τ sig (Elt F)) : W8 V (Proc.devRef .tc main_v10) = meanOf (fun a => (((![0, 0, 0, 1] : Fin 4 → ℕ) a : ℕ) : Int)) (V (Proc.devRef .tc main_arg0)) (padOf (V (Proc.devRef .tc main_arg1))) :=
  (ch7_keep (W7 V) main_v10 (by decide)).trans (W7_main_v10 V)
theorem W9_main_v10 (V : Valuation τ sig (Elt F)) : W9 V (Proc.devRef .tc main_v10) = meanOf (fun a => (((![0, 0, 0, 1] : Fin 4 → ℕ) a : ℕ) : Int)) (V (Proc.devRef .tc main_arg0)) (padOf (V (Proc.devRef .tc main_arg1))) :=
  (ch8_keep (W8 V) main_v10 (by decide)).trans (W8_main_v10 V)

theorem W3_main_v15 (V : Valuation τ sig (Elt F)) : W3 V (Proc.devRef .tc main_v15) = meanOf (fun a => (((![0, 0, 0, 2] : Fin 4 → ℕ) a : ℕ) : Int)) (V (Proc.devRef .tc main_arg0)) (padOf (V (Proc.devRef .tc main_arg1))) :=
  (ch2_val (W2 V)).trans (by rw [W2_main_arg0, W2_main_v0])
theorem W4_main_v15 (V : Valuation τ sig (Elt F)) : W4 V (Proc.devRef .tc main_v15) = meanOf (fun a => (((![0, 0, 0, 2] : Fin 4 → ℕ) a : ℕ) : Int)) (V (Proc.devRef .tc main_arg0)) (padOf (V (Proc.devRef .tc main_arg1))) :=
  (ch3_keep (W3 V) main_v15 (by decide)).trans (W3_main_v15 V)
theorem W5_main_v15 (V : Valuation τ sig (Elt F)) : W5 V (Proc.devRef .tc main_v15) = meanOf (fun a => (((![0, 0, 0, 2] : Fin 4 → ℕ) a : ℕ) : Int)) (V (Proc.devRef .tc main_arg0)) (padOf (V (Proc.devRef .tc main_arg1))) :=
  (ch4_keep (W4 V) main_v15 (by decide)).trans (W4_main_v15 V)
theorem W6_main_v15 (V : Valuation τ sig (Elt F)) : W6 V (Proc.devRef .tc main_v15) = meanOf (fun a => (((![0, 0, 0, 2] : Fin 4 → ℕ) a : ℕ) : Int)) (V (Proc.devRef .tc main_arg0)) (padOf (V (Proc.devRef .tc main_arg1))) :=
  (ch5_keep (W5 V) main_v15 (by decide)).trans (W5_main_v15 V)
theorem W7_main_v15 (V : Valuation τ sig (Elt F)) : W7 V (Proc.devRef .tc main_v15) = meanOf (fun a => (((![0, 0, 0, 2] : Fin 4 → ℕ) a : ℕ) : Int)) (V (Proc.devRef .tc main_arg0)) (padOf (V (Proc.devRef .tc main_arg1))) :=
  (ch6_keep (W6 V) main_v15 (by decide)).trans (W6_main_v15 V)
theorem W8_main_v15 (V : Valuation τ sig (Elt F)) : W8 V (Proc.devRef .tc main_v15) = meanOf (fun a => (((![0, 0, 0, 2] : Fin 4 → ℕ) a : ℕ) : Int)) (V (Proc.devRef .tc main_arg0)) (padOf (V (Proc.devRef .tc main_arg1))) :=
  (ch7_keep (W7 V) main_v15 (by decide)).trans (W7_main_v15 V)
theorem W9_main_v15 (V : Valuation τ sig (Elt F)) : W9 V (Proc.devRef .tc main_v15) = meanOf (fun a => (((![0, 0, 0, 2] : Fin 4 → ℕ) a : ℕ) : Int)) (V (Proc.devRef .tc main_arg0)) (padOf (V (Proc.devRef .tc main_arg1))) :=
  (ch8_keep (W8 V) main_v15 (by decide)).trans (W8_main_v15 V)

theorem W4_main_v20 (V : Valuation τ sig (Elt F)) : W4 V (Proc.devRef .tc main_v20) = meanOf (fun a => (((![0, 0, 0, 3] : Fin 4 → ℕ) a : ℕ) : Int)) (V (Proc.devRef .tc main_arg0)) (padOf (V (Proc.devRef .tc main_arg1))) :=
  (ch3_val (W3 V)).trans (by rw [W3_main_arg0, W3_main_v0])
theorem W5_main_v20 (V : Valuation τ sig (Elt F)) : W5 V (Proc.devRef .tc main_v20) = meanOf (fun a => (((![0, 0, 0, 3] : Fin 4 → ℕ) a : ℕ) : Int)) (V (Proc.devRef .tc main_arg0)) (padOf (V (Proc.devRef .tc main_arg1))) :=
  (ch4_keep (W4 V) main_v20 (by decide)).trans (W4_main_v20 V)
theorem W6_main_v20 (V : Valuation τ sig (Elt F)) : W6 V (Proc.devRef .tc main_v20) = meanOf (fun a => (((![0, 0, 0, 3] : Fin 4 → ℕ) a : ℕ) : Int)) (V (Proc.devRef .tc main_arg0)) (padOf (V (Proc.devRef .tc main_arg1))) :=
  (ch5_keep (W5 V) main_v20 (by decide)).trans (W5_main_v20 V)
theorem W7_main_v20 (V : Valuation τ sig (Elt F)) : W7 V (Proc.devRef .tc main_v20) = meanOf (fun a => (((![0, 0, 0, 3] : Fin 4 → ℕ) a : ℕ) : Int)) (V (Proc.devRef .tc main_arg0)) (padOf (V (Proc.devRef .tc main_arg1))) :=
  (ch6_keep (W6 V) main_v20 (by decide)).trans (W6_main_v20 V)
theorem W8_main_v20 (V : Valuation τ sig (Elt F)) : W8 V (Proc.devRef .tc main_v20) = meanOf (fun a => (((![0, 0, 0, 3] : Fin 4 → ℕ) a : ℕ) : Int)) (V (Proc.devRef .tc main_arg0)) (padOf (V (Proc.devRef .tc main_arg1))) :=
  (ch7_keep (W7 V) main_v20 (by decide)).trans (W7_main_v20 V)
theorem W9_main_v20 (V : Valuation τ sig (Elt F)) : W9 V (Proc.devRef .tc main_v20) = meanOf (fun a => (((![0, 0, 0, 3] : Fin 4 → ℕ) a : ℕ) : Int)) (V (Proc.devRef .tc main_arg0)) (padOf (V (Proc.devRef .tc main_arg1))) :=
  (ch8_keep (W8 V) main_v20 (by decide)).trans (W8_main_v20 V)

theorem W5_main_v25 (V : Valuation τ sig (Elt F)) : W5 V (Proc.devRef .tc main_v25) = meanOf (fun a => (((![0, 0, 0, 4] : Fin 4 → ℕ) a : ℕ) : Int)) (V (Proc.devRef .tc main_arg0)) (padOf (V (Proc.devRef .tc main_arg1))) :=
  (ch4_val (W4 V)).trans (by rw [W4_main_arg0, W4_main_v0])
theorem W6_main_v25 (V : Valuation τ sig (Elt F)) : W6 V (Proc.devRef .tc main_v25) = meanOf (fun a => (((![0, 0, 0, 4] : Fin 4 → ℕ) a : ℕ) : Int)) (V (Proc.devRef .tc main_arg0)) (padOf (V (Proc.devRef .tc main_arg1))) :=
  (ch5_keep (W5 V) main_v25 (by decide)).trans (W5_main_v25 V)
theorem W7_main_v25 (V : Valuation τ sig (Elt F)) : W7 V (Proc.devRef .tc main_v25) = meanOf (fun a => (((![0, 0, 0, 4] : Fin 4 → ℕ) a : ℕ) : Int)) (V (Proc.devRef .tc main_arg0)) (padOf (V (Proc.devRef .tc main_arg1))) :=
  (ch6_keep (W6 V) main_v25 (by decide)).trans (W6_main_v25 V)
theorem W8_main_v25 (V : Valuation τ sig (Elt F)) : W8 V (Proc.devRef .tc main_v25) = meanOf (fun a => (((![0, 0, 0, 4] : Fin 4 → ℕ) a : ℕ) : Int)) (V (Proc.devRef .tc main_arg0)) (padOf (V (Proc.devRef .tc main_arg1))) :=
  (ch7_keep (W7 V) main_v25 (by decide)).trans (W7_main_v25 V)
theorem W9_main_v25 (V : Valuation τ sig (Elt F)) : W9 V (Proc.devRef .tc main_v25) = meanOf (fun a => (((![0, 0, 0, 4] : Fin 4 → ℕ) a : ℕ) : Int)) (V (Proc.devRef .tc main_arg0)) (padOf (V (Proc.devRef .tc main_arg1))) :=
  (ch8_keep (W8 V) main_v25 (by decide)).trans (W8_main_v25 V)

theorem W6_main_v30 (V : Valuation τ sig (Elt F)) : W6 V (Proc.devRef .tc main_v30) = meanOf (fun a => (((![0, 0, 0, 5] : Fin 4 → ℕ) a : ℕ) : Int)) (V (Proc.devRef .tc main_arg0)) (padOf (V (Proc.devRef .tc main_arg1))) :=
  (ch5_val (W5 V)).trans (by rw [W5_main_arg0, W5_main_v0])
theorem W7_main_v30 (V : Valuation τ sig (Elt F)) : W7 V (Proc.devRef .tc main_v30) = meanOf (fun a => (((![0, 0, 0, 5] : Fin 4 → ℕ) a : ℕ) : Int)) (V (Proc.devRef .tc main_arg0)) (padOf (V (Proc.devRef .tc main_arg1))) :=
  (ch6_keep (W6 V) main_v30 (by decide)).trans (W6_main_v30 V)
theorem W8_main_v30 (V : Valuation τ sig (Elt F)) : W8 V (Proc.devRef .tc main_v30) = meanOf (fun a => (((![0, 0, 0, 5] : Fin 4 → ℕ) a : ℕ) : Int)) (V (Proc.devRef .tc main_arg0)) (padOf (V (Proc.devRef .tc main_arg1))) :=
  (ch7_keep (W7 V) main_v30 (by decide)).trans (W7_main_v30 V)
theorem W9_main_v30 (V : Valuation τ sig (Elt F)) : W9 V (Proc.devRef .tc main_v30) = meanOf (fun a => (((![0, 0, 0, 5] : Fin 4 → ℕ) a : ℕ) : Int)) (V (Proc.devRef .tc main_arg0)) (padOf (V (Proc.devRef .tc main_arg1))) :=
  (ch8_keep (W8 V) main_v30 (by decide)).trans (W8_main_v30 V)

theorem W7_main_v35 (V : Valuation τ sig (Elt F)) : W7 V (Proc.devRef .tc main_v35) = meanOf (fun a => (((![0, 0, 0, 6] : Fin 4 → ℕ) a : ℕ) : Int)) (V (Proc.devRef .tc main_arg0)) (padOf (V (Proc.devRef .tc main_arg1))) :=
  (ch6_val (W6 V)).trans (by rw [W6_main_arg0, W6_main_v0])
theorem W8_main_v35 (V : Valuation τ sig (Elt F)) : W8 V (Proc.devRef .tc main_v35) = meanOf (fun a => (((![0, 0, 0, 6] : Fin 4 → ℕ) a : ℕ) : Int)) (V (Proc.devRef .tc main_arg0)) (padOf (V (Proc.devRef .tc main_arg1))) :=
  (ch7_keep (W7 V) main_v35 (by decide)).trans (W7_main_v35 V)
theorem W9_main_v35 (V : Valuation τ sig (Elt F)) : W9 V (Proc.devRef .tc main_v35) = meanOf (fun a => (((![0, 0, 0, 6] : Fin 4 → ℕ) a : ℕ) : Int)) (V (Proc.devRef .tc main_arg0)) (padOf (V (Proc.devRef .tc main_arg1))) :=
  (ch8_keep (W8 V) main_v35 (by decide)).trans (W8_main_v35 V)

theorem W8_main_v40 (V : Valuation τ sig (Elt F)) : W8 V (Proc.devRef .tc main_v40) = meanOf (fun a => (((![0, 0, 0, 7] : Fin 4 → ℕ) a : ℕ) : Int)) (V (Proc.devRef .tc main_arg0)) (padOf (V (Proc.devRef .tc main_arg1))) :=
  (ch7_val (W7 V)).trans (by rw [W7_main_arg0, W7_main_v0])
theorem W9_main_v40 (V : Valuation τ sig (Elt F)) : W9 V (Proc.devRef .tc main_v40) = meanOf (fun a => (((![0, 0, 0, 7] : Fin 4 → ℕ) a : ℕ) : Int)) (V (Proc.devRef .tc main_arg0)) (padOf (V (Proc.devRef .tc main_arg1))) :=
  (ch8_keep (W8 V) main_v40 (by decide)).trans (W8_main_v40 V)

theorem W9_main_v45 (V : Valuation τ sig (Elt F)) : W9 V (Proc.devRef .tc main_v45) = meanOf (fun a => (((![0, 0, 0, 8] : Fin 4 → ℕ) a : ℕ) : Int)) (V (Proc.devRef .tc main_arg0)) (padOf (V (Proc.devRef .tc main_arg1))) :=
  (ch8_val (W8 V)).trans (by rw [W8_main_arg0, W8_main_v0])

/-- THE RESULT BUFFER after the program: the nine displacements' means of the first map and the padded second map, joined. -/
theorem ops_result (V : Valuation τ sig (Elt F)) :
    after ops V (Proc.devRef .tc main_v55)
      = joinOf ![meanOf (fun a => (((![0, 0, 0, 0] : Fin 4 → ℕ) a : ℕ) : Int)) (V (Proc.devRef .tc main_arg0)) (padOf (V (Proc.devRef .tc main_arg1))),
          meanOf (fun a => (((![0, 0, 0, 1] : Fin 4 → ℕ) a : ℕ) : Int)) (V (Proc.devRef .tc main_arg0)) (padOf (V (Proc.devRef .tc main_arg1))),
          meanOf (fun a => (((![0, 0, 0, 2] : Fin 4 → ℕ) a : ℕ) : Int)) (V (Proc.devRef .tc main_arg0)) (padOf (V (Proc.devRef .tc main_arg1))),
          meanOf (fun a => (((![0, 0, 0, 3] : Fin 4 → ℕ) a : ℕ) : Int)) (V (Proc.devRef .tc main_arg0)) (padOf (V (Proc.devRef .tc main_arg1))),
          meanOf (fun a => (((![0, 0, 0, 4] : Fin 4 → ℕ) a : ℕ) : Int)) (V (Proc.devRef .tc main_arg0)) (padOf (V (Proc.devRef .tc main_arg1))),
          meanOf (fun a => (((![0, 0, 0, 5] : Fin 4 → ℕ) a : ℕ) : Int)) (V (Proc.devRef .tc main_arg0)) (padOf (V (Proc.devRef .tc main_arg1))),
          meanOf (fun a => (((![0, 0, 0, 6] : Fin 4 → ℕ) a : ℕ) : Int)) (V (Proc.devRef .tc main_arg0)) (padOf (V (Proc.devRef .tc main_arg1))),
          meanOf (fun a => (((![0, 0, 0, 7] : Fin 4 → ℕ) a : ℕ) : Int)) (V (Proc.devRef .tc main_arg0)) (padOf (V (Proc.devRef .tc main_arg1))),
          meanOf (fun a => (((![0, 0, 0, 8] : Fin 4 → ℕ) a : ℕ) : Int)) (V (Proc.devRef .tc main_arg0)) (padOf (V (Proc.devRef .tc main_arg1)))] := by
  rw [after_ops_eq, tail_val, W9_main_v5, W9_main_v10, W9_main_v15, W9_main_v20, W9_main_v25, W9_main_v30, W9_main_v35, W9_main_v40, W9_main_v45]

theorem ops_main_arg0 (V : Valuation τ sig (Elt F)) : after ops V (Proc.devRef .tc main_arg0) = V (Proc.devRef .tc main_arg0) := by
  rw [after_ops_eq]
  exact (tail_keep (W9 V) main_arg0 (by decide)).trans (W9_main_arg0 V)

theorem ops_main_arg1 (V : Valuation τ sig (Elt F)) : after ops V (Proc.devRef .tc main_arg1) = V (Proc.devRef .tc main_arg1) := by
  rw [after_ops_eq]
  exact (tail_keep (W9 V) main_arg1 (by decide)).trans (W9_main_arg1 V)

/-- The result as a function of the two argument arrays. -/
def result (x0 x1 : (⟨S8x256x96x320, .f32⟩ : BufTy).Contents (Elt F)) : (⟨S8x9x96x320, .f32⟩ : BufTy).Contents (Elt F) :=
  joinOf ![meanOf (fun a => (((![0, 0, 0, 0] : Fin 4 → ℕ) a : ℕ) : Int)) x0 (padOf x1),
          meanOf (fun a => (((![0, 0, 0, 1] : Fin 4 → ℕ) a : ℕ) : Int)) x0 (padOf x1),
          meanOf (fun a => (((![0, 0, 0, 2] : Fin 4 → ℕ) a : ℕ) : Int)) x0 (padOf x1),
          meanOf (fun a => (((![0, 0, 0, 3] : Fin 4 → ℕ) a : ℕ) : Int)) x0 (padOf x1),
          meanOf (fun a => (((![0, 0, 0, 4] : Fin 4 → ℕ) a : ℕ) : Int)) x0 (padOf x1),
          meanOf (fun a => (((![0, 0, 0, 5] : Fin 4 → ℕ) a : ℕ) : Int)) x0 (padOf x1),
          meanOf (fun a => (((![0, 0, 0, 6] : Fin 4 → ℕ) a : ℕ) : Int)) x0 (padOf x1),
          meanOf (fun a => (((![0, 0, 0, 7] : Fin 4 → ℕ) a : ℕ) : Int)) x0 (padOf x1),
          meanOf (fun a => (((![0, 0, 0, 8] : Fin 4 → ℕ) a : ℕ) : Int)) x0 (padOf x1)]

set_option maxRecDepth 8192 in
set_option maxHeartbeats 4000000 in
/-- On every device, from any memory with zero counters: every weakly fair execution of @main terminates with the result buffer
    at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v55).trans (ops_result (launchContents m c)),
        (h c main_arg0).trans (ops_main_arg0 (launchContents m c)),
        (h c main_arg1).trans (ops_main_arg1 (launchContents m c))⟩)
    (run_seq scopedRefs_eq scopedSems_eq defs main (fun _ => ops) main_eq (fun _ => ops_sub) m ρ)

end Cert.ReferenceIdeal.RefRun

end
-- ==== Proof.CostPad.lean ====
/-
  A window of a zero-padded array, read at an index.

  The reference pads the second feature map with 4 columns of a padding value on each side (320 columns become 328) and, for
  displacement d - 4, takes the 320 columns starting at column d of the padded array.  At column w that window holds the
  map's column w + d - 4 when that column exists (4 ≤ w + d < 324) and the padding value otherwise.
-/
import Idealize.ShloMosaic.Lib.ValueIdx
import Idealize.ShloMosaic.Lib.KernelVsHost
import Idealize.ShloMosaic.Lib.Pipeline.Value

noncomputable section

namespace Cert.CostPad

open Idealize.ShloMosaic Idealize.ShloMosaic.ValueIdx

/-- A feature map. -/
abbrev Arr : Shape := ⟨4, ![8, 256, 96, 320]⟩
/-- The map padded by 4 columns on each side. -/
abbrev Padded : Shape := ⟨4, ![8, 256, 96, 328]⟩

theorem slice_pad_apply {α : Type} (x : Arr.Idx → α) {u : Shape} (z : u.Idx → α) (hu : 0 < u.numel) (d : ℕ) (hd : d < 9)
    (hp : Arr.Pads ![0, 0, 0, 4] ![0, 0, 0, 4] ![0, 0, 0, 0] Padded) (hoff : Padded.Slices ![0, 0, 0, d] Arr)
    (b : Fin 8) (k : Fin 256) (h : Fin 96) (w : Fin 320) :
    extractStridedSlice Arr ![0, 0, 0, d] (pad Padded ![0, 0, 0, 4] ![0, 0, 0, 4] ![0, 0, 0, 0] x z hp hu) hoff
        (@ix4 8 256 96 320 b k h w)
      = if hm : 4 ≤ w.val + d ∧ w.val + d < 324 then x (@ix4 8 256 96 320 b k h ⟨w.val + d - 4, by omega⟩)
        else z (Shape.Idx.first hu) := by
  have hw := w.isLt
  rw [extractStridedSlice_apply ![0, 0, 0, d] _ hoff (@ix4 8 256 96 320 b k h w)
    (@ix4 8 256 96 328 b k h ⟨w.val + d, by omega⟩) (fun a => by
      match a with
      | ⟨0, _⟩ => show b.val = 0 + b.val; omega
      | ⟨1, _⟩ => show k.val = 0 + k.val; omega
      | ⟨2, _⟩ => show h.val = 0 + h.val; omega
      | ⟨3, _⟩ => show w.val + d = d + w.val; omega)]
  by_cases hm : 4 ≤ w.val + d ∧ w.val + d < 324
  · rw [dif_pos hm]
    refine pad_apply_of_inside ![0, 0, 0, 4] ![0, 0, 0, 4] ![0, 0, 0, 0] x z hp hu _
      (@ix4 8 256 96 320 b k h ⟨w.val + d - 4, by omega⟩) (fun a => ?_)
    match a with
    | ⟨0, _⟩ => show b.val = 0 + b.val * (0 + 1); omega
    | ⟨1, _⟩ => show k.val = 0 + k.val * (0 + 1); omega
    | ⟨2, _⟩ => show h.val = 0 + h.val * (0 + 1); omega
    | ⟨3, _⟩ => show w.val + d = 4 + (w.val + d - 4) * (0 + 1); omega
  · rw [dif_neg hm]
    refine pad_apply_of_not_inside ![0, 0, 0, 4] ![0, 0, 0, 4] ![0, 0, 0, 0] x z hp hu _ (3 : Fin 4) (fun hin => hm ?_)
    have h1 : 4 ≤ w.val + d := hin.1
    have h3 : (w.val + d - 4) / (0 + 1) < 320 := hin.2.2
    rw [Nat.div_one] at h3
    omega

end Cert.CostPad

end
-- ==== Proof.CostMean.lean ====
/-
  One displacement of the reference, read at an index.

  The reference multiplies the first feature map by a 320-column window of the zero-padded second map (the window starting at
  padded column d), sums over the 256 channels from the word 0, and divides by the word 256.  At (b, h, w) that is
  (0 + corr b d h w) / 256: where the displaced column does not exist the window holds the padding value 0, and a product
  with 0 is 0 on the extended reals whatever the other factor.
-/
import proofs.«174796_j82008105550452_2_alg».proof.Proof.Gen.ReferenceIdeal
import proofs.«174796_j82008105550452_2_alg».proof.Proof.CostSpec
import proofs.«174796_j82008105550452_2_alg».proof.Proof.CostPad
import Idealize.ShloMosaic.PureOps.Ideal.Laws
import Idealize.ShloMosaic.Lib.DynamicIndex
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-- The feature-map index over result index (b, h, w) with channel k inserted is (b, k, h, w). -/
theorem lift_eq (hR : S8x256x96x320.Reduces [1] S8x96x320) (b : Fin 8) (h : Fin 96) (w : Fin 320)
    (k : Fin (S8x256x96x320.size 1)) :
    hR.lift (@ix3 8 96 320 b h w) k = @ix4 8 256 96 320 b k h w := by
  funext c
  apply Fin.ext
  rw [Shape.Reduces.lift_val]
  unfold Shape.Reduces.liftVal
  match c with
  | ⟨0, _⟩ => rfl
  | ⟨1, _⟩ => rfl
  | ⟨2, _⟩ => rfl
  | ⟨3, _⟩ => rfl

/-- ONE DISPLACEMENT OF THE REFERENCE at (b, h, w). -/
theorem mean_apply (x0 x1 : FVec Ideal S8x256x96x320 .f32) (z : FVec Ideal S_ .f32) (hz : z (Shape.Idx.first Gen.h_S_) = 0)
    (d : ℕ) (hd : d < 9) (start : Fin 4 → Int) (hstart : ∀ a, start a = (((![0, 0, 0, d] : Fin 4 → ℕ) a : ℕ) : Int))
    (b : Fin 8) (h : Fin 96) (w : Fin 320) :
    Host.divf (F := Ideal)
        (Host.reduceAdd (F := Ideal)
          (mulf (F := Ideal) x0 (Host.dynamicSlice S8x256x96x320
            (pad S8x256x96x328 ![0, 0, 0, 4] ![0, 0, 0, 4] ![0, 0, 0, 0] x1 z Gen.pads_S8x256x96x320_S8x256x96x328_000_000_000_440 Gen.h_S_)
            start Gen.sliceFits_S8x256x96x328_S8x256x96x320))
          (constant (F := Ideal) S_ .f32 0x00000000#32) Gen.reducesTo_S8x256x96x320_S8x96x320_d1 Gen.h_S_)
        (broadcastInDim S8x96x320 ![] Gen.bcast_S_S8x96x320 (constant (F := Ideal) S_ .f32 0x43800000#32))
        (@ix3 8 96 320 b h w)
      = Ideal.div (Ideal.ofBits .f32 0x00000000#32 + CostSpec.corr x0 x1 b d h w) (Ideal.ofBits .f32 0x43800000#32) := by
  have hoff : S8x256x96x328.Slices ![0, 0, 0, d] S8x256x96x320 := ⟨rfl, fun a => by
    match a with
    | ⟨0, _⟩ => show 0 + 8 ≤ 8; omega
    | ⟨1, _⟩ => show 0 + 256 ≤ 256; omega
    | ⟨2, _⟩ => show 0 + 96 ≤ 96; omega
    | ⟨3, _⟩ => show d + 320 ≤ 328; omega⟩
  rw [Host.dynamicSlice_eq_extractStridedSlice S8x256x96x320 _ start ![0, 0, 0, d]
    Gen.sliceFits_S8x256x96x328_S8x256x96x320 hoff hstart]
  show Ideal.div (Host.reduceAdd (F := Ideal) _ _ Gen.reducesTo_S8x256x96x320_S8x96x320_d1 Gen.h_S_ (@ix3 8 96 320 b h w))
    (broadcastInDim S8x96x320 ![] Gen.bcast_S_S8x96x320 (constant (F := Ideal) S_ .f32 0x43800000#32) (@ix3 8 96 320 b h w)) = _
  rw [broadcastInDim_scalar_apply, constant_apply]
  congr 1
  simp only [Host.reduceAdd, Ideal.hostReduceAdd_def]
  rw [Ideal.hostReduceAdd_single Gen.reducesTo_S8x256x96x320_S8x96x320_d1 (by decide)]
  rw [constant_apply]
  congr 1
  have hterm : ∀ k : Fin (S8x256x96x320.size 1),
      mulf (F := Ideal) x0 (extractStridedSlice S8x256x96x320 ![0, 0, 0, d]
        (pad S8x256x96x328 ![0, 0, 0, 4] ![0, 0, 0, 4] ![0, 0, 0, 0] x1 z Gen.pads_S8x256x96x320_S8x256x96x328_000_000_000_440 Gen.h_S_) hoff)
        (Shape.Reduces.lift (s := S8x256x96x320) (t := S8x96x320) (a := 1) (by decide) (@ix3 8 96 320 b h w) k)
      = x0 (@ix4 8 256 96 320 b k h w) * (if hm : 4 ≤ w.val + d ∧ w.val + d < 324 then
          x1 (@ix4 8 256 96 320 b k h ⟨w.val + d - 4, by omega⟩) else z (Shape.Idx.first Gen.h_S_)) := fun k => by
    rw [lift_eq _ b h w k, mulf_apply, CostPad.slice_pad_apply x1 z Gen.h_S_ d hd Gen.pads_S8x256x96x320_S8x256x96x328_000_000_000_440 hoff b k h w]
  refine (Finset.sum_congr rfl fun k _ => hterm k).trans ?_
  unfold CostSpec.corr
  by_cases hm : 4 ≤ w.val + d ∧ w.val + d < 324
  · simp only [dif_pos hm]
    rfl
  · simp only [dif_neg hm, hz, mul_zero, Finset.sum_const_zero]

end Cert.ReferenceIdeal.RefValue

end
-- ==== Proof.CostRef.lean ====
/-
  The reference's result is the cost volume.

  The reference computes the nine displacements one after the other (each a masked channel mean, read in the module before this
  one), gives each a unit axis and joins them along that axis: entry (b, d, h, w) of the result is displacement d's entry (b, h, w).
-/
import proofs.«174796_j82008105550452_2_alg».proof.Proof.RefRun
import proofs.«174796_j82008105550452_2_alg».proof.Proof.CostMean

set_option maxRecDepth 16384

noncomputable section

namespace Cert.ReferenceIdeal.RefValue

open Cert.ReferenceIdeal Cert.ReferenceIdeal.Gen Cert.ReferenceIdeal.RefRun Idealize.ShloMosaic Idealize.ShloMosaic.ValueIdx

/-- The padding value: the integer 0 converted to a float is 0. -/
theorem pad_zero : (sitofp .f32 (constantI S_ 32 0#32) : FVec Ideal S_ .f32) (Shape.Idx.first Gen.h_S_) = 0 := by
  show (((0#32 : BitVec 32).toInt : ℝ) : EReal) = 0
  simp

/-- A mean given a unit axis, read at (b, 0, h, w), is the mean at (b, h, w). -/
theorem unit_axis_apply (y : FVec Ideal S8x96x320 .f32) (b : Fin 8) (h : Fin 96) (w : Fin 320) :
    broadcastInDim S8x1x96x320 ![0, 2, 3] Gen.bcast_S8x96x320_S8x1x96x320_0_2_3 y (@ix4 8 1 96 320 b 0 h w)
      = y (@ix3 8 96 320 b h w) :=
  broadcastInDim_apply _ Gen.bcast_S8x96x320_S8x1x96x320_0_2_3 y _ (@ix3 8 96 320 b h w) (fun a => match a with
    | ⟨0, _⟩ => by show b.val = if (8 : Nat) = 1 then 0 else b.val; rw [if_neg (by decide)]
    | ⟨1, _⟩ => by show h.val = if (96 : Nat) = 1 then 0 else h.val; rw [if_neg (by decide)]
    | ⟨2, _⟩ => by show w.val = if (320 : Nat) = 1 then 0 else w.val; rw [if_neg (by decide)])

/-- The join of nine planes-with-a-unit-axis, read at (b, d, h, w), is plane d at (b, h, w). -/
theorem joinOf_apply (y : Fin 9 → (⟨S8x96x320, .f32⟩ : BufTy).Contents (Elt Ideal)) (b : Fin 8) (d : Fin 9) (h : Fin 96) (w : Fin 320) :
    joinOf (F := Ideal) y (@ix4 8 9 96 320 b d h w) = y d (@ix3 8 96 320 b h w) := by
  unfold joinOf
  have hi : ∀ bb : Fin S8x1x96x320.rank, bb.cast (rfl : S8x1x96x320.rank = S8x9x96x320.rank) ≠ (1 : Fin 4) →
      ((@ix4 8 1 96 320 b 0 h w) bb).val = ((@ix4 8 9 96 320 b d h w) (bb.cast rfl)).val := fun bb hb => by
    match bb with
    | ⟨0, _⟩ => rfl
    | ⟨1, _⟩ => exact (hb (Fin.ext rfl)).elim
    | ⟨2, _⟩ => rfl
    | ⟨3, _⟩ => rfl
  match d with
  | ⟨0, _⟩ =>
    refine (concatenate_apply_piece (1 : Fin 4) _ _ (@ix4 8 9 96 320 b ⟨0, by decide⟩ h w) 0 ?_ S8x1x96x320 (broadcastInDim S8x1x96x320 ![0, 2, 3] Gen.bcast_S8x96x320_S8x1x96x320_0_2_3 (y 0)) ?_ rfl 0 ?_
      (@ix4 8 1 96 320 b 0 h w) hi rfl).trans ?_
    · simp
    · rfl
    · rfl
    exact unit_axis_apply _ b h w
  | ⟨1, _⟩ =>
    refine (concatenate_apply_piece (1 : Fin 4) _ _ (@ix4 8 9 96 320 b ⟨1, by decide⟩ h w) 1 ?_ S8x1x96x320 (broadcastInDim S8x1x96x320 ![0, 2, 3] Gen.bcast_S8x96x320_S8x1x96x320_0_2_3 (y 1)) ?_ rfl 1 ?_
      (@ix4 8 1 96 320 b 0 h w) hi rfl).trans ?_
    · simp
    · rfl
    · rfl
    exact unit_axis_apply _ b h w
  | ⟨2, _⟩ =>
    refine (concatenate_apply_piece (1 : Fin 4) _ _ (@ix4 8 9 96 320 b ⟨2, by decide⟩ h w) 2 ?_ S8x1x96x320 (broadcastInDim S8x1x96x320 ![0, 2, 3] Gen.bcast_S8x96x320_S8x1x96x320_0_2_3 (y 2)) ?_ rfl 2 ?_
      (@ix4 8 1 96 320 b 0 h w) hi rfl).trans ?_
    · simp
    · rfl
    · rfl
    exact unit_axis_apply _ b h w
  | ⟨3, _⟩ =>
    refine (concatenate_apply_piece (1 : Fin 4) _ _ (@ix4 8 9 96 320 b ⟨3, by decide⟩ h w) 3 ?_ S8x1x96x320 (broadcastInDim S8x1x96x320 ![0, 2, 3] Gen.bcast_S8x96x320_S8x1x96x320_0_2_3 (y 3)) ?_ rfl 3 ?_
      (@ix4 8 1 96 320 b 0 h w) hi rfl).trans ?_
    · simp
    · rfl
    · rfl
    exact unit_axis_apply _ b h w
  | ⟨4, _⟩ =>
    refine (concatenate_apply_piece (1 : Fin 4) _ _ (@ix4 8 9 96 320 b ⟨4, by decide⟩ h w) 4 ?_ S8x1x96x320 (broadcastInDim S8x1x96x320 ![0, 2, 3] Gen.bcast_S8x96x320_S8x1x96x320_0_2_3 (y 4)) ?_ rfl 4 ?_
      (@ix4 8 1 96 320 b 0 h w) hi rfl).trans ?_
    · simp
    · rfl
    · rfl
    exact unit_axis_apply _ b h w
  | ⟨5, _⟩ =>
    refine (concatenate_apply_piece (1 : Fin 4) _ _ (@ix4 8 9 96 320 b ⟨5, by decide⟩ h w) 5 ?_ S8x1x96x320 (broadcastInDim S8x1x96x320 ![0, 2, 3] Gen.bcast_S8x96x320_S8x1x96x320_0_2_3 (y 5)) ?_ rfl 5 ?_
      (@ix4 8 1 96 320 b 0 h w) hi rfl).trans ?_
    · simp
    · rfl
    · rfl
    exact unit_axis_apply _ b h w
  | ⟨6, _⟩ =>
    refine (concatenate_apply_piece (1 : Fin 4) _ _ (@ix4 8 9 96 320 b ⟨6, by decide⟩ h w) 6 ?_ S8x1x96x320 (broadcastInDim S8x1x96x320 ![0, 2, 3] Gen.bcast_S8x96x320_S8x1x96x320_0_2_3 (y 6)) ?_ rfl 6 ?_
      (@ix4 8 1 96 320 b 0 h w) hi rfl).trans ?_
    · simp
    · rfl
    · rfl
    exact unit_axis_apply _ b h w
  | ⟨7, _⟩ =>
    refine (concatenate_apply_piece (1 : Fin 4) _ _ (@ix4 8 9 96 320 b ⟨7, by decide⟩ h w) 7 ?_ S8x1x96x320 (broadcastInDim S8x1x96x320 ![0, 2, 3] Gen.bcast_S8x96x320_S8x1x96x320_0_2_3 (y 7)) ?_ rfl 7 ?_
      (@ix4 8 1 96 320 b 0 h w) hi rfl).trans ?_
    · simp
    · rfl
    · rfl
    exact unit_axis_apply _ b h w
  | ⟨8, _⟩ =>
    refine (concatenate_apply_piece (1 : Fin 4) _ _ (@ix4 8 9 96 320 b ⟨8, by decide⟩ h w) 8 ?_ S8x1x96x320 (broadcastInDim S8x1x96x320 ![0, 2, 3] Gen.bcast_S8x96x320_S8x1x96x320_0_2_3 (y 8)) ?_ rfl 8 ?_
      (@ix4 8 1 96 320 b 0 h w) hi rfl).trans ?_
    · simp
    · rfl
    · rfl
    exact unit_axis_apply _ b h w

/-- One displacement's mean of the two maps at (b, h, w): the cost volume's entry. -/
theorem meanOf_apply (d : ℕ) (hd : d < 9) (x0 x1 : (⟨S8x256x96x320, .f32⟩ : BufTy).Contents (Elt Ideal))
    (b : Fin 8) (h : Fin 96) (w : Fin 320) :
    meanOf (F := Ideal) (fun a => (((![0, 0, 0, d] : Fin 4 → ℕ) a : ℕ) : Int)) x0 (padOf x1) (@ix3 8 96 320 b h w)
      = Ideal.div (Ideal.ofBits .f32 0x00000000#32 + CostSpec.corr x0 x1 b d h w) (Ideal.ofBits .f32 0x43800000#32) := by
  unfold meanOf padOf
  exact mean_apply x0 x1 (sitofp .f32 (constantI S_ 32 0#32)) pad_zero d hd _ (fun a => rfl) b h w

/-- THE REFERENCE AT AN INDEX: the cost volume's entry. -/
theorem ref_at (x0 x1 : (⟨S8x256x96x320, .f32⟩ : BufTy).Contents (Elt Ideal)) (b : Fin 8) (d : Fin 9) (h : Fin 96) (w : Fin 320) :
    RefRun.result (F := Ideal) x0 x1 (@ix4 8 9 96 320 b d h w) = CostSpec.G x0 x1 (@ix4 8 9 96 320 b d h w) := by
  unfold CostSpec.G
  show _ = Ideal.div (Ideal.ofBits .f32 0x00000000#32 + CostSpec.corr x0 x1 b d.val h w) (Ideal.ofBits .f32 0x43800000#32)
  unfold RefRun.result
  rw [joinOf_apply]
  match d with
  | ⟨0, _⟩ => exact meanOf_apply 0 (by decide) x0 x1 b h w
  | ⟨1, _⟩ => exact meanOf_apply 1 (by decide) x0 x1 b h w
  | ⟨2, _⟩ => exact meanOf_apply 2 (by decide) x0 x1 b h w
  | ⟨3, _⟩ => exact meanOf_apply 3 (by decide) x0 x1 b h w
  | ⟨4, _⟩ => exact meanOf_apply 4 (by decide) x0 x1 b h w
  | ⟨5, _⟩ => exact meanOf_apply 5 (by decide) x0 x1 b h w
  | ⟨6, _⟩ => exact meanOf_apply 6 (by decide) x0 x1 b h w
  | ⟨7, _⟩ => exact meanOf_apply 7 (by decide) x0 x1 b h w
  | ⟨8, _⟩ => exact meanOf_apply 8 (by decide) x0 x1 b h w

/-- So the reference's result array is the cost volume of its arguments. -/
theorem ref_eq (x0 x1 : (⟨S8x256x96x320, .f32⟩ : BufTy).Contents (Elt Ideal)) :
    RefRun.result (F := Ideal) x0 x1 = CostSpec.G x0 x1 := by
  funext y
  obtain ⟨b, d, h, w, rfl⟩ : ∃ (b : Fin 8) (d : Fin 9) (h : Fin 96) (w : Fin 320), y = ix4 b d h w :=
    ⟨y 0, y 1, y 2, y 3, eq_ix4 y⟩
  exact ref_at x0 x1 b d h w

end Cert.ReferenceIdeal.RefValue

end
-- ==== Proof.lean ====
/-
  The cost volume kernel against its reference.

  Both programs compute, for batch b, displacement d - 4 (d = 0 … 8), row h and column w,
      ( 0 + ∑_{c < 256} f1[b,c,h,w] · f2[b,c,h,w+d-4] ) / 256      where 0 ≤ w + d - 4 < 320,   and 0 / 256 elsewhere.
  The kernel visits the 256 channels in 8 blocks of 32, keeps nine running planes in a scratch accumulator (zeroed at the first
  block of each batch), reaches the displaced column by rotating the block along its columns and masking the columns where the
  rotation wrapped, and at the last block multiplies the accumulator by the word 2⁻⁸.  The reference pads the second map with
  zeros, slices the displaced window, multiplies, sums over all 256 channels and divides by the word 256.  Over the extended
  reals the two agree for every input: a sum taken block by block is the whole sum, a product with the padding zero is zero,
  and multiplying by 2⁻⁸ is dividing by 256.  The ideal pass rewrote nothing, so the preservation claim is trivial; the three
  frames are the generated runs.
-/
import proofs.«174796_j82008105550452_2_alg».proof.Defs
import proofs.«174796_j82008105550452_2_alg».proof.Proof.Gen.Kernel
import proofs.«174796_j82008105550452_2_alg».proof.Proof.Gen.Kernel.Skeleton
import proofs.«174796_j82008105550452_2_alg».proof.Proof.Gen.Kernel.Launch
import proofs.«174796_j82008105550452_2_alg».proof.Proof.Gen.Kernel.Points
import proofs.«174796_j82008105550452_2_alg».proof.Proof.Gen.Kernel.Frame
import proofs.«174796_j82008105550452_2_alg».proof.Proof.Gen.KernelIdeal
import proofs.«174796_j82008105550452_2_alg».proof.Proof.Gen.KernelIdeal.Skeleton
import proofs.«174796_j82008105550452_2_alg».proof.Proof.Gen.KernelIdeal.Launch
import proofs.«174796_j82008105550452_2_alg».proof.Proof.Gen.KernelIdeal.Points
import proofs.«174796_j82008105550452_2_alg».proof.Proof.Gen.KernelIdeal.Frame
import proofs.«174796_j82008105550452_2_alg».proof.Proof.Gen.ReferenceIdeal
import proofs.«174796_j82008105550452_2_alg».proof.Proof.Gen.Pre_finite_inputs
import proofs.«174796_j82008105550452_2_alg».proof.Proof.Gen.KernelIdeal.Value
import proofs.«174796_j82008105550452_2_alg».proof.Proof.CostKernel
import proofs.«174796_j82008105550452_2_alg».proof.Proof.CostRef
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run (F := Ideal) m ρ),
  trivial,
  fun m ρ m' ρ' _ hagree =>
    ⟨fun c => Cert.CostSpec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Final.run m ρ,
      (θ_run Cert.ReferenceIdeal.defs _ _).mono (fun _ h c =>
        ⟨by rw [(h c).1, Cert.ReferenceIdeal.RefValue.ref_eq, (hagree c).1, (hagree c).2],
          (h c).2⟩)
        (Cert.ReferenceIdeal.RefRun.run (F := Ideal) m' ρ')⟩⟩

end Cert.Proof

end
